-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x16 : Shape := ⟨2, ![100000, 16]⟩
abbrev S1600000x16 : Shape := ⟨2, ![1600000, 16]⟩
abbrev S100000 : Shape := ⟨1, ![100000]⟩
abbrev S48x20 : Shape := ⟨2, ![48, 20]⟩
abbrev S20 : Shape := ⟨1, ![20]⟩
abbrev S20x10 : Shape := ⟨2, ![20, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S48x20 : S_.BroadcastsInDim S48x20 (![] : Fin 0 → Fin S48x20.rank)
  reducesTo_S48x20_S_d0_1 : S48x20.ReducesTo [0, 1] S_
  bcast_S_S20 : S_.BroadcastsInDim S20 (![] : Fin 0 → Fin S20.rank)
  reducesTo_S20_S_d0 : S20.ReducesTo [0] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S10 .f32) (main_arg10 : FVec F S10x1 .f32) (main_arg11 : FVec F S1 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x1 .f32 := Host.absf main_arg10
  let main_cst_14 : FVec F S_ .f32 := constant S_ .f32 0x7F800000#32
  let main_v40 : FVec F S10x1 .f32 := broadcastInDim S10x1 ![] bcast_S_S10x1 main_cst_14
  let main_v41 : IVec S10x1 1 := cmpf .olt main_v39 main_v40
  let main_c_15 : IVec S_ 1 := constantI S_ 1 1#1
  let main_v42 : IVec S_ 1 := (fun x v => Host.reduce IntOp.andi x v reducesTo_S10x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S20x10 .f32) (main_arg7 : FVec F S10 .f32) (main_arg8 : FVec F S10x10 .f32) (main_arg9 : FVec F S10 .f32) (main_arg10 : FVec F S10x1 .f32) (main_arg11 : FVec F S1 .f32) (main_v13 : IVec S_ 1) (main_v16 : IVec S20 1) : IVec S_ 1 :=
  let main_c_5 : IVec S_ 1 := constantI S_ 1 1#1
  let main_v17 : IVec S_ 1 := (fun x v => Host.reduce IntOp.andi x v reducesTo_S20_S_d0 h_S_) main_v16 main_c_5
  let main_v18 : IVec S_ 1 := andi main_v13 main_v17
  let main_v19 : FVec F S20x10 .f32 := Host.absf main_arg6
  let main_cst_6 : FVec F S_ .f32 := constant S_ .f32 0x7F800000#32
  let main_v20 : FVec F S20x10 .f32 := broadcastInDim S20x10 ![] bcast_S_S20x10 main_cst_6
  let main_v21 : IVec S20x10 1 := cmpf .olt main_v19 main_v20
  let main_c_7 : IVec S_ 1 := constantI S_ 1 1#1
  let main_v22 : IVec S_ 1 := (fun x v => Host.reduce IntOp.andi x v reducesTo_S20x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x10 .f32 := Host.absf main_arg8
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg9 main_arg10 main_arg11 main_v33

def fn {F : FTy → Type} [FloatOps F] (main_arg0 : IVec S2x1600000 32) (main_arg1 : FVec F S100000x16 .f32) (main_arg2 : FVec F S1600000x16 .f32) (main_arg3 : IVec S100000 32) (main_arg4 : FVec F S48x20 .f32) (main_arg5 : FVec F S20 .f32) (main_arg6 : FVec F S20x10 .f32) (main_arg7 : FVec F S10 .f32) (main_arg8 : FVec F S10x10 .f32) (main_arg9 : FVec F S10 .f32) (main_arg10 : FVec F S10x1 .f32) (main_arg11 : FVec F S1 .f32) : IVec S_ 1 :=
  let main_v0 : FVec F S100000x16 .f32 := Host.absf main_arg1
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S48x20 .f32 := Host.absf main_arg4
  let main_cst_2 : FVec F S_ .f32 := constant S_ .f32 0x7F800000#32
  let main_v10 : FVec F S48x20 .f32 := broadcastInDim S48x20 ![] bcast_S_S48x20 main_cst_2
  let main_v11 : IVec S48x20 1 := cmpf .olt main_v9 main_v10
  let main_c_3 : IVec S_ 1 := constantI S_ 1 1#1
  let main_v12 : IVec S_ 1 := (fun x v => Host.reduce IntOp.andi x v reducesTo_S48x20_S_d0_1 h_S_) main_v11 main_c_3
  let main_v13 : IVec S_ 1 := andi main_v8 main_v12
  let main_v14 : FVec F S20 .f32 := Host.absf main_arg5
  let main_cst_4 : FVec F S_ .f32 := constant S_ .f32 0x7F800000#32
  let main_v15 : FVec F S20 .f32 := broadcastInDim S20 ![] bcast_S_S20 main_cst_4
  let main_v16 : IVec S20 1 := cmpf .olt main_v14 main_v15
  fn_part1 (F := F) main_arg6 main_arg7 main_arg8 main_arg9 main_arg10 main_arg11 main_v13 main_v16
-- ==== Kernel.lean ====
abbrev S2x1600000 : Shape := ⟨2, ![2, 1600000]⟩
abbrev S100000x16 : Shape := ⟨2, ![100000, 16]⟩
abbrev S1600000x16 : Shape := ⟨2, ![1600000, 16]⟩
abbrev S100000 : Shape := ⟨1, ![100000]⟩
abbrev S48x20 : Shape := ⟨2, ![48, 20]⟩
abbrev S20 : Shape := ⟨1, ![20]⟩
abbrev S20x10 : Shape := ⟨2, ![20, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S1x1600000 : Shape := ⟨2, ![1, 1600000]⟩
abbrev S1600000 : Shape := ⟨1, ![1600000]⟩
abbrev S16x20 : Shape := ⟨2, ![16, 20]⟩
abbrev S16x40 : Shape := ⟨2, ![16, 40]⟩
abbrev S100000x40 : Shape := ⟨2, ![100000, 40]⟩
abbrev S10000x16 : Shape := ⟨2, ![10000, 16]⟩
abbrev S10000x40 : Shape := ⟨2, ![10000, 40]⟩
abbrev S100000x20 : Shape := ⟨2, ![100000, 20]⟩
abbrev S_ : Shape := ⟨0, ![]⟩
abbrev S128x256 : Shape := ⟨2, ![128, 256]⟩
abbrev S2 : Shape := ⟨1, ![2]⟩
abbrev S256 : Shape := ⟨1, ![256]⟩
abbrev S1x256 : Shape := ⟨2, ![1, 256]⟩
abbrev S200000x128 : Shape := ⟨2, ![200000, 128]⟩
abbrev S200000x256 : Shape := ⟨2, ![200000, 256]⟩
abbrev S10000x128 : Shape := ⟨2, ![10000, 128]⟩
abbrev S10000x256 : Shape := ⟨2, ![10000, 256]⟩
abbrev S200000x160 : Shape := ⟨2, ![200000, 160]⟩
abbrev S1600000x20 : Shape := ⟨2, ![1600000, 20]⟩
abbrev S1600000x1 : Shape := ⟨2, ![1600000, 1]⟩
abbrev S1x10 : Shape := ⟨2, ![1, 10]⟩
abbrev S100000x10 : Shape := ⟨2, ![100000, 10]⟩
abbrev S10000x20 : Shape := ⟨2, ![10000, 20]⟩
abbrev S10000x10 : Shape := ⟨2, ![10000, 10]⟩
abbrev S5000x10 : Shape := ⟨2, ![5000, 10]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 148
  | .vmem => 17
  | .smem => 0
  | _ => 0

abbrev hbmTy0_0 (i : Nat) : BufTy := match i % 128 with
  | 0 => ⟨S2x1600000, .i32⟩
  | 1 => ⟨S100000x16, .f32⟩
  | 2 => ⟨S1600000x16, .f32⟩
  | 3 => ⟨S100000, .i32⟩
  | 4 => ⟨S48x20, .f32⟩
  | 5 => ⟨S20, .f32⟩
  | 6 => ⟨S20x10, .f32⟩
  | 7 => ⟨S10, .f32⟩
  | 8 => ⟨S10x10, .f32⟩
  | 9 => ⟨S10, .f32⟩
  | 10 => ⟨S10x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S16x20, .f32⟩
  | 17 => ⟨S16x20, .f32⟩
  | 18 => ⟨S16x20, .f32⟩
  | 19 => ⟨S16x40, .f32⟩
  | 20 => ⟨S100000x40, .f32⟩
  | 21 => ⟨S100000x20, .f32⟩
  | 22 => ⟨S100000x20, .f32⟩
  | 23 => ⟨S_, .f32⟩
  | 24 => ⟨S128x256, .f32⟩
  | 25 => ⟨S_, .i32⟩
  | 26 => ⟨S1, .i32⟩
  | 27 => ⟨S_, .i32⟩
  | 28 => ⟨S1, .i32⟩
  | 29 => ⟨S2, .i32⟩
  | 30 => ⟨S128x256, .f32⟩
  | 31 => ⟨S_, .i32⟩
  | 32 => ⟨S1, .i32⟩
  | 33 => ⟨S_, .i32⟩
  | 34 => ⟨S1, .i32⟩
  | 35 => ⟨S2, .i32⟩
  | 36 => ⟨S128x256, .f32⟩
  | 37 => ⟨S_, .i32⟩
  | 38 => ⟨S1, .i32⟩
  | 39 => ⟨S_, .i32⟩
  | 40 => ⟨S1, .i32⟩
  | 41 => ⟨S2, .i32⟩
  | 42 => ⟨S128x256, .f32⟩
  | 43 => ⟨S_, .i32⟩
  | 44 => ⟨S1, .i32⟩
  | 45 => ⟨S_, .i32⟩
  | 46 => ⟨S1, .i32⟩
  | 47 => ⟨S2, .i32⟩
  | 48 => ⟨S128x256, .f32⟩
  | 49 => ⟨S_, .i32⟩
  | 50 => ⟨S1, .i32⟩
  | 51 => ⟨S_, .i32⟩
  | 52 => ⟨S1, .i32⟩
  | 53 => ⟨S2, .i32⟩
  | 54 => ⟨S128x256, .f32⟩
  | 55 => ⟨S_, .i32⟩
  | 56 => ⟨S1, .i32⟩
  | 57 => ⟨S_, .i32⟩
  | 58 => ⟨S1, .i32⟩
  | 59 => ⟨S2, .i32⟩
  | 60 => ⟨S128x256, .f32⟩
  | 61 => ⟨S_, .i32⟩
  | 62 => ⟨S1, .i32⟩
  | 63 => ⟨S_, .i32⟩
  | 64 => ⟨S1, .i32⟩
  | 65 => ⟨S2, .i32⟩
  | 66 => ⟨S128x256, .f32⟩
  | 67 => ⟨S_, .i32⟩
  | 68 => ⟨S1, .i32⟩
  | 69 => ⟨S_, .i32⟩
  | 70 => ⟨S1, .i32⟩
  | 71 => ⟨S2, .i32⟩
  | 72 => ⟨S128x256, .f32⟩
  | 73 => ⟨S_, .f32⟩
  | 74 => ⟨S256, .f32⟩
  | 75 => ⟨S_, .i32⟩
  | 76 => ⟨S1, .i32⟩
  | 77 => ⟨S256, .f32⟩
  | 78 => ⟨S_, .i32⟩
  | 79 => ⟨S1, .i32⟩
  | 80 => ⟨S256, .f32⟩
  | 81 => ⟨S_, .i32⟩
  | 82 => ⟨S1, .i32⟩
  | 83 => ⟨S256, .f32⟩
  | 84 => ⟨S_, .i32⟩
  | 85 => ⟨S1, .i32⟩
  | 86 => ⟨S256, .f32⟩
  | 87 => ⟨S_, .i32⟩
  | 88 => ⟨S1, .i32⟩
  | 89 => ⟨S256, .f32⟩
  | 90 => ⟨S_, .i32⟩
  | 91 => ⟨S1, .i32⟩
  | 92 => ⟨S256, .f32⟩
  | 93 => ⟨S_, .i32⟩
  | 94 => ⟨S1, .i32⟩
  | 95 => ⟨S256, .f32⟩
  | 96 => ⟨S_, .i32⟩
  | 97 => ⟨S1, .i32⟩
  | 98 => ⟨S256, .f32⟩
  | 99 => ⟨S1x256, .f32⟩
  | 100 => ⟨S200000x128, .f32⟩
  | 101 => ⟨S200000x256, .f32⟩
  | 102 => ⟨S200000x160, .f32⟩
  | 103 => ⟨S1600000x20, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x20, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x20, .f32⟩
  | 122 => ⟨S1600000x20, .f32⟩
  | 123 => ⟨S1600000x20, .f32⟩
  | 124 => ⟨S_, .f32⟩
  | 125 => ⟨S1600000x20, .f32⟩
  | 126 => ⟨S1600000x20, .f32⟩
  | 127 => ⟨S_, .f32⟩
  | _ => ⟨S2x1600000, .i32⟩

abbrev hbmTy0_1 (i : Nat) : BufTy := match i % 128 with
  | 0 => ⟨S100000x20, .f32⟩
  | 1 => ⟨S1600000x1, .i32⟩
  | 2 => ⟨S100000x20, .f32⟩
  | 3 => ⟨S1x10, .f32⟩
  | 4 => ⟨S100000x10, .f32⟩
  | 5 => ⟨S_, .f32⟩
  | 6 => ⟨S5000x10, .f32⟩
  | 7 => ⟨S100000x1, .i32⟩
  | 8 => ⟨S5000x10, .f32⟩
  | 9 => ⟨S5000x10, .f32⟩
  | 10 => ⟨S1x10, .f32⟩
  | 11 => ⟨S5000x10, .f32⟩
  | 12 => ⟨S5000x10, .f32⟩
  | 13 => ⟨S_, .f32⟩
  | 14 => ⟨S5000x10, .f32⟩
  | 15 => ⟨S5000x10, .f32⟩
  | 16 => ⟨S5000x1, .f32⟩
  | 17 => ⟨S1x1, .f32⟩
  | 18 => ⟨S5000x1, .f32⟩
  | 19 => ⟨S5000x1, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S16x40, .f32⟩
  | .local _ .vmem, ⟨3, _⟩ => ⟨S10000x40, .f32⟩
  | .local _ .vmem, ⟨4, _⟩ => ⟨S10000x40, .f32⟩
  | .local _ .vmem, ⟨5, _⟩ => ⟨S10000x128, .f32⟩
  | .local _ .vmem, ⟨6, _⟩ => ⟨S10000x128, .f32⟩
  | .local _ .vmem, ⟨7, _⟩ => ⟨S128x256, .f32⟩
  | .local _ .vmem, ⟨8, _⟩ => ⟨S1x256, .f32⟩
  | .local _ .vmem, ⟨9, _⟩ => ⟨S10000x256, .f32⟩
  | .local _ .vmem, ⟨10, _⟩ => ⟨S10000x256, .f32⟩
  | .local _ .vmem, ⟨11, _⟩ => ⟨S10000x20, .f32⟩
  | .local _ .vmem, ⟨12, _⟩ => ⟨S10000x20, .f32⟩
  | .local _ .vmem, ⟨13, _⟩ => ⟨S20x10, .f32⟩
  | .local _ .vmem, ⟨14, _⟩ => ⟨S1x10, .f32⟩
  | .local _ .vmem, ⟨15, _⟩ => ⟨S10000x10, .f32⟩
  | .local _ .vmem, ⟨16, _⟩ => ⟨S10000x10, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_c_10 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_11 : Ref sig .tc := ⟨.hbm, 61, rfl⟩
abbrev main_v36 : Ref sig .tc := ⟨.hbm, 62, rfl⟩
abbrev main_c_12 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_13 : Ref sig .tc := ⟨.hbm, 67, rfl⟩
abbrev main_v40 : Ref sig .tc := ⟨.hbm, 68, rfl⟩
abbrev main_c_14 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_15 : Ref sig .tc := ⟨.hbm, 73, rfl⟩
abbrev main_v44 : Ref sig .tc := ⟨.hbm, 74, rfl⟩
abbrev main_c_16 : Ref sig .tc := ⟨.hbm, 75, rfl⟩
abbrev main_v45 : Ref sig .tc := ⟨.hbm, 76, rfl⟩
abbrev main_v46 : Ref sig .tc := ⟨.hbm, 77, rfl⟩
abbrev main_c_17 : Ref sig .tc := ⟨.hbm, 78, rfl⟩
abbrev main_v47 : Ref sig .tc := ⟨.hbm, 79, rfl⟩
abbrev main_v48 : Ref sig .tc := ⟨.hbm, 80, rfl⟩
abbrev main_c_18 : Ref sig .tc := ⟨.hbm, 81, rfl⟩
abbrev main_v49 : Ref sig .tc := ⟨.hbm, 82, rfl⟩
abbrev main_v50 : Ref sig .tc := ⟨.hbm, 83, rfl⟩
abbrev main_c_19 : Ref sig .tc := ⟨.hbm, 84, rfl⟩
abbrev main_v51 : Ref sig .tc := ⟨.hbm, 85, rfl⟩
abbrev main_v52 : Ref sig .tc := ⟨.hbm, 86, rfl⟩
abbrev main_c_20 : Ref sig .tc := ⟨.hbm, 87, rfl⟩
abbrev main_v53 : Ref sig .tc := ⟨.hbm, 88, rfl⟩
abbrev main_v54 : Ref sig .tc := ⟨.hbm, 89, rfl⟩
abbrev main_c_21 : Ref sig .tc := ⟨.hbm, 90, rfl⟩
abbrev main_v55 : Ref sig .tc := ⟨.hbm, 91, rfl⟩
abbrev main_v56 : Ref sig .tc := ⟨.hbm, 92, rfl⟩
abbrev main_c_22 : Ref sig .tc := ⟨.hbm, 93, rfl⟩
abbrev main_v57 : Ref sig .tc := ⟨.hbm, 94, rfl⟩
abbrev main_v58 : Ref sig .tc := ⟨.hbm, 95, rfl⟩
abbrev main_c_23 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_24 : Ref sig .tc := ⟨.hbm, 104, rfl⟩
abbrev main_v66 : Ref sig .tc := ⟨.hbm, 105, rfl⟩
abbrev main_v67 : Ref sig .tc := ⟨.hbm, 106, rfl⟩
abbrev main_c_25 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_26 : Ref sig .tc := ⟨.hbm, 113, rfl⟩
abbrev main_v73 : Ref sig .tc := ⟨.hbm, 114, rfl⟩
abbrev main_v74 : Ref sig .tc := ⟨.hbm, 115, rfl⟩
abbrev main_c_27 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_call0_cst : Ref sig .tc := ⟨.hbm, 124, rfl⟩
abbrev main_call0_v0 : Ref sig .tc := ⟨.hbm, 125, rfl⟩
abbrev main_v82 : Ref sig .tc := ⟨.hbm, 126, rfl⟩
abbrev main_cst_28 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_29 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_call1_cst : Ref sig .tc := ⟨.hbm, 141, rfl⟩
abbrev main_call1_v0 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x20 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S20x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S48x20_S16x20_0_0 : S48x20.Slices ![0, 0] S16x20
  slices_S48x20_S16x20_16_0 : S48x20.Slices ![16, 0] S16x20
  slices_S48x20_S16x20_32_0 : S48x20.Slices ![32, 0] S16x20
  concatenates_S16x20_S16x20_S16x40_d1 : Shape.Concatenates [S16x20, S16x20] S16x40 1
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x40_S16x40_0_0 : ∀ a, (![0, 0] : Fin 2 → Nat) a + S16x40.size a ≤ S16x40.size a
  h_S16x40 : 0 < S16x40.numel
  shapeCasts_S16x40_S16x40 : S16x40.ShapeCasts S16x40
  inb_S10000x40_S10000x40_0_0 : ∀ a, (![0, 0] : Fin 2 → Nat) a + S10000x40.size a ≤ S10000x40.size a
  h_S10000x40 : 0 < S10000x40.numel
  slices_S100000x40_S100000x20_0_0 : S100000x40.Slices ![0, 0] S100000x20
  slices_S100000x40_S100000x20_0_20 : S100000x40.Slices ![0, 20] S100000x20
  bcast_S_S128x256 : S_.BroadcastsInDim S128x256 (![] : Fin 0 → Fin S128x256.rank)
  bcast_S_S1 : S_.BroadcastsInDim S1 (![] : Fin 0 → Fin S1.rank)
  concatenates_S1_S1_S2_d0 : Shape.Concatenates [S1, S1] S2 0
  bcast_S_S256 : S_.BroadcastsInDim S256 (![] : Fin 0 → Fin S256.rank)
  shapeCasts_S256_S1x256 : S256.ShapeCasts S1x256
  shapeCasts_S1600000x16_S200000x128 : S1600000x16.ShapeCasts S200000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  slices_S200000x256_S200000x160_0_0 : S200000x256.Slices ![0, 0] S200000x160
  shapeCasts_S200000x160_S1600000x20 : S200000x160.ShapeCasts S1600000x20
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x20 : S_.BroadcastsInDim S1600000x20 (![] : Fin 0 → Fin S1600000x20.rank)
  bcast_S_S100000x20 : S_.BroadcastsInDim S100000x20 (![] : Fin 0 → Fin S100000x20.rank)
  shapeCasts_S10_S1x10 : S10.ShapeCasts S1x10
  inb_S10000x20_S10000x20_0_0 : ∀ a, (![0, 0] : Fin 2 → Nat) a + S10000x20.size a ≤ S10000x20.size a
  h_S10000x20 : 0 < S10000x20.numel
  shapeCasts_S10000x20_S10000x20 : S10000x20.ShapeCasts S10000x20
  inb_S20x10_S20x10_0_0 : ∀ a, (![0, 0] : Fin 2 → Nat) a + S20x10.size a ≤ S20x10.size a
  h_S20x10 : 0 < S20x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  bcast_S_S5000x10 : S_.BroadcastsInDim S5000x10 (![] : Fin 0 → Fin S5000x10.rank)
  bcast_S100000_S100000x1_0 : S100000.BroadcastsInDim S100000x1 (![0] : Fin 1 → Fin S100000x1.rank)
  bcast_S10_S1x10_1 : S10.BroadcastsInDim S1x10 (![1] : Fin 1 → Fin S1x10.rank)
  bcast_S1x10_S5000x10_0_1 : S1x10.BroadcastsInDim S5000x10 (![0, 1] : Fin 2 → Fin S5000x10.rank)
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  dot_S10000x16_S16x40_S10000x40_1_0_0_1_n_n_wf : DotDims.WF S10000x16 S16x40 S10000x40 [1] [0] [0] [1] [] []
  scatter_S128x256_S2_S16x20_01_n_01_0_wf : ScatterDims.WF S128x256 S2 S16x20 [0, 1] [] [0, 1] 0
  scatter_S256_S1_S20_0_n_0_0_wf : ScatterDims.WF S256 S1 S20 [0] [] [0] 0
  dot_S10000x128_S128x256_S10000x256_1_0_0_1_n_n_wf : DotDims.WF S10000x128 S128x256 S10000x256 [1] [0] [0] [1] [] []
  gather_S100000x20_S1600000x1_S1600000x20_1_0_n_n_0_1_120_wf : GatherDims.WF S100000x20 S1600000x1 S1600000x20 [1] [0] [] [0] [] 1 ![1, 20]
  scatter_S100000x20_S1600000x1_S1600000x20_1_0_0_1_wf : ScatterDims.WF S100000x20 S1600000x1 S1600000x20 [1] [0] [0] 1
  dot_S10000x20_S20x10_S10000x10_1_0_0_1_n_n_wf : DotDims.WF S10000x20 S20x10 S10000x10 [1] [0] [0] [1] [] []
  scatter_S5000x10_S100000x1_S100000x10_1_0_0_1_wf : ScatterDims.WF S5000x10 S100000x1 S100000x10 [1] [0] [0] 1
  dot_S5000x10_S10x10_S5000x10_1_0_0_1_n_n_wf : DotDims.WF S5000x10 S10x10 S5000x10 [1] [0] [0] [1] [] []
  dot_S5000x10_S10x1_S5000x1_1_0_0_1_n_n_wf : DotDims.WF S5000x10 S10x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x40.size a ≤ S16x40.size a
  hwx0_1 : ∀ i : grid0.Coords, EltTy.bits .f32 = 32 ∨ (Rect.block (s := S16x40) S16x40.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x40.size a ≤ S100000x40.size a
  hwx0_2 : ∀ i : grid0.Coords, EltTy.bits .f32 = 32 ∨ (Rect.block (s := S100000x40) S10000x40.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x256.size a ≤ S200000x256.size a
  hwx1_3 : ∀ i : grid1.Coords, EltTy.bits .f32 = 32 ∨ (Rect.block (s := S200000x256) S10000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x20.size a ≤ S100000x20.size a
  hwx2_0 : ∀ i : grid2.Coords, EltTy.bits .f32 = 32 ∨ (Rect.block (s := S100000x20) S10000x20.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S20x10.size a ≤ S20x10.size a
  hwx2_1 : ∀ i : grid2.Coords, EltTy.bits .f32 = 32 ∨ (Rect.block (s := S20x10) S20x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x10.size a ≤ S100000x10.size a
  hwx2_3 : ∀ i : grid2.Coords, EltTy.bits .f32 = 32 ∨ (Rect.block (s := S100000x10) S10000x10.size (cc2_transform_3 i) (hinb2_3 i)).WholeWords (EltTy.packing .f32)

variable [Facts₀]

def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def scatter_S128x256_S2_S16x20_01_n_01_0 : ScatterDims S128x256 S2 S16x20 where
  updateWindowDims := [0, 1]
  insertedWindowDims := []
  scatterDimsToOperandDims := [0, 1]
  indexVectorDim := 0
  wf := scatter_S128x256_S2_S16x20_01_n_01_0_wf
def scatter_S256_S1_S20_0_n_0_0 : ScatterDims S256 S1 S20 where
  updateWindowDims := [0]
  insertedWindowDims := []
  scatterDimsToOperandDims := [0]
  indexVectorDim := 0
  wf := scatter_S256_S1_S20_0_n_0_0_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S100000x20_S1600000x1_S1600000x20_1_0_n_n_0_1_120 : GatherDims S100000x20 S1600000x1 S1600000x20 where
  offsetDims := [1]
  collapsedSliceDims := [0]
  operandBatchingDims := []
  startIndicesBatchingDims := []
  startIndexMap := [0]
  indexVectorDim := 1
  sliceSizes := ![1, 20]
  wf := gather_S100000x20_S1600000x1_S1600000x20_1_0_n_n_0_1_120_wf
def scatter_S100000x20_S1600000x1_S1600000x20_1_0_0_1 : ScatterDims S100000x20 S1600000x1 S1600000x20 where
  updateWindowDims := [1]
  insertedWindowDims := [0]
  scatterDimsToOperandDims := [0]
  indexVectorDim := 1
  wf := scatter_S100000x20_S1600000x1_S1600000x20_1_0_0_1_wf
def dot_S10000x20_S20x10_S10000x10_1_0_0_1_n_n : DotDims S10000x20 S20x10 S10000x10 where
  lhsContracting := [1]
  rhsContracting := [0]
  lhsNonContracting := [0]
  rhsNonContracting := [1]
  lhsBatch := []
  rhsBatch := []
  wf := dot_S10000x20_S20x10_S10000x10_1_0_0_1_n_n_wf
def scatter_S5000x10_S100000x1_S100000x10_1_0_0_1 : ScatterDims S5000x10 S100000x1 S100000x10 where
  updateWindowDims := [1]
  insertedWindowDims := [0]
  scatterDimsToOperandDims := [0]
  indexVectorDim := 1
  wf := scatter_S5000x10_S100000x1_S100000x10_1_0_0_1_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf
def dot_S5000x10_S10x1_S5000x1_1_0_0_1_n_n : DotDims S5000x10 S10x1 S5000x1 where
  lhsContracting := [1]
  rhsContracting := [0]
  lhsNonContracting := [0]
  rhsNonContracting := [1]
  lhsBatch := []
  rhsBatch := []
  wf := dot_S5000x10_S10x1_S5000x1_1_0_0_1_n_n_wf

abbrev win0_0 : Pipeline.Window sig grid0 :=
  Pipeline.Window.ofSpec (Memref.whole main_arg1) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16x40.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x40.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v62) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S10000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v85) S10000x20.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S20x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v86) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S10000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x1600000 : Shape := ⟨2, ![2, 1600000]⟩
abbrev S100000x16 : Shape := ⟨2, ![100000, 16]⟩
abbrev S1600000x16 : Shape := ⟨2, ![1600000, 16]⟩
abbrev S100000 : Shape := ⟨1, ![100000]⟩
abbrev S48x20 : Shape := ⟨2, ![48, 20]⟩
abbrev S20 : Shape := ⟨1, ![20]⟩
abbrev S20x10 : Shape := ⟨2, ![20, 10]⟩
abbrev S10 : Shape := ⟨1, ![10]⟩
abbrev S10x10 : Shape := ⟨2, ![10, 10]⟩
abbrev S10x1 : Shape := ⟨2, ![10, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x48 : Shape := ⟨2, ![1600000, 48]⟩
abbrev S1600000x20 : Shape := ⟨2, ![1600000, 20]⟩
abbrev S1x20 : Shape := ⟨2, ![1, 20]⟩
abbrev S100000x20 : Shape := ⟨2, ![100000, 20]⟩
abbrev S100000x10 : Shape := ⟨2, ![100000, 10]⟩
abbrev S1x10 : Shape := ⟨2, ![1, 10]⟩
abbrev S5000x10 : Shape := ⟨2, ![5000, 10]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S100000x16, .f32⟩
  | .hbm, ⟨2, _⟩ => ⟨S1600000x16, .f32⟩
  | .hbm, ⟨3, _⟩ => ⟨S100000, .i32⟩
  | .hbm, ⟨4, _⟩ => ⟨S48x20, .f32⟩
  | .hbm, ⟨5, _⟩ => ⟨S20, .f32⟩
  | .hbm, ⟨6, _⟩ => ⟨S20x10, .f32⟩
  | .hbm, ⟨7, _⟩ => ⟨S10, .f32⟩
  | .hbm, ⟨8, _⟩ => ⟨S10x10, .f32⟩
  | .hbm, ⟨9, _⟩ => ⟨S10, .f32⟩
  | .hbm, ⟨10, _⟩ => ⟨S10x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x16, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x16, .f32⟩
  | .hbm, ⟨34, _⟩ => ⟨S1600000x48, .f32⟩
  | .hbm, ⟨35, _⟩ => ⟨S1600000x20, .f32⟩
  | .hbm, ⟨36, _⟩ => ⟨S1x20, .f32⟩
  | .hbm, ⟨37, _⟩ => ⟨S1600000x20, .f32⟩
  | .hbm, ⟨38, _⟩ => ⟨S1600000x20, .f32⟩
  | .hbm, ⟨39, _⟩ => ⟨S_, .f32⟩
  | .hbm, ⟨40, _⟩ => ⟨S1600000x20, .f32⟩
  | .hbm, ⟨41, _⟩ => ⟨S1600000x20, .f32⟩
  | .hbm, ⟨42, _⟩ => ⟨S_, .f32⟩
  | .hbm, ⟨43, _⟩ => ⟨S100000x20, .f32⟩
  | .hbm, ⟨44, _⟩ => ⟨S1600000x1, .i32⟩
  | .hbm, ⟨45, _⟩ => ⟨S100000x20, .f32⟩
  | .hbm, ⟨46, _⟩ => ⟨S100000x10, .f32⟩
  | .hbm, ⟨47, _⟩ => ⟨S1x10, .f32⟩
  | .hbm, ⟨48, _⟩ => ⟨S100000x10, .f32⟩
  | .hbm, ⟨49, _⟩ => ⟨S100000x10, .f32⟩
  | .hbm, ⟨50, _⟩ => ⟨S_, .f32⟩
  | .hbm, ⟨51, _⟩ => ⟨S100000x10, .f32⟩
  | .hbm, ⟨52, _⟩ => ⟨S100000x10, .f32⟩
  | .hbm, ⟨53, _⟩ => ⟨S_, .f32⟩
  | .hbm, ⟨54, _⟩ => ⟨S5000x10, .f32⟩
  | .hbm, ⟨55, _⟩ => ⟨S100000x1, .i32⟩
  | .hbm, ⟨56, _⟩ => ⟨S5000x10, .f32⟩
  | .hbm, ⟨57, _⟩ => ⟨S5000x10, .f32⟩
  | .hbm, ⟨58, _⟩ => ⟨S1x10, .f32⟩
  | .hbm, ⟨59, _⟩ => ⟨S5000x10, .f32⟩
  | .hbm, ⟨60, _⟩ => ⟨S5000x10, .f32⟩
  | .hbm, ⟨61, _⟩ => ⟨S_, .f32⟩
  | .hbm, ⟨62, _⟩ => ⟨S5000x10, .f32⟩
  | .hbm, ⟨63, _⟩ => ⟨S5000x10, .f32⟩
  | .hbm, ⟨64, _⟩ => ⟨S5000x1, .f32⟩
  | .hbm, ⟨65, _⟩ => ⟨S1x1, .f32⟩
  | .hbm, ⟨66, _⟩ => ⟨S5000x1, .f32⟩
  | .hbm, ⟨67, _⟩ => ⟨S5000x1, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call2_cst : Ref sig .tc := ⟨.hbm, 61, rfl⟩
abbrev main_call2_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x16_S1600000x16_S1600000x16_S1600000x48_d1 : Shape.Concatenates [S1600000x16, S1600000x16, S1600000x16] S1600000x48 1
  bcast_S20_S1x20_1 : S20.BroadcastsInDim S1x20 (![1] : Fin 1 → Fin S1x20.rank)
  bcast_S1x20_S1600000x20_0_1 : S1x20.BroadcastsInDim S1600000x20 (![0, 1] : Fin 2 → Fin S1600000x20.rank)
  bcast_S_S1600000x20 : S_.BroadcastsInDim S1600000x20 (![] : Fin 0 → Fin S1600000x20.rank)
  bcast_S_S100000x20 : S_.BroadcastsInDim S100000x20 (![] : Fin 0 → Fin S100000x20.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S100000x10 : S_.BroadcastsInDim S100000x10 (![] : Fin 0 → Fin S100000x10.rank)
  bcast_S_S5000x10 : S_.BroadcastsInDim S5000x10 (![] : Fin 0 → Fin S5000x10.rank)
  bcast_S100000_S100000x1_0 : S100000.BroadcastsInDim S100000x1 (![0] : Fin 1 → Fin S100000x1.rank)
  bcast_S1x10_S5000x10_0_1 : S1x10.BroadcastsInDim S5000x10 (![0, 1] : Fin 2 → Fin S5000x10.rank)
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  gather_S100000x16_S1600000x1_S1600000x16_1_0_n_n_0_1_116_wf : GatherDims.WF S100000x16 S1600000x1 S1600000x16 [1] [0] [] [0] [] 1 ![1, 16]
  dot_S1600000x48_S48x20_S1600000x20_1_0_0_1_n_n_wf : DotDims.WF S1600000x48 S48x20 S1600000x20 [1] [0] [0] [1] [] []
  scatter_S100000x20_S1600000x1_S1600000x20_1_0_0_1_wf : ScatterDims.WF S100000x20 S1600000x1 S1600000x20 [1] [0] [0] 1
  dot_S100000x20_S20x10_S100000x10_1_0_0_1_n_n_wf : DotDims.WF S100000x20 S20x10 S100000x10 [1] [0] [0] [1] [] []
  scatter_S5000x10_S100000x1_S100000x10_1_0_0_1_wf : ScatterDims.WF S5000x10 S100000x1 S100000x10 [1] [0] [0] 1
  dot_S5000x10_S10x10_S5000x10_1_0_0_1_n_n_wf : DotDims.WF S5000x10 S10x10 S5000x10 [1] [0] [0] [1] [] []
  dot_S5000x10_S10x1_S5000x1_1_0_0_1_n_n_wf : DotDims.WF S5000x10 S10x1 S5000x1 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def dot_S1600000x48_S48x20_S1600000x20_1_0_0_1_n_n : DotDims S1600000x48 S48x20 S1600000x20 where
  lhsContracting := [1]
  rhsContracting := [0]
  lhsNonContracting := [0]
  rhsNonContracting := [1]
  lhsBatch := []
  rhsBatch := []
  wf := dot_S1600000x48_S48x20_S1600000x20_1_0_0_1_n_n_wf
def scatter_S100000x20_S1600000x1_S1600000x20_1_0_0_1 : ScatterDims S100000x20 S1600000x1 S1600000x20 where
  updateWindowDims := [1]
  insertedWindowDims := [0]
  scatterDimsToOperandDims := [0]
  indexVectorDim := 1
  wf := scatter_S100000x20_S1600000x1_S1600000x20_1_0_0_1_wf
def dot_S100000x20_S20x10_S100000x10_1_0_0_1_n_n : DotDims S100000x20 S20x10 S100000x10 where
  lhsContracting := [1]
  rhsContracting := [0]
  lhsNonContracting := [0]
  rhsNonContracting := [1]
  lhsBatch := []
  rhsBatch := []
  wf := dot_S100000x20_S20x10_S100000x10_1_0_0_1_n_n_wf
def scatter_S5000x10_S100000x1_S100000x10_1_0_0_1 : ScatterDims S5000x10 S100000x1 S100000x10 where
  updateWindowDims := [1]
  insertedWindowDims := [0]
  scatterDimsToOperandDims := [0]
  indexVectorDim := 1
  wf := scatter_S5000x10_S100000x1_S100000x10_1_0_0_1_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf
def dot_S5000x10_S10x1_S5000x1_1_0_0_1_n_n : DotDims S5000x10 S10x1 S5000x1 where
  lhsContracting := [1]
  rhsContracting := [0]
  lhsNonContracting := [0]
  rhsNonContracting := [1]
  lhsBatch := []
  rhsBatch := []
  wf := dot_S5000x10_S10x1_S5000x1_1_0_0_1_n_n_wf

class Facts : Prop extends Facts₀ where

variable [Facts]
-- ==== Proof.KernelRun.lean ====
/-
  The idealized kernel's run with its result named.

  The program is three pipelined regions among stretches of host operations. Its buffer contents at each boundary are a
  fold from the launch memory: a host stretch applies its operations, a region replaces its arrays by what its grid's
  write-backs leave. Every weakly fair execution terminates without a fault, and in the final state every buffer that
  is not scoped to a region holds the last boundary's contents; in particular the result buffer holds the fold's value
  there, and the twelve argument arrays hold what they were launched with. What that value is, as a function of the
  arguments, is read off the fold elsewhere.
-/
import proofs.«140300_j64630667870273_2_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates, the result buffer ends at the last boundary's contents, the arguments end as launched. -/
theorem run_result : θ_run defs (onTc (τ := τ) (main (F := F))) ⟨m, fun _ => 0, ρ⟩ (fun r => ∀ c : Dev nD,
      r.2.mem ((c.tc : Thread nD τ).loc main_v99) = W11 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v99 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.RunResult

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.RegionProj.lean ====
/-
  The projection region's output array as one function of the arrays it finds at entry.

  The region runs over ten grid points. Point t multiplies rows 10000·t … 10000·t + 9999 of the [100000, 16] feature
  array by the whole [16, 40] weight matrix into a zero accumulator and writes the product to the same rows of the
  [100000, 40] result. Every row lies in exactly one point's block, so after the region entry (p, q) of the result is the sum
  over k of feature (p, k) · weight (k, q).
-/
import proofs.«140300_j64630667870273_2_alg».proof.Proof.Gen.KernelIdeal.Frame
import proofs.«140300_j64630667870273_2_alg».proof.Proof.LibPlainDot
import Idealize.ShloMosaic.Lib.Pipeline.Value
import Idealize.ShloMosaic.Lib.ValueIdx

noncomputable section

namespace Cert.RegionProj

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-buffer access, as a constant function. -/
theorem zeroOff : (![0, 0] : Fin 2 → Nat) = fun _ => 0 := funext fun a => by fin_cases a <;> rfl

/-- The product of the whole feature array by the weight matrix: entry (p, q) is the sum over k of l (p, k) · w (k, q). -/
def proj (l : S100000x16.Idx → EReal) (w : S16x40.Idx → EReal) : S100000x40.Idx → EReal :=
  fun i => ∑ k : Fin 16, l (ix2 (i 0) k) * w (ix2 k (i 1))

/-- The product at explicit coordinates. -/
theorem proj_apply (l : S100000x16.Idx → EReal) (w : S16x40.Idx → EReal) (p : Fin 100000) (q : Fin 40) :
    proj l w (ix2 p q) = ∑ k : Fin 16, l (ix2 p k) * w (ix2 k q) := rfl

/-- The body's payload at (p, q): the two format changes are the identity on extended reals, the cast is to the same
    shape, and the product into a zero accumulator is the sum of products. -/
theorem payload_apply (x0 : Vec Ideal S10000x16 .f32) (x1 : Vec Ideal S16x40 .f32) (p : Fin 10000) (q : Fin 40) :
    k0_pay1 x0 x1 (ix2 p q) = ∑ k : Fin 16, x0 (ix2 p k) * x1 (ix2 k q) := by
  unfold k0_pay1
  rw [shapeCast_self]
  exact Cert.LibPlainDot.matmul_plain_apply dot_S10000x16_S16x40_S10000x40_1_0_0_1_n_n rfl rfl rfl rfl rfl rfl none
    (truncf .bf16 x0 bitsLt_bf16_f32) (truncf .bf16 x1 bitsLt_bf16_f32) p q

/-- The payload on a tile: when the tile's feature rows and weight columns are the arrays' at the place `e` of the tile's
    entry (p, q), the payload there is the whole product at `e`. -/
theorem payload_tile (L : S100000x16.Idx → EReal) (W : S16x40.Idx → EReal) (x0 : Vec Ideal S10000x16 .f32)
    (x1 : Vec Ideal S16x40 .f32) (e : S100000x40.Idx) (p : Fin 10000) (q : Fin 40)
    (h0 : ∀ k : Fin 16, x0 (ix2 p k) = L (ix2 (e 0) k)) (h1 : ∀ k : Fin 16, x1 (ix2 k q) = W (ix2 k (e 1))) :
    k0_pay1 x0 x1 (ix2 p q) = proj L W e := by
  rw [payload_apply]
  exact Finset.sum_congr rfl fun k _ => by rw [h0 k, h1 k]

/-- The printed index maps over the ten points: the row blocks of the features and of the result are both the point's
    number, and every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the arrays the region finds. -/
theorem flushed_eq (c : Dev nD) (t : Fin cfg0.N) :
    (dat0 (F := Ideal) V c).flushed 2 t
      = ((cfg0.win 2).blk t).view.read (Elt Ideal) (proj (V c main_arg1) (V c main_v7)) := by
  show (cfg0.win 2).cut (grid0.coords t) ((dat0 V c).after 2 t) = _
  rw [after0_2]
  unfold out0_2
  rw [View.canon_unit_zero zeroOff]
  simp only [View.ld_unit_zero (S := S10000x16) zeroOff, View.ld_unit_zero (S := S16x40) zeroOff]
  obtain ⟨e0, e1, e2, e3, e4, e5⟩ := idx_facts t
  show (fun j : S10000x40.Idx => k0_pay1 (iblk0 V c 0 t) (iblk0 V c 1 t) j)
    = fun j : S10000x40.Idx => proj (V c main_arg1) (V c main_v7) (((cfg0.win 2).blk t).view.emb j)
  funext j
  obtain ⟨p, q, rfl⟩ : ∃ (p : Fin 10000) (q : Fin 40), j = ix2 p q := ⟨j 0, j 1, eq_ix2 j⟩
  refine payload_tile (V c main_arg1) (V c main_v7) (iblk0 V c 0 t) (iblk0 V c 1 t) _ p q (fun k => ?_) (fun k => ?_)
  · show V c main_arg1 (((cfg0.win 0).blk t).view.emb (ix2 p k))
      = V c main_arg1 (ix2 ((((cfg0.win 2).blk t).view.emb (ix2 p q)) 0) k)
    refine congrArg (V c main_arg1) (funext fun a => Fin.ext ?_)
    match a with
    | ⟨0, _⟩ => show win0_0.index t (0 : Fin 2) * 10000 + 1 * p.val = win0_2.index t (0 : Fin 2) * 10000 + 1 * p.val
                rw [e0, e4]
    | ⟨1, _⟩ => show win0_0.index t (1 : Fin 2) * 16 + 1 * k.val = k.val
                rw [e1]; omega
  · show V c main_v7 (((cfg0.win 1).blk t).view.emb (ix2 k q))
      = V c main_v7 (ix2 k ((((cfg0.win 2).blk t).view.emb (ix2 p q)) 1))
    refine congrArg (V c main_v7) (funext fun a => Fin.ext ?_)
    match a with
    | ⟨0, _⟩ => show win0_1.index t (0 : Fin 2) * 16 + 1 * k.val = k.val
                rw [e2]; omega
    | ⟨1, _⟩ => show win0_1.index t (1 : Fin 2) * 40 + 1 * q.val = win0_2.index t (1 : Fin 2) * 40 + 1 * q.val
                rw [e3, e5]

/-- An index of the result is in point t's block iff each coordinate is in the block's range on its axis. -/
theorem mem_blk (t : Fin cfg0.N) (i : S100000x40.Idx) :
    i ∈ ((cfg0.win 2).blk t).view.set ↔ ∀ a : Fin 2, win0_2.index t a * S10000x40.size a ≤ (i a).val
      ∧ (i a).val < win0_2.index t a * S10000x40.size a + S10000x40.size a := by
  show i ∈ ((View.whole main_v8).slice (win0_2.rect t)).set ↔ _
  rw [View.set_slice_whole, Rect.mem_set_unit]
  exact Iff.rfl

/-- Every row of the result is in the block of the point numbered by the row's quotient by 10000. -/
theorem covered (i : S100000x40.Idx) :
    ∃ t : Fin cfg0.N, (cfg0.win 2).flush t = true ∧ i ∈ ((cfg0.win 2).blk t).view.set := by
  have hi0 : (i 0).val < 100000 := (i 0).isLt
  have hi1 : (i 1).val < 40 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000
              rw [e4, ht]; omega
  | ⟨1, _⟩ => show win0_2.index t (1 : Fin 2) * 40 ≤ (i 1).val ∧ (i 1).val < win0_2.index t (1 : Fin 2) * 40 + 40
              rw [e5]; omega

/-- After the region the result array is the whole product. -/
theorem final0 (c : Dev nD) :
    (dat0 (F := Ideal) V c).arrAt 2 cfg0.N = proj (V c main_arg1) (V c main_v7) :=
  (dat0 (F := Ideal) V c).arrAt_eq_of_cover 2 (proj (V c main_arg1) (V c main_v7)) (fun t _ => flushed_eq V c t) covered

/-- Entry (p, q) of the result array after the region, the two entry arrays named at their literal types. -/
theorem final0_apply (c : Dev nD) (l : S100000x16.Idx → EReal) (w : S16x40.Idx → EReal)
    (hl : V c main_arg1 = l) (hw : V c main_v7 = w) (p : Fin 100000) (q : Fin 40) :
    @Eq EReal ((dat0 (F := Ideal) V c).arrAt 2 cfg0.N (ix2 p q)) (∑ k : Fin 16, l (ix2 p k) * w (ix2 k q)) := by
  subst hl hw
  rw [final0]
  rfl

end Cert.RegionProj

end
-- ==== Proof.LibLayers.lean ====
/-
  Fully connected layers on the extended reals.

  A layer takes an [M, K] array l, a [K, N] weight matrix W and N biases b to the [M, N] array whose entry (p, q) is
  the sum over k of l (p, k) · W (k, q), plus b q. The rectifier replaces every entry by the larger of the entry and the
  number the f32 zero word encodes. A three-layer perceptron rectifies after its first two layers and not after the
  third. Nothing here asks the entries to be finite: the extended reals' sum and product are total. Stated for any
  extents, over index functions into the extended reals, so that a kernel's and a host program's layers are compared as
  the same function.
-/
import Idealize.ShloMosaic.PureOps.Ideal
import Idealize.ShloMosaic.Lib.ValueIdx

noncomputable section

namespace Cert.LibLayers

open Idealize.ShloMosaic Idealize.ShloMosaic.ValueIdx
open scoped BigOperators

/-- One layer before its activation: entry (p, q) is the sum over k of l (p, k) · W (k, q), plus the q-th bias. -/
def dense {M K N : ℕ} (l : (⟨2, ![M, K]⟩ : Shape).Idx → EReal) (W : (⟨2, ![K, N]⟩ : Shape).Idx → EReal) (b : Fin N → EReal) :
    (⟨2, ![M, N]⟩ : Shape).Idx → EReal :=
  fun j => (∑ k : Fin K, l (ix2 (j 0) k) * W (ix2 k (j 1))) + b (j 1)

/-- The layer at explicit coordinates. -/
theorem dense_apply {M K N : ℕ} (l : (⟨2, ![M, K]⟩ : Shape).Idx → EReal) (W : (⟨2, ![K, N]⟩ : Shape).Idx → EReal) (b : Fin N → EReal)
    (p : Fin M) (q : Fin N) : dense l W b (ix2 p q) = (∑ k : Fin K, l (ix2 p k) * W (ix2 k q)) + b q := rfl

/-- The rectifier, entry by entry: the larger of the entry and the number the f32 zero word encodes. -/
def relu {s : Shape} (f : s.Idx → EReal) : s.Idx → EReal := fun j => max (f j) (Ideal.ofBits .f32 0x00000000#32)

/-- The rectifier at an index. -/
theorem relu_apply {s : Shape} (f : s.Idx → EReal) (j : s.Idx) : relu f j = max (f j) (Ideal.ofBits .f32 0x00000000#32) := rfl

/-- Three layers, rectified after the first and after the second. -/
def mlp {M K1 K2 K3 N : ℕ} (x : (⟨2, ![M, K1]⟩ : Shape).Idx → EReal)
    (W1 : (⟨2, ![K1, K2]⟩ : Shape).Idx → EReal) (b1 : Fin K2 → EReal)
    (W2 : (⟨2, ![K2, K3]⟩ : Shape).Idx → EReal) (b2 : Fin K3 → EReal)
    (W3 : (⟨2, ![K3, N]⟩ : Shape).Idx → EReal) (b3 : Fin N → EReal) : (⟨2, ![M, N]⟩ : Shape).Idx → EReal :=
  dense (relu (dense (relu (dense x W1 b1)) W2 b2)) W3 b3

end Cert.LibLayers

end
-- ==== Proof.LibBlockLayer.lean ====
/-
  A layer as a kernel body computes it on one block.

  The body multiplies a block of activations by a block of the weight matrix into a zero accumulator, adds the bias
  block — one row, cast to its own shape and repeated over the rows — and, for a rectified layer, takes the maximum
  with a repeated zero. Entry by entry that is a layer of LibLayers.lean whose biases are the row's entries.
-/
import proofs.«140300_j64630667870273_2_alg».proof.Proof.LibPlainDot
import proofs.«140300_j64630667870273_2_alg».proof.Proof.LibLayers
import Idealize.ShloMosaic.Lib.ValueLayout
import Idealize.ShloMosaic.Lib.Pipeline.Value

noncomputable section

namespace Cert.LibBlockLayer

open Idealize.ShloMosaic Idealize.ShloMosaic.ValueIdx Cert.LibLayers
open scoped BigOperators

/-- The entries of a one-row array as a function of the column. -/
abbrev rowAt {N : ℕ} (r : (⟨2, ![1, N]⟩ : Shape).Idx → EReal) : Fin N → EReal := fun q => r (ix2 (0 : Fin 1) q)

variable {M K N : ℕ} (d : DotDims ⟨2, ![M, K]⟩ ⟨2, ![K, N]⟩ ⟨2, ![M, N]⟩)

/-- The product into a zero accumulator plus the repeated bias row is the layer before its activation. -/
theorem blockDense {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (r : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (FloatOps.matmul d prec l W (constant ⟨2, ![M, N]⟩ .f32 0x00000000#32))
        (broadcastTo ⟨2, ![M, N]⟩ (shapeCast ⟨2, ![1, N]⟩ r hc) hb)
      = dense l W (rowAt r) := by
  funext j
  obtain ⟨p, q, rfl⟩ : ∃ (p : Fin M) (q : Fin N), j = ix2 p q := ⟨j 0, j 1, eq_ix2 j⟩
  rw [addf_apply, Cert.LibPlainDot.matmul_plain_apply d hlc hrc hlb hrb hln hrn, broadcastTo_1b_ab_apply, shapeCast_self]
  rfl

/-- The same followed by the maximum with a repeated zero is the rectified layer. -/
theorem blockDense_relu {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (r : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    maximumf (addf (FloatOps.matmul d prec l W (constant ⟨2, ![M, N]⟩ .f32 0x00000000#32))
        (broadcastTo ⟨2, ![M, N]⟩ (shapeCast ⟨2, ![1, N]⟩ r hc) hb))
      (broadcast ⟨2, ![M, N]⟩ (Scalar.ofBits (F := Ideal) .f32 0x00000000#32))
      = relu (dense l W (rowAt r)) := by
  rw [blockDense d hlc hrc hlb hrb hln hrn]
  rfl

/-- A layer read on a tile: when the tile's rows, columns and bias entries are the arrays' at the tile's place, the
    tile's layer at a local index is the arrays' layer at the index's place. -/
theorem dense_tile {M' N' : ℕ} (L : (⟨2, ![M', K]⟩ : Shape).Idx → EReal) (W' : (⟨2, ![K, N']⟩ : Shape).Idx → EReal)
    (B : (⟨2, ![1, N']⟩ : Shape).Idx → EReal)
    (l : (⟨2, ![M, K]⟩ : Shape).Idx → EReal) (w : (⟨2, ![K, N]⟩ : Shape).Idx → EReal) (b : (⟨2, ![1, N]⟩ : Shape).Idx → EReal)
    (y : (⟨2, ![M, N]⟩ : Shape).Idx) (e : (⟨2, ![M', N']⟩ : Shape).Idx)
    (hl : ∀ k : Fin K, l (ix2 (y 0) k) = L (ix2 (e 0) k))
    (hw : ∀ k : Fin K, w (ix2 k (y 1)) = W' (ix2 k (e 1)))
    (hb : b (ix2 (0 : Fin 1) (y 1)) = B (ix2 (0 : Fin 1) (e 1))) :
    dense l w (rowAt b) y = dense L W' (rowAt B) e := by
  show (∑ k : Fin K, l (ix2 (y 0) k) * w (ix2 k (y 1))) + b (ix2 (0 : Fin 1) (y 1))
    = (∑ k : Fin K, L (ix2 (e 0) k) * W' (ix2 k (e 1))) + B (ix2 (0 : Fin 1) (e 1))
  rw [hb]
  exact congrArg (· + B (ix2 (0 : Fin 1) (e 1))) (Finset.sum_congr rfl fun k _ => by rw [hl k, hw k])

end Cert.LibBlockLayer

end
-- ==== Proof.RegionEdge.lean ====
/-
  The edge region's output array as one function of the arrays it finds at entry.

  The region runs over twenty grid points. Point t multiplies rows 10000·t … 10000·t + 9999 of the [200000, 128] array of
  packed edge attributes by the whole [128, 256] weight matrix into a zero accumulator, adds the [1, 256] bias row to every
  row, and writes the result to the same rows of the [200000, 256] output. Every row lies in exactly one point's block, so
  after the region the output is the layer of LibLayers.lean of the three arrays: entry (r, q) is the sum over j of
  attribute (r, j) · weight (j, q), plus bias (0, q).
-/
import proofs.«140300_j64630667870273_2_alg».proof.Proof.Gen.KernelIdeal.Frame
import proofs.«140300_j64630667870273_2_alg».proof.Proof.LibBlockLayer
import Idealize.ShloMosaic.Lib.Pipeline.Value
import Idealize.ShloMosaic.Lib.ValueIdx

noncomputable section

namespace Cert.RegionEdge

open Cert.KernelIdeal Cert.KernelIdeal.Gen Idealize.ShloMosaic Idealize.ShloMosaic.TcCoe Idealize.SL.Sem
open Idealize.ShloMosaic.ValueIdx Cert.LibLayers Cert.LibBlockLayer
open Idealize.ShloMosaic.Pipeline (Dat)
open scoped BigOperators

variable (V : (c : Dev nD) → (b : Ref sig .tc) → Buf (Elt Ideal) ((c : Thread nD τ).loc b))

/-- The zero offsets of a whole-buffer access, as a constant function. -/
theorem zeroOff : (![0, 0] : Fin 2 → Nat) = fun _ => 0 := funext fun a => by fin_cases a <;> rfl

/-- The body's payload is the layer of its three blocks: the format changes are the identity on extended reals and the
    casts of the two matrix operands are to their own shapes. -/
theorem payload_eq (x0 : Vec Ideal S10000x128 .f32) (x1 : Vec Ideal S128x256 .f32) (x2 : Vec Ideal S1x256 .f32) :
    k1_pay1 x0 x1 x2 = dense x0 x1 (rowAt x2) := by
  unfold k1_pay1
  rw [shapeCast_self x0, shapeCast_self x1]
  exact blockDense dot_S10000x128_S128x256_S10000x256_1_0_0_1_n_n rfl rfl rfl rfl rfl rfl none
    (truncf .bf16 x0 bitsLt_bf16_f32) (truncf .bf16 x1 bitsLt_bf16_f32) x2 shapeCasts_S1x256_S1x256
    broadcasts_S1x256_S10000x256

/-- The printed index maps over the twenty points: the row blocks of the attributes and of the output are both the
    point's number, and every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole layer of the arrays the region finds. -/
theorem flushed_eq (c : Dev nD) (t : Fin cfg1.N) :
    (dat1 (F := Ideal) V c).flushed 3 t
      = ((cfg1.win 3).blk t).view.read (Elt Ideal) (dense (V c main_v62) (V c main_v43) (rowAt (V c main_v61))) := by
  show (cfg1.win 3).cut (grid1.coords t) ((dat1 V c).after 3 t) = _
  rw [after1_3]
  unfold out1_3
  rw [View.canon_unit_zero zeroOff]
  simp only [View.ld_unit_zero (S := S10000x128) zeroOff, View.ld_unit_zero (S := S128x256) zeroOff,
    View.ld_unit_zero (S := S1x256) zeroOff]
  obtain ⟨e0, e1, e2, e3, e4, e5, e6, e7⟩ := idx_facts t
  show (fun j : S10000x256.Idx => k1_pay1 (iblk1 V c 0 t) (iblk1 V c 1 t) (iblk1 V c 2 t) j)
    = fun j : S10000x256.Idx =>
        dense (V c main_v62) (V c main_v43) (rowAt (V c main_v61)) (((cfg1.win 3).blk t).view.emb j)
  funext j
  obtain ⟨p, q, rfl⟩ : ∃ (p : Fin 10000) (q : Fin 256), j = ix2 p q := ⟨j 0, j 1, eq_ix2 j⟩
  refine (congrFun (payload_eq (iblk1 V c 0 t) (iblk1 V c 1 t) (iblk1 V c 2 t)) (ix2 p q)).trans ?_
  refine dense_tile (V c main_v62) (V c main_v43) (V c main_v61) (iblk1 V c 0 t) (iblk1 V c 1 t) (iblk1 V c 2 t)
    (ix2 p q) _ (fun k => ?_) (fun k => ?_) ?_
  · show V c main_v62 (((cfg1.win 0).blk t).view.emb (ix2 p k))
      = V c main_v62 (ix2 ((((cfg1.win 3).blk t).view.emb (ix2 p q)) 0) k)
    refine congrArg (V c main_v62) (funext fun a => Fin.ext ?_)
    match a with
    | ⟨0, _⟩ => show win1_0.index t (0 : Fin 2) * 10000 + 1 * p.val = win1_3.index t (0 : Fin 2) * 10000 + 1 * p.val
                rw [e0, e6]
    | ⟨1, _⟩ => show win1_0.index t (1 : Fin 2) * 128 + 1 * k.val = k.val
                rw [e1]; omega
  · show V c main_v43 (((cfg1.win 1).blk t).view.emb (ix2 k q))
      = V c main_v43 (ix2 k ((((cfg1.win 3).blk t).view.emb (ix2 p q)) 1))
    refine congrArg (V c main_v43) (funext fun a => Fin.ext ?_)
    match a with
    | ⟨0, _⟩ => show win1_1.index t (0 : Fin 2) * 128 + 1 * k.val = k.val
                rw [e2]; omega
    | ⟨1, _⟩ => show win1_1.index t (1 : Fin 2) * 256 + 1 * q.val = win1_3.index t (1 : Fin 2) * 256 + 1 * q.val
                rw [e3, e7]
  · show V c main_v61 (((cfg1.win 2).blk t).view.emb (ix2 (0 : Fin 1) q))
      = V c main_v61 (ix2 (0 : Fin 1) ((((cfg1.win 3).blk t).view.emb (ix2 p q)) 1))
    refine congrArg (V c main_v61) (funext fun a => Fin.ext ?_)
    match a with
    | ⟨0, _⟩ => show win1_2.index t (0 : Fin 2) * 1 + 1 * (0 : Fin 1).val = (0 : Fin 1).val
                rw [e4]; rfl
    | ⟨1, _⟩ => show win1_2.index t (1 : Fin 2) * 256 + 1 * q.val = win1_3.index t (1 : Fin 2) * 256 + 1 * q.val
                rw [e5, e7]

/-- An index of the output is in point t's block iff each coordinate is in the block's range on its axis. -/
theorem mem_blk (t : Fin cfg1.N) (i : S200000x256.Idx) :
    i ∈ ((cfg1.win 3).blk t).view.set ↔ ∀ a : Fin 2, win1_3.index t a * S10000x256.size a ≤ (i a).val
      ∧ (i a).val < win1_3.index t a * S10000x256.size a + S10000x256.size a := by
  show i ∈ ((View.whole main_v63).slice (win1_3.rect t)).set ↔ _
  rw [View.set_slice_whole, Rect.mem_set_unit]
  exact Iff.rfl

/-- Every row of the output is in the block of the point numbered by the row's quotient by 10000. -/
theorem covered (i : S200000x256.Idx) :
    ∃ t : Fin cfg1.N, (cfg1.win 3).flush t = true ∧ i ∈ ((cfg1.win 3).blk t).view.set := by
  have hi0 : (i 0).val < 200000 := (i 0).isLt
  have hi1 : (i 1).val < 256 := (i 1).isLt
  have hN : cfg1.N = 20 := N_1
  obtain ⟨t, ht⟩ : ∃ t : Fin cfg1.N, t.val = (i 0).val / 10000 := ⟨⟨(i 0).val / 10000, by rw [hN]; omega⟩, rfl⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000
              rw [e6, ht]; omega
  | ⟨1, _⟩ => show win1_3.index t (1 : Fin 2) * 256 ≤ (i 1).val ∧ (i 1).val < win1_3.index t (1 : Fin 2) * 256 + 256
              rw [e7]; omega

/-- After the region the output array is the whole layer. -/
theorem final1 (c : Dev nD) :
    (dat1 (F := Ideal) V c).arrAt 3 cfg1.N = dense (V c main_v62) (V c main_v43) (rowAt (V c main_v61)) :=
  (dat1 (F := Ideal) V c).arrAt_eq_of_cover 3 (dense (V c main_v62) (V c main_v43) (rowAt (V c main_v61)))
    (fun t _ => flushed_eq V c t) covered

/-- Entry (r, q) of the output array after the region, the three entry arrays named at their literal types. -/
theorem final1_apply (c : Dev nD) (l : S200000x128.Idx → EReal) (w : S128x256.Idx → EReal) (b : S1x256.Idx → EReal)
    (hl : V c main_v62 = l) (hw : V c main_v43 = w) (hb : V c main_v61 = b) (r : Fin 200000) (q : Fin 256) :
    @Eq EReal ((dat1 (F := Ideal) V c).arrAt 3 cfg1.N (ix2 r q))
      ((∑ j : Fin 128, l (ix2 r j) * w (ix2 j q)) + b (ix2 (0 : Fin 1) q)) := by
  subst hl hw hb
  rw [final1]
  rfl

end Cert.RegionEdge

end
-- ==== Proof.RegionNode.lean ====
/-
  The node region's output array as one function of the arrays it finds at entry.

  The region runs over ten grid points. Point t multiplies rows 10000·t … 10000·t + 9999 of the [100000, 20] array of
  aggregated messages by the whole [20, 10] weight matrix into a zero accumulator, adds the [1, 10] bias row to every row,
  takes the maximum with zero entry by entry, and writes the result to the same rows of the [100000, 10] output. Every
  row lies in exactly one point's block, so after the region the output is the rectified layer of LibLayers.lean of the
  three arrays: entry (p, q) is the larger of the sum over k of message (p, k) · weight (k, q) plus bias (0, q), and the
  number the f32 zero word encodes.
-/
import proofs.«140300_j64630667870273_2_alg».proof.Proof.Gen.KernelIdeal.Frame
import proofs.«140300_j64630667870273_2_alg».proof.Proof.LibBlockLayer
import Idealize.ShloMosaic.Lib.Pipeline.Value
import Idealize.ShloMosaic.Lib.ValueIdx

noncomputable section

namespace Cert.RegionNode

open Cert.KernelIdeal Cert.KernelIdeal.Gen Idealize.ShloMosaic Idealize.ShloMosaic.TcCoe Idealize.SL.Sem
open Idealize.ShloMosaic.ValueIdx Cert.LibLayers Cert.LibBlockLayer
open Idealize.ShloMosaic.Pipeline (Dat)
open scoped BigOperators

variable (V : (c : Dev nD) → (b : Ref sig .tc) → Buf (Elt Ideal) ((c : Thread nD τ).loc b))

/-- The zero offsets of a whole-buffer access, as a constant function. -/
theorem zeroOff : (![0, 0] : Fin 2 → Nat) = fun _ => 0 := funext fun a => by fin_cases a <;> rfl

/-- The body's payload is the rectified layer of its three blocks: the format changes are the identity on extended
    reals and the cast of the message block is to its own shape. -/
theorem payload_eq (x0 : Vec Ideal S10000x20 .f32) (x1 : Vec Ideal S20x10 .f32) (x2 : Vec Ideal S1x10 .f32) :
    k2_pay1 x0 x1 x2 = relu (dense x0 x1 (rowAt x2)) := by
  unfold k2_pay1
  rw [shapeCast_self x0]
  exact blockDense_relu dot_S10000x20_S20x10_S10000x10_1_0_0_1_n_n rfl rfl rfl rfl rfl rfl none
    (truncf .bf16 x0 bitsLt_bf16_f32) (truncf .bf16 x1 bitsLt_bf16_f32) x2 shapeCasts_S1x10_S1x10
    broadcasts_S1x10_S10000x10

/-- The printed index maps over the ten points: the row blocks of the messages and of the output are both the point's
    number, and every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole rectified layer of the arrays the region finds. -/
theorem flushed_eq (c : Dev nD) (t : Fin cfg2.N) :
    (dat2 (F := Ideal) V c).flushed 3 t
      = ((cfg2.win 3).blk t).view.read (Elt Ideal)
          (relu (dense (V c main_v85) (V c main_arg6) (rowAt (V c main_v86)))) := by
  show (cfg2.win 3).cut (grid2.coords t) ((dat2 V c).after 3 t) = _
  rw [after2_3]
  unfold out2_3
  rw [View.canon_unit_zero zeroOff]
  simp only [View.ld_unit_zero (S := S10000x20) zeroOff, View.ld_unit_zero (S := S20x10) zeroOff,
    View.ld_unit_zero (S := S1x10) zeroOff]
  obtain ⟨e0, e1, e2, e3, e4, e5, e6, e7⟩ := idx_facts t
  show (fun j : S10000x10.Idx => k2_pay1 (iblk2 V c 0 t) (iblk2 V c 1 t) (iblk2 V c 2 t) j)
    = fun j : S10000x10.Idx =>
        relu (dense (V c main_v85) (V c main_arg6) (rowAt (V c main_v86))) (((cfg2.win 3).blk t).view.emb j)
  funext j
  obtain ⟨p, q, rfl⟩ : ∃ (p : Fin 10000) (q : Fin 10), j = ix2 p q := ⟨j 0, j 1, eq_ix2 j⟩
  refine (congrFun (payload_eq (iblk2 V c 0 t) (iblk2 V c 1 t) (iblk2 V c 2 t)) (ix2 p q)).trans ?_
  refine congrArg (fun x : EReal => max x (Ideal.ofBits .f32 0x00000000#32)) ?_
  refine dense_tile (V c main_v85) (V c main_arg6) (V c main_v86) (iblk2 V c 0 t) (iblk2 V c 1 t) (iblk2 V c 2 t)
    (ix2 p q) _ (fun k => ?_) (fun k => ?_) ?_
  · show V c main_v85 (((cfg2.win 0).blk t).view.emb (ix2 p k))
      = V c main_v85 (ix2 ((((cfg2.win 3).blk t).view.emb (ix2 p q)) 0) k)
    refine congrArg (V c main_v85) (funext fun a => Fin.ext ?_)
    match a with
    | ⟨0, _⟩ => show win2_0.index t (0 : Fin 2) * 10000 + 1 * p.val = win2_3.index t (0 : Fin 2) * 10000 + 1 * p.val
                rw [e0, e6]
    | ⟨1, _⟩ => show win2_0.index t (1 : Fin 2) * 20 + 1 * k.val = k.val
                rw [e1]; omega
  · show V c main_arg6 (((cfg2.win 1).blk t).view.emb (ix2 k q))
      = V c main_arg6 (ix2 k ((((cfg2.win 3).blk t).view.emb (ix2 p q)) 1))
    refine congrArg (V c main_arg6) (funext fun a => Fin.ext ?_)
    match a with
    | ⟨0, _⟩ => show win2_1.index t (0 : Fin 2) * 20 + 1 * k.val = k.val
                rw [e2]; omega
    | ⟨1, _⟩ => show win2_1.index t (1 : Fin 2) * 10 + 1 * q.val = win2_3.index t (1 : Fin 2) * 10 + 1 * q.val
                rw [e3, e7]
  · show V c main_v86 (((cfg2.win 2).blk t).view.emb (ix2 (0 : Fin 1) q))
      = V c main_v86 (ix2 (0 : Fin 1) ((((cfg2.win 3).blk t).view.emb (ix2 p q)) 1))
    refine congrArg (V c main_v86) (funext fun a => Fin.ext ?_)
    match a with
    | ⟨0, _⟩ => show win2_2.index t (0 : Fin 2) * 1 + 1 * (0 : Fin 1).val = (0 : Fin 1).val
                rw [e4]; rfl
    | ⟨1, _⟩ => show win2_2.index t (1 : Fin 2) * 10 + 1 * q.val = win2_3.index t (1 : Fin 2) * 10 + 1 * q.val
                rw [e5, e7]

/-- An index of the output is in point t's block iff each coordinate is in the block's range on its axis. -/
theorem mem_blk (t : Fin cfg2.N) (i : S100000x10.Idx) :
    i ∈ ((cfg2.win 3).blk t).view.set ↔ ∀ a : Fin 2, win2_3.index t a * S10000x10.size a ≤ (i a).val
      ∧ (i a).val < win2_3.index t a * S10000x10.size a + S10000x10.size a := by
  show i ∈ ((View.whole main_v87).slice (win2_3.rect t)).set ↔ _
  rw [View.set_slice_whole, Rect.mem_set_unit]
  exact Iff.rfl

/-- Every row of the output is in the block of the point numbered by the row's quotient by 10000. -/
theorem covered (i : S100000x10.Idx) :
    ∃ t : Fin cfg2.N, (cfg2.win 3).flush t = true ∧ i ∈ ((cfg2.win 3).blk t).view.set := by
  have hi0 : (i 0).val < 100000 := (i 0).isLt
  have hi1 : (i 1).val < 10 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5, e6, e7⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000
              rw [e6, ht]; omega
  | ⟨1, _⟩ => show win2_3.index t (1 : Fin 2) * 10 ≤ (i 1).val ∧ (i 1).val < win2_3.index t (1 : Fin 2) * 10 + 10
              rw [e7]; omega

/-- After the region the output array is the whole rectified layer. -/
theorem final2 (c : Dev nD) :
    (dat2 (F := Ideal) V c).arrAt 3 cfg2.N = relu (dense (V c main_v85) (V c main_arg6) (rowAt (V c main_v86))) :=
  (dat2 (F := Ideal) V c).arrAt_eq_of_cover 3 (relu (dense (V c main_v85) (V c main_arg6) (rowAt (V c main_v86))))
    (fun t _ => flushed_eq V c t) covered

/-- Entry (p, q) of the output array after the region, the three entry arrays named at their literal types. -/
theorem final2_apply (c : Dev nD) (l : S100000x20.Idx → EReal) (w : S20x10.Idx → EReal) (b : S1x10.Idx → EReal)
    (hl : V c main_v85 = l) (hw : V c main_arg6 = w) (hb : V c main_v86 = b) (p : Fin 100000) (q : Fin 10) :
    @Eq EReal ((dat2 (F := Ideal) V c).arrAt 3 cfg2.N (ix2 p q))
      (max ((∑ k : Fin 20, l (ix2 p k) * w (ix2 k q)) + b (ix2 (0 : Fin 1) q)) (Ideal.ofBits .f32 0x00000000#32)) := by
  subst hl hw hb
  rw [final2]
  rfl

end Cert.RegionNode

end
-- ==== Proof.LibTyped.lean ====
/-
  Typed references: a value carried to a buffer's own type and back.

  A host operation inside a called function is stated over references that carry the type of the tensor value they
  hold; its function is moved to the buffer's own type along the reference's type equation, on the way in and on the
  way out. Reading a chain of such operations therefore leaves, around every intermediate value, a transport to the
  buffer's type followed by the transport back. The two cancel, whatever the reference.
-/
import Idealize.ShloMosaic.Lib.StableHlo

namespace Cert.LibTyped

open Idealize.ShloMosaic Idealize.ShloMosaic.StableHlo

/-- A value moved to a typed reference's buffer type and back is the value: both moves are transports along the one
    equation between the buffer's type and the value's, in opposite directions. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- The same the other way round: a buffer's contents read at the value's type and moved back. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Cert.LibTyped
-- ==== Proof.LibTypedLit.lean ====
/-
  Typed references at a literal buffer: the transport is the identity.

  A typed reference made from a buffer at that buffer's own type carries the reflexive type equation, so moving a
  value to the buffer's type, or back, along it changes nothing.
-/
import Idealize.ShloMosaic.Lib.StableHlo

namespace Cert.LibTypedLit

open Idealize.ShloMosaic Idealize.ShloMosaic.StableHlo

/-- Contents of a buffer read at the buffer's own type through its typed reference are the contents. -/
theorem ofBuf_of {sig : RefSig} {Val : EltTy → Type} (r : Ref sig .tc) (h1) (h2) (v : r.ty.Contents Val) :
    (TRef.of (T := r.ty) r rfl h1 h2).ofBuf v = v := rfl

/-- A value of the buffer's own type moved to the buffer through its typed reference is the value. -/
theorem toBuf_of {sig : RefSig} {Val : EltTy → Type} (r : Ref sig .tc) (h1) (h2) (v : r.ty.Contents Val) :
    (TRef.of (T := r.ty) r rfl h1 h2).toBuf v = v := rfl

end Cert.LibTypedLit
-- ==== Proof.KernelFold.lean ====
/-
  The idealized kernel's buffer contents, read off the fold through its host operations.

  Between the launch and the return the program's host operations compute, in order: the source and destination words
  of the edges (rows 0 and 1 of the edge index); the three 16-row slabs of the 48 × 20 weight, the first two laid side by
  side (the node projection's 16 × 40 weight); after the projection, its two 20-column halves; the 128 × 256
  block-diagonal weight (the third slab written eight times along the diagonal of a zero matrix) and the 256-entry
  bias row (the bias written eight times into a zero vector); the edge attributes packed eight edges to a row; after the
  edge product, its first 160 columns unpacked to one edge per row, added to the projected rows gathered at the source
  and destination words, rectified, and summed into the destination nodes; after the node layer, the sum over graphs and
  two dense layers. Each statement below says what one buffer holds at one boundary, as those operations of the
  argument arrays and of the regions' output arrays.
-/
import proofs.«140300_j64630667870273_2_alg».proof.Proof.Gen.KernelIdeal.Frame
import proofs.«140300_j64630667870273_2_alg».proof.Proof.LibTyped
import proofs.«140300_j64630667870273_2_alg».proof.Proof.LibTypedLit
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## The arguments, where a region or a later stretch reads them -/

theorem W1_arg1 : W1 m ρ c (Proc.devRef .tc main_arg1) = m ((c : Thread nD τ).loc main_arg1) := by
  show StableHlo.after hostOps0 (W0 m ρ c) (Proc.devRef .tc main_arg1) = _
  after_results

theorem W2_arg2 : W2 m ρ c (Proc.devRef .tc main_arg2) = m ((c : Thread nD τ).loc main_arg2) := by
  refine (W2_of_ne m ρ c main_arg2 (by decide)).trans ?_
  show StableHlo.after hostOps0 (W0 m ρ c) (Proc.devRef .tc main_arg2) = _
  after_results

theorem W2_arg5 : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results

/-- From region 2's exit to the return no operation writes an argument. -/
theorem W8_arg3 : W8 m ρ c (Proc.devRef .tc main_arg3) = m ((c : Thread nD τ).loc main_arg3) := by
  have h : W11 m ρ c (Proc.devRef .tc main_arg3) = W8 m ρ c (Proc.devRef .tc main_arg3) := by
    show StableHlo.after hostOps3_2 (StableHlo.after hostOps3_1 (StableHlo.after hostOps3 (W8 m ρ c))) _ = _
    after_results_simp
  exact h.symm.trans (W11_main_arg3 m ρ c)
theorem W8_arg8 : W8 m ρ c (Proc.devRef .tc main_arg8) = m ((c : Thread nD τ).loc main_arg8) := by
  have h : W11 m ρ c (Proc.devRef .tc main_arg8) = W8 m ρ c (Proc.devRef .tc main_arg8) := by
    show StableHlo.after hostOps3_2 (StableHlo.after hostOps3_1 (StableHlo.after hostOps3 (W8 m ρ c))) _ = _
    after_results_simp
  exact h.symm.trans (W11_main_arg8 m ρ c)
theorem W8_arg9 : W8 m ρ c (Proc.devRef .tc main_arg9) = m ((c : Thread nD τ).loc main_arg9) := by
  have h : W11 m ρ c (Proc.devRef .tc main_arg9) = W8 m ρ c (Proc.devRef .tc main_arg9) := by
    show StableHlo.after hostOps3_2 (StableHlo.after hostOps3_1 (StableHlo.after hostOps3 (W8 m ρ c))) _ = _
    after_results_simp
  exact h.symm.trans (W11_main_arg9 m ρ c)
theorem W8_arg10 : W8 m ρ c (Proc.devRef .tc main_arg10) = m ((c : Thread nD τ).loc main_arg10) := by
  have h : W11 m ρ c (Proc.devRef .tc main_arg10) = W8 m ρ c (Proc.devRef .tc main_arg10) := by
    show StableHlo.after hostOps3_2 (StableHlo.after hostOps3_1 (StableHlo.after hostOps3 (W8 m ρ c))) _ = _
    after_results_simp
  exact h.symm.trans (W11_main_arg10 m ρ c)
theorem W8_arg11 : W8 m ρ c (Proc.devRef .tc main_arg11) = m ((c : Thread nD τ).loc main_arg11) := by
  have h : W11 m ρ c (Proc.devRef .tc main_arg11) = W8 m ρ c (Proc.devRef .tc main_arg11) := by
    show StableHlo.after hostOps3_2 (StableHlo.after hostOps3_1 (StableHlo.after hostOps3 (W8 m ρ c))) _ = _
    after_results_simp
  exact h.symm.trans (W11_main_arg11 m ρ c)
theorem W7_arg6 : W7 m ρ c (Proc.devRef .tc main_arg6) = m ((c : Thread nD τ).loc main_arg6) := by
  have h7 : W7 m ρ c (Proc.devRef .tc main_arg6) = W4 m ρ c (Proc.devRef .tc main_arg6) := by
    show StableHlo.after hostOps2_2 (StableHlo.after hostOps2_1 (StableHlo.after hostOps2 (W4 m ρ c))) _ = _
    after_results_simp
  have h3 : W3 m ρ c (Proc.devRef .tc main_arg6) = W2 m ρ c (Proc.devRef .tc main_arg6) := by
    show StableHlo.after hostOps1 (W2 m ρ c) _ = _
    after_results_simp
  have h1 : W1 m ρ c (Proc.devRef .tc main_arg6) = m ((c : Thread nD τ).loc main_arg6) := by
    show StableHlo.after hostOps0 (W0 m ρ c) (Proc.devRef .tc main_arg6) = _
    after_results
  exact h7.trans ((W4_of_ne m ρ c main_arg6 (by decide)).trans (h3.trans ((W2_of_ne m ρ c main_arg6 (by decide)).trans h1)))
theorem W6_arg7 : W6 m ρ c (Proc.devRef .tc main_arg7) = m ((c : Thread nD τ).loc main_arg7) := by
  have h : W11 m ρ c (Proc.devRef .tc main_arg7) = W8 m ρ c (Proc.devRef .tc main_arg7) := by
    show StableHlo.after hostOps3_2 (StableHlo.after hostOps3_1 (StableHlo.after hostOps3 (W8 m ρ c))) _ = _
    after_results_simp
  have h7 : W7 m ρ c (Proc.devRef .tc main_arg7) = W6 m ρ c (Proc.devRef .tc main_arg7) := by
    show StableHlo.after hostOps2_2 (W6 m ρ c) _ = _
    after_results_simp
  exact h7.symm.trans ((W8_of_ne m ρ c main_arg7 (by decide)).symm.trans (h.symm.trans (W11_main_arg7 m ρ c)))

/-! ## The edges' words -/

/-- Row `r` of the edge index as a vector of words. -/
abbrev wordsOf (a0 : (⟨S2x1600000, .i32⟩ : BufTy).Contents (Elt F)) (r : ℕ) (h : S2x1600000.Slices ![r, 0] S1x1600000) :
    (⟨S1600000, .i32⟩ : BufTy).Contents (Elt F) :=
  shapeCast S1600000 (extractStridedSlice S1x1600000 ![r, 0] a0 h) shapeCasts_S1x1600000_S1600000

theorem W1_v1 : W1 m ρ c (Proc.devRef .tc main_v1)
    = wordsOf (m ((c : Thread nD τ).loc main_arg0)) 0 slices_S2x1600000_S1x1600000_0_0 := by
  show StableHlo.after hostOps0 (W0 m ρ c) (Proc.devRef .tc main_v1) = _
  after_results
  rfl
theorem W1_v3 : W1 m ρ c (Proc.devRef .tc main_v3)
    = wordsOf (m ((c : Thread nD τ).loc main_arg0)) 1 slices_S2x1600000_S1x1600000_1_0 := by
  show StableHlo.after hostOps0 (W0 m ρ c) (Proc.devRef .tc main_v3) = _
  after_results
  rfl

theorem W4_v1 : W4 m ρ c (Proc.devRef .tc main_v1)
    = wordsOf (m ((c : Thread nD τ).loc main_arg0)) 0 slices_S2x1600000_S1x1600000_0_0 := by
  refine (W4_of_ne m ρ c main_v1 (by decide)).trans ?_
  have h : W3 m ρ c (Proc.devRef .tc main_v1) = W2 m ρ c (Proc.devRef .tc main_v1) := by
    show StableHlo.after hostOps1 (W2 m ρ c) _ = _
    after_results_simp
  exact h.trans ((W2_of_ne m ρ c main_v1 (by decide)).trans (W1_v1 m ρ c))
theorem W4_v3 : W4 m ρ c (Proc.devRef .tc main_v3)
    = wordsOf (m ((c : Thread nD τ).loc main_arg0)) 1 slices_S2x1600000_S1x1600000_1_0 := by
  refine (W4_of_ne m ρ c main_v3 (by decide)).trans ?_
  have h : W3 m ρ c (Proc.devRef .tc main_v3) = W2 m ρ c (Proc.devRef .tc main_v3) := by
    show StableHlo.after hostOps1 (W2 m ρ c) _ = _
    after_results_simp
  exact h.trans ((W2_of_ne m ρ c main_v3 (by decide)).trans (W1_v3 m ρ c))

/-! ## Region 0's entry: the node table and the 16 × 40 weight -/

theorem W1_v7 : W1 m ρ c (Proc.devRef .tc main_v7)
    = concatenate S16x40 1
        [⟨S16x20, extractStridedSlice S16x20 ![0, 0] (m ((c : Thread nD τ).loc main_arg4)) slices_S48x20_S16x20_0_0⟩,
         ⟨S16x20, extractStridedSlice S16x20 ![16, 0] (m ((c : Thread nD τ).loc main_arg4)) slices_S48x20_S16x20_16_0⟩]
        concatenates_S16x20_S16x20_S16x40_d1 := by
  show StableHlo.after hostOps0 (W0 m ρ c) (Proc.devRef .tc main_v7) = _
  after_results

theorem W2_v6 : W2 m ρ c (Proc.devRef .tc main_v6)
    = extractStridedSlice S16x20 ![32, 0] (m ((c : Thread nD τ).loc main_arg4)) slices_S48x20_S16x20_32_0 := by
  refine (W2_of_ne m ρ c main_v6 (by decide)).trans ?_
  show StableHlo.after hostOps0 (W0 m ρ c) (Proc.devRef .tc main_v6) = _
  after_results

end Cert.KernelIdeal.Fold

end
-- ==== Proof.LibScatterSet.lean ====
/-
  The set-scatter read at one element.

  `stablehlo.scatter` whose body returns the update (`x.at[…].set(v)`) is the left fold, over the update indices in
  row-major order, of the step "replace the element the update lands at by the update's element". Read at one result
  index `i` the fold is therefore decided by the update indices that land at `i`: when none does, the operand's
  element stays; when exactly one does, the result is that update's element, whatever came before or after it in the
  order. Both are shown for the fold over an arbitrary list of update positions, by induction on the list taken from its
  end, and then for the row-major list of all positions, which contains every one of them.
-/
import Idealize.ShloMosaic.PureOps
import Idealize.ShloMosaic.Lib.ValueIdx

namespace Cert.LibScatterSet

open Idealize.ShloMosaic

variable {α : Type} {w : Nat} {s si u : Shape}

/-- One step of the set-scatter's fold: update position `n` replaces the element it lands at. -/
def step (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- The set-scatter is the fold of `step` over all update positions. -/
theorem scatter_eq_foldl (d : ScatterDims s si u) (x : s.Idx → α) (idx : IVec si w) (upd : u.Idx → α) :
    Host.scatter d (fun _ b => b) x idx upd = (List.finRange u.numel).foldl (step d idx upd) x := rfl

/-- One step read at `i`: the update's element when position `n` lands at `i`, the old element otherwise. -/
theorem step_apply (d : ScatterDims s si u) (idx : IVec si w) (upd : u.Idx → α) (r : s.Idx → α) (n : Fin u.numel)
    (i : s.Idx) :
    step d idx upd r n i
      = if d.resultIdx? (u.rowMajor.symm n) idx = some i then upd (u.rowMajor.symm n) else r i := by
  unfold step
  cases h : d.resultIdx? (u.rowMajor.symm n) idx with
  | none => simp
  | some i' =>
    by_cases hi : i = i'
    · subst hi; simp
    · have : ¬ (some i' = some i) := fun e => hi (Option.some.inj e).symm
      simp [hi, this]

/-- No position of the list lands at `i`: the fold leaves the element at `i` as it was. -/
theorem foldl_miss (d : ScatterDims s si u) (idx : IVec si w) (upd : u.Idx → α) (i : s.Idx) (L : List (Fin u.numel)) :
    ∀ r : s.Idx → α, (∀ n ∈ L, d.resultIdx? (u.rowMajor.symm n) idx ≠ some i) →
      L.foldl (step d idx upd) r i = r i := by
  induction L using List.reverseRecOn with
  | nil => intro r _; rfl
  | append_singleton L n ih =>
    intro r h
    rw [List.foldl_append, List.foldl_cons, List.foldl_nil, step_apply]
    rw [if_neg (h n (by simp))]
    exact ih r fun m hm => h m (by simp [hm])

/-- Position `n₀` is in the list and lands at `i`, and it is the only position of the list that does: the fold has
    that update's element at `i`. -/
theorem foldl_hit (d : ScatterDims s si u) (idx : IVec si w) (upd : u.Idx → α) (i : s.Idx) (n₀ : Fin u.numel)
    (h₀ : d.resultIdx? (u.rowMajor.symm n₀) idx = some i) (L : List (Fin u.numel)) :
    ∀ r : s.Idx → α, n₀ ∈ L → (∀ n ∈ L, d.resultIdx? (u.rowMajor.symm n) idx = some i → n = n₀) →
      L.foldl (step d idx upd) r i = upd (u.rowMajor.symm n₀) := by
  induction L using List.reverseRecOn with
  | nil => intro r h; exact absurd h (by simp)
  | append_singleton L n ih =>
    intro r hmem huniq
    rw [List.foldl_append, List.foldl_cons, List.foldl_nil, step_apply]
    by_cases hn : d.resultIdx? (u.rowMajor.symm n) idx = some i
    · rw [if_pos hn, huniq n (by simp) hn]
    · rw [if_neg hn]
      have hne : n₀ ≠ n := fun e => hn (e ▸ h₀)
      have hmem' : n₀ ∈ L := by
        rcases List.mem_append.1 hmem with h | h
        · exact h
        · exact absurd (List.mem_singleton.1 h) hne
      exact ih r hmem' fun m hm => huniq m (by simp [hm])

/-- The set-scatter at an element exactly one update lands at: that update's element. -/
theorem scatter_set_hit (d : ScatterDims s si u) (x : s.Idx → α) (idx : IVec si w) (upd : u.Idx → α) (i : s.Idx)
    (j₀ : u.Idx) (h₀ : d.resultIdx? j₀ idx = some i) (huniq : ∀ j, d.resultIdx? j idx = some i → j = j₀) :
    Host.scatter d (fun _ b => b) x idx upd i = upd j₀ := by
  rw [scatter_eq_foldl]
  have e : u.rowMajor.symm (u.rowMajor j₀) = j₀ := u.rowMajor.symm_apply_apply j₀
  have := foldl_hit d idx upd i (u.rowMajor j₀) (by rw [e]; exact h₀) (List.finRange u.numel) x (List.mem_finRange _)
    (fun n _ hn => by
      have := huniq _ hn
      rw [← this]; exact (u.rowMajor.apply_symm_apply n).symm)
  rw [this, e]

/-- The set-scatter at an element no update lands at: the operand's element. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_eq_foldl]
  exact foldl_miss d idx upd i (List.finRange u.numel) x fun n _ => h _

/-! ## Where an update lands

An update index lands at the operand index whose coordinate on every axis is the window's start plus the update's window
coordinate, when that is inside the operand. The two directions below say so without the bounds: an index whose
coordinates are those sums is where the update lands, and only such an index is. When every scatter index is the word
zero the start is zero on every axis, so that an update lands at the index whose coordinates are its window coordinates. -/

/-- All scatter indices are the zero word: the window starts at zero on every axis. -/
theorem start_eq_zero (d : ScatterDims s si u) (j : u.Idx) (idx : IVec si w) (h0 : ∀ k, idx k = 0#w) (a : Fin s.rank) :
    d.start j idx a = 0 := by
  unfold ScatterDims.start
  split
  · rw [h0]; exact BitVec.toInt_zero
  · rfl

/-- An operand index whose coordinates are start plus window coordinate is where the update lands. -/
theorem resultIdx?_eq_some (d : ScatterDims s si u) (j : u.Idx) (idx : IVec si w) (i : s.Idx)
    (h : ∀ a, d.start j idx a + (d.window j a : Int) = ((i a).val : Int)) : d.resultIdx? j idx = some i := by
  have hall : ∀ a, 0 ≤ d.start j idx a + (d.window j a : Int) ∧ d.start j idx a + (d.window j a : Int) < (s.size a : Int) :=
    fun a => by rw [h a]; exact ⟨Int.natCast_nonneg _, by exact_mod_cast (i a).isLt⟩
  unfold ScatterDims.resultIdx?
  rw [dif_pos hall]
  congr 1
  funext a
  apply Fin.ext
  show (d.start j idx a + (d.window j a : Int)).toNat = (i a).val
  rw [h a]; exact Int.toNat_natCast _

/-- The operand index an update lands at has start plus window coordinate on every axis. -/
theorem eq_of_resultIdx?_eq_some (d : ScatterDims s si u) (j : u.Idx) (idx : IVec si w) (i : s.Idx)
    (h : d.resultIdx? j idx = some i) (a : Fin s.rank) :
    d.start j idx a + (d.window j a : Int) = ((i a).val : Int) := by
  unfold ScatterDims.resultIdx? at h
  split at h
  · rename_i hall
    have e := congrFun (Option.some.inj h) a
    have e' : (d.start j idx a + (d.window j a : Int)).toNat = (i a).val := congrArg Fin.val e
    rw [← e']; exact (Int.toNat_of_nonneg (hall a).1).symm
  · exact absurd h (by simp)

/-- With all scatter indices zero, an update lands at `i` exactly when its window coordinates are `i`'s. -/
theorem resultIdx?_zero_iff (d : ScatterDims s si u) (j : u.Idx) (idx : IVec si w) (h0 : ∀ k, idx k = 0#w) (i : s.Idx) :
    d.resultIdx? j idx = some i ↔ ∀ a, d.window j a = (i a).val := by
  constructor
  · intro h a
    have := eq_of_resultIdx?_eq_some d j idx i h a
    rw [start_eq_zero d j idx h0 a, Int.zero_add] at this
    exact_mod_cast this
  · intro h
    refine resultIdx?_eq_some d j idx i fun a => ?_
    rw [start_eq_zero d j idx h0 a, Int.zero_add, h a]

/-- The set-scatter at zero scatter indices, read at an element that exactly one update's window coordinates name:
    that update's element. -/
theorem scatter_set_zero_hit (d : ScatterDims s si u) (x : s.Idx → α) (idx : IVec si w) (upd : u.Idx → α)
    (h0 : ∀ k, idx k = 0#w) (i : s.Idx) (j₀ : u.Idx) (h₀ : ∀ a, d.window j₀ a = (i a).val)
    (huniq : ∀ j, (∀ a, d.window j a = (i a).val) → j = j₀) :
    Host.scatter d (fun _ b => b) x idx upd i = upd j₀ :=
  scatter_set_hit d x idx upd i j₀ ((resultIdx?_zero_iff d j₀ idx h0 i).2 h₀)
    fun j hj => huniq j ((resultIdx?_zero_iff d j idx h0 i).1 hj)

end Cert.LibScatterSet
-- ==== Proof.LibVecJoin.lean ====
/-
  Two vectors laid end to end, and a vector stood up as a column, read at an index; the edge list with its loops.

  A vector of `a` entries followed by one of `b` entries is a vector of `n = a + b` entries whose entry `k` is the
  first part's entry `k` for `k < a` and the second part's entry `k - a` otherwise. A vector of `R` entries stood up
  as a column `[R, 1]` reads, at `(r, 0)`, the vector's entry `r`. An edge list of `E` node numbers followed by the
  positions `0, 1, …, N-1` (one loop per node) is therefore a column whose first `E` entries are the edge list's and
  whose entry `E + j`, read as a signed 32-bit integer, is `j` — for fewer than `2^31` nodes. Lengths are free and
  positions are given by their values, so that the statements apply to arrays of literal extents.
-/
import Idealize.ShloMosaic.Lib.Pipeline.Value
import Idealize.ShloMosaic.Lib.ValueIdx

noncomputable section

namespace Cert.LibVecJoin

open Idealize.ShloMosaic Idealize.ShloMosaic.ValueIdx

variable {α : Type}

/-- Two vectors end to end: an entry of the first part. -/
theorem cat_vec_left {a b n : ℕ} (x : (⟨1, ![a]⟩ : Shape).Idx → α) (y : (⟨1, ![b]⟩ : Shape).Idx → α)
    (h : Shape.Concatenates [⟨1, ![a]⟩, ⟨1, ![b]⟩] ⟨1, ![n]⟩ 0) (k : Fin a) (k' : Fin n) (hk : k'.val = k.val) :
    concatenate ⟨1, ![n]⟩ 0 [⟨⟨1, ![a]⟩, x⟩, ⟨⟨1, ![b]⟩, y⟩] h (ix1 k') = x (ix1 k) := by
  refine concatenate_pair_apply_left (0 : Fin 1) x y h (ix1 k') rfl (ix1 k) fun b' => ?_
  match b' with
  | ⟨0, _⟩ => exact hk.symm

/-- Two vectors end to end: an entry of the second part. -/
theorem cat_vec_right {a b n : ℕ} (x : (⟨1, ![a]⟩ : Shape).Idx → α) (y : (⟨1, ![b]⟩ : Shape).Idx → α)
    (h : Shape.Concatenates [⟨1, ![a]⟩, ⟨1, ![b]⟩] ⟨1, ![n]⟩ 0) (k : Fin b) (k' : Fin n) (hk : k'.val = a + k.val) :
    concatenate ⟨1, ![n]⟩ 0 [⟨⟨1, ![a]⟩, x⟩, ⟨⟨1, ![b]⟩, y⟩] h (ix1 k') = y (ix1 k) := by
  refine concatenate_pair_apply_right (0 : Fin 1) x y h (ix1 k') rfl rfl (ix1 k) (fun b' hb => ?_) ?_
  · match b' with
    | ⟨0, _⟩ => exact absurd rfl hb
  · show k.val + a = k'.val
    omega

/-- A vector stood up as a column reads, at `(r, 0)`, its entry `r`. -/
theorem column_apply {R : ℕ} (h : (⟨1, ![R]⟩ : Shape).BroadcastsInDim ⟨2, ![R, 1]⟩ ![0])
    (v : (⟨1, ![R]⟩ : Shape).Idx → α) (r : Fin R) :
    broadcastInDim ⟨2, ![R, 1]⟩ ![0] h v (ix2 r 0) = v (ix1 r) := by
  unfold broadcastInDim
  refine congrArg v (funext fun a => ?_)
  match a with
  | ⟨0, _⟩ =>
    refine Fin.ext ?_
    split
    · rename_i h1
      have hR : R = 1 := h1
      have := r.isLt
      show 0 = r.val
      omega
    · rfl

/-- A position below `2^31`, written as a 32-bit word and read signed, is itself. -/
theorem toInt_ofNat_small (j : ℕ) (hj : j < 2 ^ 31) : (BitVec.ofNat 32 j).toInt = (j : Int) := by
  rw [BitVec.toInt_eq_toNat_cond, BitVec.toNat_ofNat]
  have hm : j % 2 ^ 32 = j := Nat.mod_eq_of_lt (by omega)
  rw [hm, if_pos (by omega)]

/-- THE EDGE COLUMN WITH ITS LOOPS, first part: an entry of the column at a position `r` below `E` is the edge list's
    entry at that position. The joined length `R` is free; the position is given by its value. -/
theorem loops_column_edge {E N R : ℕ} (col : IVec ⟨1, ![E]⟩ 32)
    (hc : Shape.Concatenates [⟨1, ![E]⟩, ⟨1, ![N]⟩] ⟨1, ![R]⟩ 0)
    (hb : (⟨1, ![R]⟩ : Shape).BroadcastsInDim ⟨2, ![R, 1]⟩ ![0]) (e : Fin E) (r : Fin R) (hr : r.val = e.val) :
    broadcastInDim ⟨2, ![R, 1]⟩ ![0] hb
        (concatenate ⟨1, ![R]⟩ 0 [⟨⟨1, ![E]⟩, col⟩, ⟨⟨1, ![N]⟩, iotaInDim ⟨1, ![N]⟩ 32 0⟩] hc)
        (ix2 r 0)
      = col (ix1 e) := by
  rw [column_apply, cat_vec_left col _ hc e r hr]

/-- THE EDGE COLUMN WITH ITS LOOPS, second part: the entry of the column at position `E + j`, read signed, is `j`. -/
theorem loops_column_loop {E N R : ℕ} (hN : N ≤ 2 ^ 31) (col : IVec ⟨1, ![E]⟩ 32)
    (hc : Shape.Concatenates [⟨1, ![E]⟩, ⟨1, ![N]⟩] ⟨1, ![R]⟩ 0)
    (hb : (⟨1, ![R]⟩ : Shape).BroadcastsInDim ⟨2, ![R, 1]⟩ ![0]) (j : Fin N) (r : Fin R) (hr : r.val = E + j.val) :
    (broadcastInDim ⟨2, ![R, 1]⟩ ![0] hb
        (concatenate ⟨1, ![R]⟩ 0 [⟨⟨1, ![E]⟩, col⟩, ⟨⟨1, ![N]⟩, iotaInDim ⟨1, ![N]⟩ 32 0⟩] hc)
        (ix2 r 0)).toInt
      = (j.val : Int) := by
  rw [column_apply, cat_vec_right col _ hc j r hr]
  show (BitVec.ofNat 32 j.val).toInt = _
  exact toInt_ofNat_small j.val (lt_of_lt_of_le j.isLt hN)

end Cert.LibVecJoin

end
-- ==== Proof.BlockWeights.lean ====
/-
  A block-diagonal matrix and a repeated vector, built by writing one block several times, read at an index.

  Writing a `[16, 20]` block `u` into a `[128, 256]` matrix `x` at row `a` and column `b` (a set-scatter with one
  start index `(a, b)`) leaves `x` outside the rectangle of rows `a … a + 15` and columns `b … b + 19` and puts
  `u (j - a, q - b)` at `(j, q)` inside it: an update position `(r, c)` lands at `(a + r, b + c)`, so exactly one position lands at
  each element of the rectangle and none elsewhere. The same holds for a `[20]` vector written into a `[256]` vector at
  offset `a`. Eight such writes of one block, the `c`-th at row `16 c` and column `20 c`, make the block-diagonal matrix
  whose element at row `16 i' + k` and column `20 i + h` is `u (k, h)` when `i' = i` and the starting matrix's element
  otherwise (the rectangles are disjoint, so that no write disturbs another's); eight writes of one vector at offsets
  `20 c` make the vector repeated eight times, whose entry `20 i + h` is `v h`.
  The dimension numbers are taken as hypotheses on an arbitrary record, and the element type is free.
-/
import proofs.«140300_j64630667870273_2_alg».proof.Proof.LibScatterSet
import proofs.«140300_j64630667870273_2_alg».proof.Proof.LibVecJoin
import Idealize.ShloMosaic.Lib.IdealHost

noncomputable section

namespace Cert.BlockWeights

open Idealize.ShloMosaic Idealize.ShloMosaic.ValueIdx Cert.LibScatterSet Cert.LibVecJoin

variable {α : Type}

/-! ## Where the window starts and which window coordinate an update has, for the two records -/

/-- Matrix record: the window's start on the row axis is the first start word, read signed. -/
theorem mat_start0 (wf : ScatterDims.WF ⟨2, ![128, 256]⟩ ⟨1, ![2]⟩ ⟨2, ![16, 20]⟩ [0, 1] [] [0, 1] 0)
    (j : (⟨2, ![16, 20]⟩ : Shape).Idx) (idx : IVec ⟨1, ![2]⟩ 32) :
    (ScatterDims.mk [0, 1] [] [0, 1] 0 wf : ScatterDims ⟨2, ![128, 256]⟩ ⟨1, ![2]⟩ ⟨2, ![16, 20]⟩).start j idx 0
      = (idx (ix1 0)).toInt := by
  unfold ScatterDims.start
  rw [dif_pos (show (0 : Fin 2) ∈ ([0, 1] : List (Fin 2)) by decide)]
  refine congrArg (fun k => (idx k).toInt) (funext fun b => ?_)
  match b with
  | ⟨0, _⟩ => rfl

/-- Matrix record: the window's start on the column axis is the second start word, read signed. -/
theorem mat_start1 (wf : ScatterDims.WF ⟨2, ![128, 256]⟩ ⟨1, ![2]⟩ ⟨2, ![16, 20]⟩ [0, 1] [] [0, 1] 0)
    (j : (⟨2, ![16, 20]⟩ : Shape).Idx) (idx : IVec ⟨1, ![2]⟩ 32) :
    (ScatterDims.mk [0, 1] [] [0, 1] 0 wf : ScatterDims ⟨2, ![128, 256]⟩ ⟨1, ![2]⟩ ⟨2, ![16, 20]⟩).start j idx 1
      = (idx (ix1 1)).toInt := by
  unfold ScatterDims.start
  rw [dif_pos (show (1 : Fin 2) ∈ ([0, 1] : List (Fin 2)) by decide)]
  refine congrArg (fun k => (idx k).toInt) (funext fun b => ?_)
  match b with
  | ⟨0, _⟩ => rfl

/-- Matrix record: an update's window coordinate on the row axis is its row. -/
theorem mat_window0 (wf : ScatterDims.WF ⟨2, ![128, 256]⟩ ⟨1, ![2]⟩ ⟨2, ![16, 20]⟩ [0, 1] [] [0, 1] 0)
    (j : (⟨2, ![16, 20]⟩ : Shape).Idx) :
    (ScatterDims.mk [0, 1] [] [0, 1] 0 wf : ScatterDims ⟨2, ![128, 256]⟩ ⟨1, ![2]⟩ ⟨2, ![16, 20]⟩).window j 0
      = (j 0).val := by
  unfold ScatterDims.window
  rw [dif_pos (show (0 : Fin 2) ∈ (⟨2, ![128, 256]⟩ : Shape).kept [] by decide)]
  rfl

/-- Matrix record: an update's window coordinate on the column axis is its column. -/
theorem mat_window1 (wf : ScatterDims.WF ⟨2, ![128, 256]⟩ ⟨1, ![2]⟩ ⟨2, ![16, 20]⟩ [0, 1] [] [0, 1] 0)
    (j : (⟨2, ![16, 20]⟩ : Shape).Idx) :
    (ScatterDims.mk [0, 1] [] [0, 1] 0 wf : ScatterDims ⟨2, ![128, 256]⟩ ⟨1, ![2]⟩ ⟨2, ![16, 20]⟩).window j 1
      = (j 1).val := by
  unfold ScatterDims.window
  rw [dif_pos (show (1 : Fin 2) ∈ (⟨2, ![128, 256]⟩ : Shape).kept [] by decide)]
  rfl

/-- Vector record: the window's start is the one start word, read signed. -/
theorem vec_start0 (wf : ScatterDims.WF ⟨1, ![256]⟩ ⟨1, ![1]⟩ ⟨1, ![20]⟩ [0] [] [0] 0)
    (j : (⟨1, ![20]⟩ : Shape).Idx) (idx : IVec ⟨1, ![1]⟩ 32) :
    (ScatterDims.mk [0] [] [0] 0 wf : ScatterDims ⟨1, ![256]⟩ ⟨1, ![1]⟩ ⟨1, ![20]⟩).start j idx 0
      = (idx (ix1 0)).toInt := by
  unfold ScatterDims.start
  rw [dif_pos (show (0 : Fin 1) ∈ ([0] : List (Fin 1)) by decide)]
  refine congrArg (fun k => (idx k).toInt) (funext fun b => ?_)
  match b with
  | ⟨0, _⟩ => rfl

/-- Vector record: an update's window coordinate is its position. -/
theorem vec_window0 (wf : ScatterDims.WF ⟨1, ![256]⟩ ⟨1, ![1]⟩ ⟨1, ![20]⟩ [0] [] [0] 0)
    (j : (⟨1, ![20]⟩ : Shape).Idx) :
    (ScatterDims.mk [0] [] [0] 0 wf : ScatterDims ⟨1, ![256]⟩ ⟨1, ![1]⟩ ⟨1, ![20]⟩).window j 0 = (j 0).val := by
  unfold ScatterDims.window
  rw [dif_pos (show (0 : Fin 1) ∈ (⟨1, ![256]⟩ : Shape).kept [] by decide)]
  rfl

/-! ## One write, for any start words whose signed readings are known -/

/-- Matrix: update position `j'` lands at `i` exactly when `i` is `(a + row of j', b + column of j')`. -/
theorem mat_resultIdx?_iff (d : ScatterDims ⟨2, ![128, 256]⟩ ⟨1, ![2]⟩ ⟨2, ![16, 20]⟩)
    (h1 : d.updateWindowDims = [0, 1]) (h2 : d.insertedWindowDims = []) (h3 : d.scatterDimsToOperandDims = [0, 1])
    (h4 : d.indexVectorDim = 0)
    (idx : IVec ⟨1, ![2]⟩ 32) (a b : ℕ) (ha : (idx (ix1 0)).toInt = (a : Int)) (hb' : (idx (ix1 1)).toInt = (b : Int))
    (j' : (⟨2, ![16, 20]⟩ : Shape).Idx) (i : (⟨2, ![128, 256]⟩ : Shape).Idx) :
    d.resultIdx? j' idx = some i ↔ a + (j' 0).val = (i 0).val ∧ b + (j' 1).val = (i 1).val := by
  obtain ⟨a1, a2, a3, a4, wf⟩ := d
  dsimp only at h1 h2 h3 h4
  subst h1 h2 h3 h4
  constructor
  · intro h
    have e0 := eq_of_resultIdx?_eq_some _ j' idx i h 0
    have e1 := eq_of_resultIdx?_eq_some _ j' idx i h 1
    rw [mat_start0 wf j' idx, mat_window0 wf j', ha] at e0
    rw [mat_start1 wf j' idx, mat_window1 wf j', hb'] at e1
    exact ⟨by exact_mod_cast e0, by exact_mod_cast e1⟩
  · rintro ⟨e0, e1⟩
    refine resultIdx?_eq_some _ j' idx i fun c => ?_
    match c with
    | ⟨0, _⟩ =>
      refine ((congrArg₂ (· + ·) ((mat_start0 wf j' idx).trans ha) (congrArg Nat.cast (mat_window0 wf j'))).trans ?_)
      exact_mod_cast e0
    | ⟨1, _⟩ =>
      refine ((congrArg₂ (· + ·) ((mat_start1 wf j' idx).trans hb') (congrArg Nat.cast (mat_window1 wf j'))).trans ?_)
      exact_mod_cast e1

/-- ONE WRITE OF A BLOCK, for start words read as `a` and `b`: inside the rectangle the block's element, outside it the
    matrix's own. -/
theorem scatter_mat_core (d : ScatterDims ⟨2, ![128, 256]⟩ ⟨1, ![2]⟩ ⟨2, ![16, 20]⟩)
    (h1 : d.updateWindowDims = [0, 1]) (h2 : d.insertedWindowDims = []) (h3 : d.scatterDimsToOperandDims = [0, 1])
    (h4 : d.indexVectorDim = 0)
    (x : (⟨2, ![128, 256]⟩ : Shape).Idx → α) (idx : IVec ⟨1, ![2]⟩ 32) (u : (⟨2, ![16, 20]⟩ : Shape).Idx → α) (a b : ℕ)
    (ha : (idx (ix1 0)).toInt = (a : Int)) (hb' : (idx (ix1 1)).toInt = (b : Int)) (j : Fin 128) (q : Fin 256) :
    Host.scatter d (fun _ v => v) x idx u (ix2 j q)
      = if h : a ≤ j.val ∧ j.val < a + 16 ∧ b ≤ q.val ∧ q.val < b + 20 then
          u (ix2 ⟨j.val - a, by omega⟩ ⟨q.val - b, by omega⟩)
        else x (ix2 j q) := by
  have hres := mat_resultIdx?_iff d h1 h2 h3 h4 idx a b ha hb'
  by_cases hcond : a ≤ j.val ∧ j.val < a + 16 ∧ b ≤ q.val ∧ q.val < b + 20
  · rw [dif_pos hcond]
    refine scatter_set_hit d x idx u (ix2 j q) (ix2 ⟨j.val - a, by omega⟩ ⟨q.val - b, by omega⟩) ((hres _ _).2 ⟨?_, ?_⟩)
      fun j' hj' => ?_
    · show a + (j.val - a) = j.val
      omega
    · show b + (q.val - b) = q.val
      omega
    · obtain ⟨e0, e1⟩ := (hres _ _).1 hj'
      have e0' : a + (j' 0).val = j.val := e0
      have e1' : b + (j' 1).val = q.val := e1
      funext c
      match c with
      | ⟨0, _⟩ => exact Fin.ext (show (j' 0).val = j.val - a by omega)
      | ⟨1, _⟩ => exact Fin.ext (show (j' 1).val = q.val - b by omega)
  · rw [dif_neg hcond]
    refine scatter_set_miss d x idx u (ix2 j q) fun j' hj' => hcond ?_
    obtain ⟨e0, e1⟩ := (hres _ _).1 hj'
    have e0' : a + (j' 0).val = j.val := e0
    have e1' : b + (j' 1).val = q.val := e1
    have l0 := idx2_lt0 j'
    have l1 := idx2_lt1 j'
    omega

/-- Vector: update position `j'` lands at `i` exactly when `i` is `a + j'`. -/
theorem vec_resultIdx?_iff (d1 : ScatterDims ⟨1, ![256]⟩ ⟨1, ![1]⟩ ⟨1, ![20]⟩)
    (g1 : d1.updateWindowDims = [0]) (g2 : d1.insertedWindowDims = []) (g3 : d1.scatterDimsToOperandDims = [0])
    (g4 : d1.indexVectorDim = 0)
    (idx : IVec ⟨1, ![1]⟩ 32) (a : ℕ) (ha : (idx (ix1 0)).toInt = (a : Int))
    (j' : (⟨1, ![20]⟩ : Shape).Idx) (i : (⟨1, ![256]⟩ : Shape).Idx) :
    d1.resultIdx? j' idx = some i ↔ a + (j' 0).val = (i 0).val := by
  obtain ⟨a1, a2, a3, a4, wf⟩ := d1
  dsimp only at g1 g2 g3 g4
  subst g1 g2 g3 g4
  constructor
  · intro h
    have e0 := eq_of_resultIdx?_eq_some _ j' idx i h 0
    rw [vec_start0 wf j' idx, vec_window0 wf j', ha] at e0
    exact_mod_cast e0
  · intro e0
    refine resultIdx?_eq_some _ j' idx i fun c => ?_
    match c with
    | ⟨0, _⟩ =>
      refine ((congrArg₂ (· + ·) ((vec_start0 wf j' idx).trans ha) (congrArg Nat.cast (vec_window0 wf j'))).trans ?_)
      exact_mod_cast e0

/-- ONE WRITE OF A VECTOR, for a start word read as `a`: inside the interval the written vector's entry, outside it the
    vector's own. -/
theorem scatter_vec_core (d1 : ScatterDims ⟨1, ![256]⟩ ⟨1, ![1]⟩ ⟨1, ![20]⟩)
    (g1 : d1.updateWindowDims = [0]) (g2 : d1.insertedWindowDims = []) (g3 : d1.scatterDimsToOperandDims = [0])
    (g4 : d1.indexVectorDim = 0)
    (x : (⟨1, ![256]⟩ : Shape).Idx → α) (idx : IVec ⟨1, ![1]⟩ 32) (v : (⟨1, ![20]⟩ : Shape).Idx → α) (a : ℕ)
    (ha : (idx (ix1 0)).toInt = (a : Int)) (q : Fin 256) :
    Host.scatter d1 (fun _ v => v) x idx v (ix1 q)
      = if h : a ≤ q.val ∧ q.val < a + 20 then v (ix1 ⟨q.val - a, by omega⟩) else x (ix1 q) := by
  have hres := vec_resultIdx?_iff d1 g1 g2 g3 g4 idx a ha
  by_cases hcond : a ≤ q.val ∧ q.val < a + 20
  · rw [dif_pos hcond]
    refine scatter_set_hit d1 x idx v (ix1 q) (ix1 ⟨q.val - a, by omega⟩) ((hres _ _).2 ?_) fun j' hj' => ?_
    · show a + (q.val - a) = q.val
      omega
    · have e0 : a + (j' 0).val = q.val := (hres _ _).1 hj'
      funext c
      match c with
      | ⟨0, _⟩ => exact Fin.ext (show (j' 0).val = q.val - a by omega)
  · rw [dif_neg hcond]
    refine scatter_set_miss d1 x idx v (ix1 q) fun j' hj' => hcond ?_
    have e0 : a + (j' 0).val = q.val := (hres _ _).1 hj'
    have l0 : (j' 0).val < 20 := (j' 0).isLt
    omega

/-! ## The start words as the program writes them -/

/-- A word repeated into a one-entry vector reads the word. -/
theorem splat1_apply (hb : (⟨0, ![]⟩ : Shape).BroadcastsInDim ⟨1, ![1]⟩ ![]) (A : BitVec 32) :
    broadcastInDim ⟨1, ![1]⟩ ![] hb (constantI ⟨0, ![]⟩ 32 A) (ix1 0) = A :=
  broadcastInDim_scalar_apply hb _ _

/-- Two one-entry vectors end to end: the first entry is the first word. -/
theorem startVec_apply0 (hb : (⟨0, ![]⟩ : Shape).BroadcastsInDim ⟨1, ![1]⟩ ![]) (hc : Shape.Concatenates [⟨1, ![1]⟩, ⟨1, ![1]⟩] ⟨1, ![2]⟩ 0) (A B : BitVec 32) :
    (concatenate ⟨1, ![2]⟩ 0 [⟨⟨1, ![1]⟩, broadcastInDim ⟨1, ![1]⟩ ![] hb (constantI ⟨0, ![]⟩ 32 A)⟩, ⟨⟨1, ![1]⟩, broadcastInDim ⟨1, ![1]⟩ ![] hb (constantI ⟨0, ![]⟩ 32 B)⟩] hc) (ix1 0) = A :=
  (cat_vec_left _ _ hc (0 : Fin 1) (0 : Fin 2) rfl).trans (splat1_apply hb A)

/-- Two one-entry vectors end to end: the second entry is the second word. -/
theorem startVec_apply1 (hb : (⟨0, ![]⟩ : Shape).BroadcastsInDim ⟨1, ![1]⟩ ![]) (hc : Shape.Concatenates [⟨1, ![1]⟩, ⟨1, ![1]⟩] ⟨1, ![2]⟩ 0) (A B : BitVec 32) :
    (concatenate ⟨1, ![2]⟩ 0 [⟨⟨1, ![1]⟩, broadcastInDim ⟨1, ![1]⟩ ![] hb (constantI ⟨0, ![]⟩ 32 A)⟩, ⟨⟨1, ![1]⟩, broadcastInDim ⟨1, ![1]⟩ ![] hb (constantI ⟨0, ![]⟩ 32 B)⟩] hc) (ix1 1) = B :=
  (cat_vec_right _ _ hc (0 : Fin 1) (1 : Fin 2) rfl).trans (splat1_apply hb B)

/-! ## One write at a literal offset -/

/-- (1) ONE WRITE OF A BLOCK at row `a`, column `b` (the rectangle inside the matrix). -/
theorem scatter_mat_step (d : ScatterDims ⟨2, ![128, 256]⟩ ⟨1, ![2]⟩ ⟨2, ![16, 20]⟩)
    (h1 : d.updateWindowDims = [0, 1]) (h2 : d.insertedWindowDims = []) (h3 : d.scatterDimsToOperandDims = [0, 1])
    (h4 : d.indexVectorDim = 0)
    (hb : (⟨0, ![]⟩ : Shape).BroadcastsInDim ⟨1, ![1]⟩ ![]) (hc : Shape.Concatenates [⟨1, ![1]⟩, ⟨1, ![1]⟩] ⟨1, ![2]⟩ 0)
    (x : (⟨2, ![128, 256]⟩ : Shape).Idx → α) (u : (⟨2, ![16, 20]⟩ : Shape).Idx → α) (a b : ℕ) (ha : a + 16 ≤ 128) (hb' : b + 20 ≤ 256)
    (j : Fin 128) (q : Fin 256) :
    Host.scatter d (fun _ v => v) x
        (concatenate ⟨1, ![2]⟩ 0 [⟨⟨1, ![1]⟩, broadcastInDim ⟨1, ![1]⟩ ![] hb (constantI ⟨0, ![]⟩ 32 (BitVec.ofNat 32 a))⟩, ⟨⟨1, ![1]⟩, broadcastInDim ⟨1, ![1]⟩ ![] hb (constantI ⟨0, ![]⟩ 32 (BitVec.ofNat 32 b))⟩] hc) u (ix2 j q)
      = if h : a ≤ j.val ∧ j.val < a + 16 ∧ b ≤ q.val ∧ q.val < b + 20 then
          u (ix2 ⟨j.val - a, by omega⟩ ⟨q.val - b, by omega⟩)
        else x (ix2 j q) :=
  scatter_mat_core d h1 h2 h3 h4 x _ u a b
    ((congrArg BitVec.toInt (startVec_apply0 hb hc _ _)).trans (toInt_ofNat_small a (by omega)))
    ((congrArg BitVec.toInt (startVec_apply1 hb hc _ _)).trans (toInt_ofNat_small b (by omega))) j q

/-- (2) ONE WRITE OF A VECTOR at offset `a` (the interval inside the vector). -/
theorem scatter_vec_step (d1 : ScatterDims ⟨1, ![256]⟩ ⟨1, ![1]⟩ ⟨1, ![20]⟩)
    (g1 : d1.updateWindowDims = [0]) (g2 : d1.insertedWindowDims = []) (g3 : d1.scatterDimsToOperandDims = [0])
    (g4 : d1.indexVectorDim = 0)
    (hb : (⟨0, ![]⟩ : Shape).BroadcastsInDim ⟨1, ![1]⟩ ![])
    (x : (⟨1, ![256]⟩ : Shape).Idx → α) (v : (⟨1, ![20]⟩ : Shape).Idx → α) (a : ℕ) (ha : a + 20 ≤ 256) (q : Fin 256) :
    Host.scatter d1 (fun _ v => v) x (broadcastInDim ⟨1, ![1]⟩ ![] hb (constantI ⟨0, ![]⟩ 32 (BitVec.ofNat 32 a))) v (ix1 q)
      = if h : a ≤ q.val ∧ q.val < a + 20 then v (ix1 ⟨q.val - a, by omega⟩) else x (ix1 q) :=
  scatter_vec_core d1 g1 g2 g3 g4 x _ v a
    ((congrArg BitVec.toInt (splat1_apply hb _)).trans (toInt_ofNat_small a (by omega))) q

/-! ## One write of block `c`, read at a block position -/

/-- The write at row `A = 16 c`, column `B = 20 c`, read at row `16 i' + k`, column `20 i + h`: the block's element
    `(k, h)` when both `i'` and `i` are `c`, the matrix's own element otherwise. -/
theorem scatter_mat_block (d : ScatterDims ⟨2, ![128, 256]⟩ ⟨1, ![2]⟩ ⟨2, ![16, 20]⟩)
    (h1 : d.updateWindowDims = [0, 1]) (h2 : d.insertedWindowDims = []) (h3 : d.scatterDimsToOperandDims = [0, 1])
    (h4 : d.indexVectorDim = 0)
    (hb : (⟨0, ![]⟩ : Shape).BroadcastsInDim ⟨1, ![1]⟩ ![]) (hc : Shape.Concatenates [⟨1, ![1]⟩, ⟨1, ![1]⟩] ⟨1, ![2]⟩ 0)
    (x : (⟨2, ![128, 256]⟩ : Shape).Idx → α) (u : (⟨2, ![16, 20]⟩ : Shape).Idx → α) (A B c : ℕ) (hA : A = 16 * c) (hB : B = 20 * c) (hc8 : c < 8)
    (i' i : Fin 8) (k : Fin 16) (h : Fin 20) :
    Host.scatter d (fun _ v => v) x
        (concatenate ⟨1, ![2]⟩ 0 [⟨⟨1, ![1]⟩, broadcastInDim ⟨1, ![1]⟩ ![] hb (constantI ⟨0, ![]⟩ 32 (BitVec.ofNat 32 A))⟩, ⟨⟨1, ![1]⟩, broadcastInDim ⟨1, ![1]⟩ ![] hb (constantI ⟨0, ![]⟩ 32 (BitVec.ofNat 32 B))⟩] hc) u
        (ix2 (⟨16 * i'.val + k.val, by omega⟩ : Fin 128) (⟨20 * i.val + h.val, by omega⟩ : Fin 256))
      = if i'.val = c ∧ i.val = c then u (ix2 k h)
        else x (ix2 (⟨16 * i'.val + k.val, by omega⟩ : Fin 128) (⟨20 * i.val + h.val, by omega⟩ : Fin 256)) := by
  subst hA hB
  refine (scatter_mat_step d h1 h2 h3 h4 hb hc x u (16 * c) (20 * c) (by omega) (by omega) _ _).trans ?_
  have hi' := i'.isLt
  have hi := i.isLt
  have hk := k.isLt
  have hh := h.isLt
  by_cases hcond : i'.val = c ∧ i.val = c
  · rw [if_pos hcond, dif_pos (by show 16 * c ≤ 16 * i'.val + k.val ∧ 16 * i'.val + k.val < 16 * c + 16 ∧ 20 * c ≤ 20 * i.val + h.val ∧ 20 * i.val + h.val < 20 * c + 20; omega)]
    refine congrArg u ?_
    funext e
    match e with
    | ⟨0, _⟩ => exact Fin.ext (show 16 * i'.val + k.val - 16 * c = k.val by omega)
    | ⟨1, _⟩ => exact Fin.ext (show 20 * i.val + h.val - 20 * c = h.val by omega)
  · rw [if_neg hcond, dif_neg (by show ¬ (16 * c ≤ 16 * i'.val + k.val ∧ 16 * i'.val + k.val < 16 * c + 16 ∧ 20 * c ≤ 20 * i.val + h.val ∧ 20 * i.val + h.val < 20 * c + 20); omega)]

/-- The write at offset `A = 20 c`, read at position `20 i + h`: the written vector's entry `h` when `i` is `c`, the
    vector's own entry otherwise. -/
theorem scatter_vec_block (d1 : ScatterDims ⟨1, ![256]⟩ ⟨1, ![1]⟩ ⟨1, ![20]⟩)
    (g1 : d1.updateWindowDims = [0]) (g2 : d1.insertedWindowDims = []) (g3 : d1.scatterDimsToOperandDims = [0])
    (g4 : d1.indexVectorDim = 0)
    (hb : (⟨0, ![]⟩ : Shape).BroadcastsInDim ⟨1, ![1]⟩ ![])
    (x : (⟨1, ![256]⟩ : Shape).Idx → α) (v : (⟨1, ![20]⟩ : Shape).Idx → α) (A c : ℕ) (hA : A = 20 * c) (hc8 : c < 8)
    (i : Fin 8) (h : Fin 20) :
    Host.scatter d1 (fun _ v => v) x (broadcastInDim ⟨1, ![1]⟩ ![] hb (constantI ⟨0, ![]⟩ 32 (BitVec.ofNat 32 A))) v
        (ix1 (⟨20 * i.val + h.val, by omega⟩ : Fin 256))
      = if i.val = c then v (ix1 h) else x (ix1 (⟨20 * i.val + h.val, by omega⟩ : Fin 256)) := by
  subst hA
  refine (scatter_vec_step d1 g1 g2 g3 g4 hb x v (20 * c) (by omega) _).trans ?_
  have hi := i.isLt
  have hh := h.isLt
  by_cases hcond : i.val = c
  · rw [if_pos hcond, dif_pos (by show 20 * c ≤ 20 * i.val + h.val ∧ 20 * i.val + h.val < 20 * c + 20; omega)]
    refine congrArg v ?_
    funext e
    match e with
    | ⟨0, _⟩ => exact Fin.ext (show 20 * i.val + h.val - 20 * c = h.val by omega)
  · rw [if_neg hcond, dif_neg (by show ¬ (20 * c ≤ 20 * i.val + h.val ∧ 20 * i.val + h.val < 20 * c + 20); omega)]

/-! ## The eight writes -/

/-- THE BLOCK-DIAGONAL MATRIX: block `u` written eight times into `x0`, the `c`-th time at row `16 c`, column `20 c`,
    in the order `c = 0, …, 7` (the first write innermost). -/
def blockDiag (d : ScatterDims ⟨2, ![128, 256]⟩ ⟨1, ![2]⟩ ⟨2, ![16, 20]⟩) (hb : (⟨0, ![]⟩ : Shape).BroadcastsInDim ⟨1, ![1]⟩ ![])
    (hc : Shape.Concatenates [⟨1, ![1]⟩, ⟨1, ![1]⟩] ⟨1, ![2]⟩ 0)
    (x0 : (⟨2, ![128, 256]⟩ : Shape).Idx → α) (u : (⟨2, ![16, 20]⟩ : Shape).Idx → α) : (⟨2, ![128, 256]⟩ : Shape).Idx → α :=
  Host.scatter d (fun _ b => b)
    (Host.scatter d (fun _ b => b)
    (Host.scatter d (fun _ b => b)
    (Host.scatter d (fun _ b => b)
    (Host.scatter d (fun _ b => b)
    (Host.scatter d (fun _ b => b)
    (Host.scatter d (fun _ b => b)
    (Host.scatter d (fun _ b => b)
    (x0)
    (concatenate ⟨1, ![2]⟩ 0 [⟨⟨1, ![1]⟩, broadcastInDim ⟨1, ![1]⟩ ![] hb (constantI ⟨0, ![]⟩ 32 0#32)⟩, ⟨⟨1, ![1]⟩, broadcastInDim ⟨1, ![1]⟩ ![] hb (constantI ⟨0, ![]⟩ 32 0#32)⟩] hc) u)
    (concatenate ⟨1, ![2]⟩ 0 [⟨⟨1, ![1]⟩, broadcastInDim ⟨1, ![1]⟩ ![] hb (constantI ⟨0, ![]⟩ 32 16#32)⟩, ⟨⟨1, ![1]⟩, broadcastInDim ⟨1, ![1]⟩ ![] hb (constantI ⟨0, ![]⟩ 32 20#32)⟩] hc) u)
    (concatenate ⟨1, ![2]⟩ 0 [⟨⟨1, ![1]⟩, broadcastInDim ⟨1, ![1]⟩ ![] hb (constantI ⟨0, ![]⟩ 32 32#32)⟩, ⟨⟨1, ![1]⟩, broadcastInDim ⟨1, ![1]⟩ ![] hb (constantI ⟨0, ![]⟩ 32 40#32)⟩] hc) u)
    (concatenate ⟨1, ![2]⟩ 0 [⟨⟨1, ![1]⟩, broadcastInDim ⟨1, ![1]⟩ ![] hb (constantI ⟨0, ![]⟩ 32 48#32)⟩, ⟨⟨1, ![1]⟩, broadcastInDim ⟨1, ![1]⟩ ![] hb (constantI ⟨0, ![]⟩ 32 60#32)⟩] hc) u)
    (concatenate ⟨1, ![2]⟩ 0 [⟨⟨1, ![1]⟩, broadcastInDim ⟨1, ![1]⟩ ![] hb (constantI ⟨0, ![]⟩ 32 64#32)⟩, ⟨⟨1, ![1]⟩, broadcastInDim ⟨1, ![1]⟩ ![] hb (constantI ⟨0, ![]⟩ 32 80#32)⟩] hc) u)
    (concatenate ⟨1, ![2]⟩ 0 [⟨⟨1, ![1]⟩, broadcastInDim ⟨1, ![1]⟩ ![] hb (constantI ⟨0, ![]⟩ 32 80#32)⟩, ⟨⟨1, ![1]⟩, broadcastInDim ⟨1, ![1]⟩ ![] hb (constantI ⟨0, ![]⟩ 32 100#32)⟩] hc) u)
    (concatenate ⟨1, ![2]⟩ 0 [⟨⟨1, ![1]⟩, broadcastInDim ⟨1, ![1]⟩ ![] hb (constantI ⟨0, ![]⟩ 32 96#32)⟩, ⟨⟨1, ![1]⟩, broadcastInDim ⟨1, ![1]⟩ ![] hb (constantI ⟨0, ![]⟩ 32 120#32)⟩] hc) u)
    (concatenate ⟨1, ![2]⟩ 0 [⟨⟨1, ![1]⟩, broadcastInDim ⟨1, ![1]⟩ ![] hb (constantI ⟨0, ![]⟩ 32 112#32)⟩, ⟨⟨1, ![1]⟩, broadcastInDim ⟨1, ![1]⟩ ![] hb (constantI ⟨0, ![]⟩ 32 140#32)⟩] hc) u

/-- THE REPEATED VECTOR: vector `v` written eight times into `x0`, the `c`-th time at offset `20 c`, in the order
    `c = 0, …, 7` (the first write innermost). -/
def repBias (d1 : ScatterDims ⟨1, ![256]⟩ ⟨1, ![1]⟩ ⟨1, ![20]⟩) (hb : (⟨0, ![]⟩ : Shape).BroadcastsInDim ⟨1, ![1]⟩ ![])
    (x0 : (⟨1, ![256]⟩ : Shape).Idx → α) (v : (⟨1, ![20]⟩ : Shape).Idx → α) : (⟨1, ![256]⟩ : Shape).Idx → α :=
  Host.scatter d1 (fun _ b => b)
    (Host.scatter d1 (fun _ b => b)
    (Host.scatter d1 (fun _ b => b)
    (Host.scatter d1 (fun _ b => b)
    (Host.scatter d1 (fun _ b => b)
    (Host.scatter d1 (fun _ b => b)
    (Host.scatter d1 (fun _ b => b)
    (Host.scatter d1 (fun _ b => b)
    (x0)
    (broadcastInDim ⟨1, ![1]⟩ ![] hb (constantI ⟨0, ![]⟩ 32 0#32)) v)
    (broadcastInDim ⟨1, ![1]⟩ ![] hb (constantI ⟨0, ![]⟩ 32 20#32)) v)
    (broadcastInDim ⟨1, ![1]⟩ ![] hb (constantI ⟨0, ![]⟩ 32 40#32)) v)
    (broadcastInDim ⟨1, ![1]⟩ ![] hb (constantI ⟨0, ![]⟩ 32 60#32)) v)
    (broadcastInDim ⟨1, ![1]⟩ ![] hb (constantI ⟨0, ![]⟩ 32 80#32)) v)
    (broadcastInDim ⟨1, ![1]⟩ ![] hb (constantI ⟨0, ![]⟩ 32 100#32)) v)
    (broadcastInDim ⟨1, ![1]⟩ ![] hb (constantI ⟨0, ![]⟩ 32 120#32)) v)
    (broadcastInDim ⟨1, ![1]⟩ ![] hb (constantI ⟨0, ![]⟩ 32 140#32)) v

/-- (3) THE BLOCK-DIAGONAL MATRIX AT A BLOCK POSITION: row `16 i' + k`, column `20 i + h` holds the block's `(k, h)` on
    the diagonal (`i' = i`) and the starting matrix's element off it. -/
theorem blockDiag_apply (d : ScatterDims ⟨2, ![128, 256]⟩ ⟨1, ![2]⟩ ⟨2, ![16, 20]⟩)
    (h1 : d.updateWindowDims = [0, 1]) (h2 : d.insertedWindowDims = []) (h3 : d.scatterDimsToOperandDims = [0, 1])
    (h4 : d.indexVectorDim = 0)
    (hb : (⟨0, ![]⟩ : Shape).BroadcastsInDim ⟨1, ![1]⟩ ![]) (hc : Shape.Concatenates [⟨1, ![1]⟩, ⟨1, ![1]⟩] ⟨1, ![2]⟩ 0)
    (x0 : (⟨2, ![128, 256]⟩ : Shape).Idx → α) (u : (⟨2, ![16, 20]⟩ : Shape).Idx → α) (i' i : Fin 8) (k : Fin 16) (h : Fin 20) :
    blockDiag d hb hc x0 u
        (ix2 (⟨16 * i'.val + k.val, by omega⟩ : Fin 128) (⟨20 * i.val + h.val, by omega⟩ : Fin 256))
      = if i' = i then u (ix2 k h)
        else x0 (ix2 (⟨16 * i'.val + k.val, by omega⟩ : Fin 128) (⟨20 * i.val + h.val, by omega⟩ : Fin 256)) := by
  unfold blockDiag
  rw [scatter_mat_block d h1 h2 h3 h4 hb hc _ u 112 140 7 rfl rfl (by omega) i' i k h,
    scatter_mat_block d h1 h2 h3 h4 hb hc _ u 96 120 6 rfl rfl (by omega) i' i k h,
    scatter_mat_block d h1 h2 h3 h4 hb hc _ u 80 100 5 rfl rfl (by omega) i' i k h,
    scatter_mat_block d h1 h2 h3 h4 hb hc _ u 64 80 4 rfl rfl (by omega) i' i k h,
    scatter_mat_block d h1 h2 h3 h4 hb hc _ u 48 60 3 rfl rfl (by omega) i' i k h,
    scatter_mat_block d h1 h2 h3 h4 hb hc _ u 32 40 2 rfl rfl (by omega) i' i k h,
    scatter_mat_block d h1 h2 h3 h4 hb hc _ u 16 20 1 rfl rfl (by omega) i' i k h,
    scatter_mat_block d h1 h2 h3 h4 hb hc _ u 0 0 0 rfl rfl (by omega) i' i k h]
  have hi' := i'.isLt
  have hi := i.isLt
  by_cases e : i' = i
  · subst e
    rw [if_pos rfl]
    split_ifs <;> first | rfl | (exfalso; omega)
  · rw [if_neg e]
    have e' : i'.val ≠ i.val := fun hv => e (Fin.ext hv)
    split_ifs <;> first | rfl | (exfalso; omega)

/-- (3) THE REPEATED VECTOR AT A BLOCK POSITION: entry `20 i + h` is the written vector's entry `h`. -/
theorem repBias_apply (d1 : ScatterDims ⟨1, ![256]⟩ ⟨1, ![1]⟩ ⟨1, ![20]⟩)
    (g1 : d1.updateWindowDims = [0]) (g2 : d1.insertedWindowDims = []) (g3 : d1.scatterDimsToOperandDims = [0])
    (g4 : d1.indexVectorDim = 0)
    (hb : (⟨0, ![]⟩ : Shape).BroadcastsInDim ⟨1, ![1]⟩ ![])
    (x0 : (⟨1, ![256]⟩ : Shape).Idx → α) (v : (⟨1, ![20]⟩ : Shape).Idx → α) (i : Fin 8) (h : Fin 20) :
    repBias d1 hb x0 v (ix1 (⟨20 * i.val + h.val, by omega⟩ : Fin 256)) = v (ix1 h) := by
  unfold repBias
  rw [scatter_vec_block d1 g1 g2 g3 g4 hb _ v 140 7 rfl (by omega) i h,
    scatter_vec_block d1 g1 g2 g3 g4 hb _ v 120 6 rfl (by omega) i h,
    scatter_vec_block d1 g1 g2 g3 g4 hb _ v 100 5 rfl (by omega) i h,
    scatter_vec_block d1 g1 g2 g3 g4 hb _ v 80 4 rfl (by omega) i h,
    scatter_vec_block d1 g1 g2 g3 g4 hb _ v 60 3 rfl (by omega) i h,
    scatter_vec_block d1 g1 g2 g3 g4 hb _ v 40 2 rfl (by omega) i h,
    scatter_vec_block d1 g1 g2 g3 g4 hb _ v 20 1 rfl (by omega) i h,
    scatter_vec_block d1 g1 g2 g3 g4 hb _ v 0 0 rfl (by omega) i h]
  have hi := i.isLt
  split_ifs <;> first | rfl | (exfalso; omega)

end Cert.BlockWeights

end
-- ==== Proof.KernelFoldEdge.lean ====
/-
  What the edge product reads: the edge attributes packed eight edges to a row, the block-diagonal weight, the bias row.

  The 1600000 × 16 edge attributes are re-read row-major as 200000 rows of 128. The third 16-row slab of the weight is
  written eight times along the diagonal of a 128 × 256 zero matrix, copy i at rows 16i… and columns 20i…, and the bias
  eight times into a 256-entry zero vector, copy i at 20i…, then cast to a row. Named here as functions of the argument
  arrays, with the two 16 × 20 slabs laid side by side that the node projection reads.
-/
import proofs.«140300_j64630667870273_2_alg».proof.Proof.Gen.KernelIdeal.Frame
import proofs.«140300_j64630667870273_2_alg».proof.Proof.LibTyped
import proofs.«140300_j64630667870273_2_alg».proof.Proof.LibTypedLit
import proofs.«140300_j64630667870273_2_alg».proof.Proof.KernelFold
import proofs.«140300_j64630667870273_2_alg».proof.Proof.BlockWeights
import Idealize.ShloMosaic.Lib.StableHlo.Run

set_option maxRecDepth 16384

noncomputable section

namespace Cert.KernelIdeal.FoldEdge

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

open Cert.KernelIdeal.Fold

/-- Rows 0…15 and 16…31 of the weight, side by side: the node projection's 16 × 40 weight. -/
abbrev wcat (a4 : (⟨S48x20, .f32⟩ : BufTy).Contents (Elt F)) : (⟨S16x40, .f32⟩ : BufTy).Contents (Elt F) :=
  concatenate S16x40 1
    [⟨S16x20, extractStridedSlice S16x20 ![0, 0] a4 slices_S48x20_S16x20_0_0⟩,
     ⟨S16x20, extractStridedSlice S16x20 ![16, 0] a4 slices_S48x20_S16x20_16_0⟩]
    concatenates_S16x20_S16x20_S16x40_d1

/-- The edge attributes, eight edges to a row. -/
abbrev packed (a2 : (⟨S1600000x16, .f32⟩ : BufTy).Contents (Elt F)) : (⟨S200000x128, .f32⟩ : BufTy).Contents (Elt F) :=
  shapeCast S200000x128 a2 shapeCasts_S1600000x16_S200000x128

/-- Rows 32…47 of the weight, eight copies along the diagonal of a zero matrix. -/
abbrev wblk (a4 : (⟨S48x20, .f32⟩ : BufTy).Contents (Elt F)) : (⟨S128x256, .f32⟩ : BufTy).Contents (Elt F) :=
  Cert.BlockWeights.blockDiag scatter_S128x256_S2_S16x20_01_n_01_0 bcast_S_S1 concatenates_S1_S1_S2_d0
    (broadcastInDim S128x256 ![] bcast_S_S128x256 (constant S_ .f32 0x00000000#32))
    (extractStridedSlice S16x20 ![32, 0] a4 slices_S48x20_S16x20_32_0)

/-- The bias, eight copies in a zero vector, as a row. -/
abbrev brow (a5 : (⟨S20, .f32⟩ : BufTy).Contents (Elt F)) : (⟨S1x256, .f32⟩ : BufTy).Contents (Elt F) :=
  shapeCast S1x256
    (Cert.BlockWeights.repBias scatter_S256_S1_S20_0_n_0_0 bcast_S_S1
      (broadcastInDim S256 ![] bcast_S_S256 (constant S_ .f32 0x00000000#32)) a5)
    shapeCasts_S256_S1x256

theorem W1_v7' : W1 m ρ c (Proc.devRef .tc main_v7) = wcat (m ((c : Thread nD τ).loc main_arg4)) := W1_v7 m ρ c

theorem W3_v62 : W3 m ρ c (Proc.devRef .tc main_v62) = packed (m ((c : Thread nD τ).loc main_arg2)) := by
  have h : W3 m ρ c (Proc.devRef .tc main_v62) = packed (W2 m ρ c (Proc.devRef .tc main_arg2)) := by
    show StableHlo.after hostOps1 (W2 m ρ c) (Proc.devRef .tc main_v62) = _
    after_results_simp
    rfl
  rw [h, W2_arg2]

set_option maxHeartbeats 4000000 in
theorem W3_v43 : W3 m ρ c (Proc.devRef .tc main_v43) = wblk (m ((c : Thread nD τ).loc main_arg4)) := by
  have h : W3 m ρ c (Proc.devRef .tc main_v43)
      = Cert.BlockWeights.blockDiag scatter_S128x256_S2_S16x20_01_n_01_0 bcast_S_S1 concatenates_S1_S1_S2_d0
          (broadcastInDim S128x256 ![] bcast_S_S128x256 (constant S_ .f32 0x00000000#32)) (W2 m ρ c (Proc.devRef .tc main_v6)) := by
    show StableHlo.after hostOps1 (W2 m ρ c) (Proc.devRef .tc main_v43) = _
    after_results_simp
    rfl
  rw [h, W2_v6]

set_option maxHeartbeats 4000000 in
theorem W3_v61 : W3 m ρ c (Proc.devRef .tc main_v61) = brow (m ((c : Thread nD τ).loc main_arg5)) := by
  have h : W3 m ρ c (Proc.devRef .tc main_v61) = brow (W2 m ρ c (Proc.devRef .tc main_arg5)) := by
    show StableHlo.after hostOps1 (W2 m ρ c) (Proc.devRef .tc main_v61) = _
    after_results_simp
    rfl
  rw [h, W2_arg5]

end Cert.KernelIdeal.FoldEdge

end
-- ==== Proof.KernelFoldMsg.lean ====
/-
  The messages and their sum into the nodes, as the kernel's host operations spell them.

  After the edge product the host takes the first 160 of its 256 columns and unpacks them to one edge per row; gathers
  the two halves of the projected node table at the edges' source and destination words (a negative word has the number
  of rows added first); adds the three; rectifies; and adds each edge's row into the row of its destination node,
  starting from zeros. These are named here as functions of the arrays they read, and each buffer's contents at its
  boundary is one of them.
-/
import proofs.«140300_j64630667870273_2_alg».proof.Proof.Gen.KernelIdeal.Frame
import proofs.«140300_j64630667870273_2_alg».proof.Proof.LibTyped
import proofs.«140300_j64630667870273_2_alg».proof.Proof.LibTypedLit
import Idealize.ShloMosaic.Lib.StableHlo.Run

set_option maxRecDepth 16384

noncomputable section

namespace Cert.KernelIdeal.FoldMsg

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- A word made a non-negative row number, over a whole vector of words, laid out as a column. -/
abbrev wrapCol (X : (⟨S1600000, .i32⟩ : BufTy).Contents (Elt F)) : (⟨S1600000x1, .i32⟩ : BufTy).Contents (Elt F) :=
  broadcastInDim S1600000x1 ![0] bcast_S1600000_S1600000x1_0
    (select (cmpi .slt X (broadcastInDim S1600000 ![] bcast_S_S1600000 (constantI S_ 32 0#32)))
      (addi X (broadcastInDim S1600000 ![] bcast_S_S1600000 (constantI S_ 32 100000#32))) X)

/-- The message pre-activations: the projected rows at the source and at the destination, plus the edge part. -/
def preK (A B : (⟨S100000x20, .f32⟩ : BufTy).Contents (Elt F)) (S D : (⟨S1600000, .i32⟩ : BufTy).Contents (Elt F))
    (Cb : (⟨S200000x256, .f32⟩ : BufTy).Contents (Elt F)) : (⟨S1600000x20, .f32⟩ : BufTy).Contents (Elt F) :=
  addf (addf (Host.gather gather_S100000x20_S1600000x1_S1600000x20_1_0_n_n_0_1_120 A (wrapCol S))
             (Host.gather gather_S100000x20_S1600000x1_S1600000x20_1_0_n_n_0_1_120 B (wrapCol D)))
       (shapeCast S1600000x20 (extractStridedSlice S200000x160 ![0, 0] Cb slices_S200000x256_S200000x160_0_0)
          shapeCasts_S200000x160_S1600000x20)

/-- The rectifier over an edge array. -/
def reluE (X : (⟨S1600000x20, .f32⟩ : BufTy).Contents (Elt F)) : (⟨S1600000x20, .f32⟩ : BufTy).Contents (Elt F) :=
  maximumf X (broadcastInDim S1600000x20 ![] bcast_S_S1600000x20 (constant S_ .f32 0x00000000#32))

/-- The messages summed into their destination nodes, from zeros. -/
def sumToNodes (D : (⟨S1600000, .i32⟩ : BufTy).Contents (Elt F)) (M : (⟨S1600000x20, .f32⟩ : BufTy).Contents (Elt F)) :
    (⟨S100000x20, .f32⟩ : BufTy).Contents (Elt F) :=
  Host.scatterAdd scatter_S100000x20_S1600000x1_S1600000x20_1_0_0_1
    (broadcastInDim S100000x20 ![] bcast_S_S100000x20 (constant S_ .f32 0x00000000#32))
    (broadcastInDim S1600000x1 ![0] bcast_S1600000_S1600000x1_0 D) M

theorem W5_v81 : W5 m ρ c (Proc.devRef .tc main_v81)
    = preK (W4 m ρ c (Proc.devRef .tc main_v9)) (W4 m ρ c (Proc.devRef .tc main_v10))
        (W4 m ρ c (Proc.devRef .tc main_v1)) (W4 m ρ c (Proc.devRef .tc main_v3)) (W4 m ρ c (Proc.devRef .tc main_v63)) := by
  show StableHlo.after hostOps2 (W4 m ρ c) (Proc.devRef .tc main_v81) = _
  after_results_simp
  rfl

set_option maxHeartbeats 4000000 in
theorem W6_v82 : W6 m ρ c (Proc.devRef .tc main_v82) = reluE (W5 m ρ c (Proc.devRef .tc main_v81)) := by
  show StableHlo.after hostOps2_1 (W5 m ρ c) (Proc.devRef .tc main_v82) = _
  after_results_simp
  simp only [Cert.LibTyped.ofBuf_toBuf, Cert.LibTyped.toBuf_ofBuf, Cert.LibTypedLit.ofBuf_of, Cert.LibTypedLit.toBuf_of]
  rfl

theorem W6_v3 : W6 m ρ c (Proc.devRef .tc main_v3) = W4 m ρ c (Proc.devRef .tc main_v3) := by
  show StableHlo.after hostOps2_1 (StableHlo.after hostOps2 (W4 m ρ c)) (Proc.devRef .tc main_v3) = _
  after_results_simp

set_option maxHeartbeats 4000000 in
theorem W7_v85 : W7 m ρ c (Proc.devRef .tc main_v85)
    = sumToNodes (W6 m ρ c (Proc.devRef .tc main_v3)) (W6 m ρ c (Proc.devRef .tc main_v82)) := by
  show StableHlo.after hostOps2_2 (W6 m ρ c) (Proc.devRef .tc main_v85) = _
  after_results_simp
  rfl

theorem W7_v86 : W7 m ρ c (Proc.devRef .tc main_v86)
    = shapeCast S1x10 (W6 m ρ c (Proc.devRef .tc main_arg7)) shapeCasts_S10_S1x10 := by
  show StableHlo.after hostOps2_2 (W6 m ρ c) (Proc.devRef .tc main_v86) = _
  after_results_simp
  rfl

/-- The two halves of the projected node table. -/
theorem W4_v9 : W4 m ρ c (Proc.devRef .tc main_v9)
    = extractStridedSlice S100000x20 ![0, 0] (W2 m ρ c (Proc.devRef .tc main_v8)) slices_S100000x40_S100000x20_0_0 := by
  refine (W4_of_ne m ρ c main_v9 (by decide)).trans ?_
  show StableHlo.after hostOps1 (W2 m ρ c) (Proc.devRef .tc main_v9) = _
  after_results_simp
theorem W4_v10 : W4 m ρ c (Proc.devRef .tc main_v10)
    = extractStridedSlice S100000x20 ![0, 20] (W2 m ρ c (Proc.devRef .tc main_v8)) slices_S100000x40_S100000x20_0_20 := by
  refine (W4_of_ne m ρ c main_v10 (by decide)).trans ?_
  show StableHlo.after hostOps1 (W2 m ρ c) (Proc.devRef .tc main_v10) = _
  after_results_simp

end Cert.KernelIdeal.FoldMsg

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.BridgeRegions.lean ====
/-
  The three regions' output arrays, read at an index as sums over the argument arrays.

  At the boundary after each region its output array is what the region's grid wrote back. With the arrays each region
  reads named as the host operations leave them, the node projection's output at (p, q) is the sum over k of the node
  table's (p, k) times the side-by-side weight's (k, q); the edge product's at (r, q) is the sum over j of the packed
  attributes' (r, j) times the block-diagonal weight's (j, q), plus the bias row's q; the node layer's at (p, q) is the
  rectified sum over k of the summed messages' (p, k) times the node weight's (k, q) plus the node bias's q.
-/
import proofs.«140300_j64630667870273_2_alg».proof.Proof.Gen.KernelIdeal.Frame
import proofs.«140300_j64630667870273_2_alg».proof.Proof.RegionProj
import proofs.«140300_j64630667870273_2_alg».proof.Proof.RegionEdge
import proofs.«140300_j64630667870273_2_alg».proof.Proof.RegionNode
import proofs.«140300_j64630667870273_2_alg».proof.Proof.KernelFold
import proofs.«140300_j64630667870273_2_alg».proof.Proof.KernelFoldEdge
import proofs.«140300_j64630667870273_2_alg».proof.Proof.KernelFoldMsg
import proofs.«140300_j64630667870273_2_alg».proof.Proof.LibRow

set_option maxRecDepth 16384

noncomputable section

namespace Cert.BridgeRegions

open Cert.KernelIdeal Cert.KernelIdeal.Gen Cert.KernelIdeal.Fold Cert.KernelIdeal.FoldEdge Cert.KernelIdeal.FoldMsg
open Idealize.ShloMosaic Idealize.ShloMosaic.ValueIdx Idealize.ShloMosaic.TcCoe Idealize.SL.Sem Idealize.ShloMosaic.StableHlo
open scoped BigOperators

variable (m : (ℓ : Loc nD τ sig) → Buf (Elt Ideal) ℓ) (ρ : Dev nD → PrngReg) (c : Dev nD)

/-- The projected node table after region 0. -/
theorem proj_at (a1 : S100000x16.Idx → EReal) (a4 : S48x20.Idx → EReal)
    (h1 : m ((c : Thread nD τ).loc main_arg1) = a1) (h4 : m ((c : Thread nD τ).loc main_arg4) = a4)
    (AB : S100000x40.Idx → EReal) (hAB : W2 m ρ c (Proc.devRef .tc main_v8) = AB) (p : Fin 100000) (q : Fin 40) :
    AB (ix2 p q) = ∑ k : Fin 16, a1 (ix2 p k) * wcat (F := Ideal) a4 (ix2 k q) := by
  subst hAB h1 h4
  exact (congrFun (W2_arr m ρ c 2) (ix2 p q)).trans
    (Cert.RegionProj.final0_apply (V1 m ρ) c _ _ (W1_arg1 m ρ c) (W1_v7' m ρ c) p q)

/-- The edge product after region 1. -/
theorem edge_at (a2 : S1600000x16.Idx → EReal) (a4 : S48x20.Idx → EReal) (a5 : S20.Idx → EReal)
    (h2 : m ((c : Thread nD τ).loc main_arg2) = a2) (h4 : m ((c : Thread nD τ).loc main_arg4) = a4)
    (h5 : m ((c : Thread nD τ).loc main_arg5) = a5)
    (Cb : S200000x256.Idx → EReal) (hCb : W4 m ρ c (Proc.devRef .tc main_v63) = Cb) (r : Fin 200000) (q : Fin 256) :
    Cb (ix2 r q) = (∑ j : Fin 128, packed (F := Ideal) a2 (ix2 r j) * wblk (F := Ideal) a4 (ix2 j q))
      + brow (F := Ideal) a5 (ix2 (0 : Fin 1) q) := by
  subst hCb h2 h4 h5
  exact (congrFun (W4_arr m ρ c 3) (ix2 r q)).trans
    (Cert.RegionEdge.final1_apply (V3 m ρ) c _ _ _ (W3_v62 m ρ c) (W3_v43 m ρ c) (W3_v61 m ρ c) r q)

/-- The node layer's output after region 2, over the summed messages `X` it reads. -/
theorem node_at (a6 : S20x10.Idx → EReal) (a7 : S10.Idx → EReal)
    (h6 : m ((c : Thread nD τ).loc main_arg6) = a6) (h7 : m ((c : Thread nD τ).loc main_arg7) = a7)
    (X : S100000x20.Idx → EReal) (hX : W7 m ρ c (Proc.devRef .tc main_v85) = X)
    (H : S100000x10.Idx → EReal) (hH : W8 m ρ c (Proc.devRef .tc main_v87) = H) (p : Fin 100000) (q : Fin 10) :
    H (ix2 p q) = max ((∑ k : Fin 20, X (ix2 p k) * a6 (ix2 k q)) + a7 (ix1 q)) (Ideal.ofBits .f32 0x00000000#32) := by
  subst hH hX h6 h7
  refine (congrFun (W8_arr m ρ c 3) (ix2 p q)).trans
    ((Cert.RegionNode.final2_apply (V7 m ρ) c _ _ _ rfl (W7_arg6 m ρ c) ((W7_v86 m ρ c).trans (by rw [W6_arg7])) p q).trans ?_)
  rw [Cert.LibRow.row_apply]

end Cert.BridgeRegions

end
-- ==== Proof.KernelFoldTail.lean ====
/-
  From the node layer's output to the result: the sum over graphs and the two dense layers.

  Each node's ten features are added into the row of its graph, starting from zeros; the 5000 × 10 sums go through a
  dense layer with a rectifier and a dense layer to one output. This chain is one function of the node features and of
  the five arguments it reads, and the result buffer at the return holds it.
-/
import proofs.«140300_j64630667870273_2_alg».proof.Proof.Gen.KernelIdeal.Frame
import proofs.«140300_j64630667870273_2_alg».proof.Proof.LibTyped
import proofs.«140300_j64630667870273_2_alg».proof.Proof.LibTypedLit
import Idealize.ShloMosaic.Lib.StableHlo.Run

set_option maxRecDepth 16384

noncomputable section

namespace Cert.KernelIdeal.FoldTail

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The readout: graph sums of the node features, then `relu (· W₂ + b₂) W₃ + b₃`. -/
def readout (H : (⟨S100000x10, .f32⟩ : BufTy).Contents (Elt F)) (bt : (⟨S100000, .i32⟩ : BufTy).Contents (Elt F))
    (w2 : (⟨S10x10, .f32⟩ : BufTy).Contents (Elt F)) (b2 : (⟨S10, .f32⟩ : BufTy).Contents (Elt F))
    (w3 : (⟨S10x1, .f32⟩ : BufTy).Contents (Elt F)) (b3 : (⟨S1, .f32⟩ : BufTy).Contents (Elt F)) :
    (⟨S5000x1, .f32⟩ : BufTy).Contents (Elt F) :=
  addf
    (Host.dotGeneral dot_S5000x10_S10x1_S5000x1_1_0_0_1_n_n none
      (maximumf
        (addf
          (Host.dotGeneral dot_S5000x10_S10x10_S5000x10_1_0_0_1_n_n none
            (Host.scatterAdd scatter_S5000x10_S100000x1_S100000x10_1_0_0_1
              (broadcastInDim S5000x10 ![] bcast_S_S5000x10 (constant S_ .f32 0x00000000#32))
              (broadcastInDim S100000x1 ![0] bcast_S100000_S100000x1_0 bt) H)
            w2)
          (broadcastInDim S5000x10 ![0, 1] bcast_S1x10_S5000x10_0_1 (broadcastInDim S1x10 ![1] bcast_S10_S1x10_1 b2)))
        (broadcastInDim S5000x10 ![] bcast_S_S5000x10 (constant S_ .f32 0x00000000#32)))
      w3)
    (broadcastInDim S5000x1 ![0, 1] bcast_S1x1_S5000x1_0_1 (broadcastInDim S1x1 ![1] bcast_S1_S1x1_1 b3))

theorem W11_v99 : W11 m ρ c (Proc.devRef .tc main_v99)
    = readout (W8 m ρ c (Proc.devRef .tc main_v87)) (W8 m ρ c (Proc.devRef .tc main_arg3))
        (W8 m ρ c (Proc.devRef .tc main_arg8)) (W8 m ρ c (Proc.devRef .tc main_arg9))
        (W8 m ρ c (Proc.devRef .tc main_arg10)) (W8 m ρ c (Proc.devRef .tc main_arg11)) := by
  show StableHlo.after hostOps3_2 (StableHlo.after hostOps3_1 (StableHlo.after hostOps3 (W8 m ρ c))) (Proc.devRef .tc main_v99) = _
  after_results
  simp only [Cert.LibTyped.ofBuf_toBuf, Cert.LibTyped.toBuf_ofBuf, Cert.LibTypedLit.ofBuf_of, Cert.LibTypedLit.toBuf_of]
  rfl

end Cert.KernelIdeal.FoldTail

end
-- ==== Proof.LibRows.lean ====
/-
  Row gathers and row scatters of the host, read at coordinates.

  `x[idx]` of a matrix `x : [N, C]` at a column of row numbers `idx : [R, 1]` is the matrix `[R, C]` whose row `r` is
  row `idx r` of `x`, the row number read as a signed integer and clamped into `[0, N − 1]`; the same for a flat
  array `x : [N]`, whose result is the array `[R]` of the named entries. A scatter of the rows of `u : [R, C]` into a
  matrix `[N, C]` at the row numbers `idx : [R, 1]` sends entry `(r, c)` of `u` to `(idx r, c)`: the row number is read
  signed and NOT clamped (an update whose row is outside the matrix is dropped), the column is kept.
-/
import Idealize.ShloMosaic.PureOps.Ideal
import Idealize.ShloMosaic.Lib.ValueIdx

noncomputable section

namespace Cert.LibRows

open Idealize.ShloMosaic Idealize.ShloMosaic.ValueIdx

variable {α : Type}

/-! ## Rows of a matrix -/

/-- The dimension numbers of a gather of whole rows: operand `[N, C]`, start indices `[R, 1]` (one row number each),
    result `[R, C]`; the slice is one row, its row axis collapsed, its column axis the result's. The conditions `wf`
    are decided on a program's literal shapes. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : (⟨2, ![R, C]⟩ : Shape).Idx) :
    Host.gather (rowsDims N R C wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (rowsDims N R C wf).start j idx 0 + (rowsDims N R C wf).batchCoord j 0 + (rowsDims N R C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx j ⟨List.idxOf (0 : Fin 2) (rowsDims N R C wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowsDims N R C wf).start j idx 1 + (rowsDims N R C wf).batchCoord j 1 + (rowsDims N R C wf).offCoord j 1 = _
    rw [GatherDims.batchCoord_eq_zero _ _ _ List.not_mem_nil]
    unfold GatherDims.start
    rw [dif_neg (show (1 : Fin 2) ∉ (rowsDims N R C wf).startIndexMap from
      (show (1 : Fin 2) ∉ ([0] : List (Fin 2)) from by decide))]
    simp only [Nat.add_zero, Nat.zero_add]
    unfold GatherDims.offCoord
    rw [dif_pos ((GatherDims.mem_sKept (rowsDims N R C wf) 1).mpr
      ⟨(show (1 : Fin 2) ∉ ([0] : List (Fin 2)) from by decide), List.not_mem_nil⟩)]
    rfl

/-! ## Entries of a flat array -/

/-- The dimension numbers of a gather of single entries: operand `[N]`, start indices `[R, 1]`, result `[R]`; the slice is
    one entry, its axis collapsed. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (entriesDims N R wf) x idx j = x (ix1 ⟨min (idx (ix2 (j 0) 0)).toInt.toNat (N - 1), by omega⟩) := by
  unfold Host.gather
  congr 1
  funext a
  obtain rfl : a = 0 := Subsingleton.elim _ _
  refine Fin.ext ?_
  show (entriesDims N R wf).start j idx 0 + (entriesDims N R wf).batchCoord j 0 + (entriesDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx j ⟨List.idxOf (0 : Fin 1) (entriesDims N R wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-! ## Rows scattered into a matrix -/

/-- The dimension numbers of a scatter of whole rows: operand `[N, C]`, scatter indices `[R, 1]` (one row number each),
    updates `[R, C]`; an update row is a window along the operand's columns, placed at the row its index names. -/
abbrev rowsScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window's start along the rows is the row number `idx[r, 0]`, read signed. -/
theorem rowsScatter_start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 0 = (idx (ix2 (j 0) 0)).toInt := by
  unfold ScatterDims.start
  rw [dif_pos (show (0 : Fin 2) ∈ (rowsScatter N R C wf).scatterDimsToOperandDims from List.mem_singleton.mpr rfl)]
  have hsi : (rowsScatter N R C wf).siIdx j ⟨List.idxOf (0 : Fin 2) (rowsScatter N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The window's start along the columns is `0`: the scatter indices name rows only. -/
theorem rowsScatter_start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 1 = 0 := by
  unfold ScatterDims.start
  rw [dif_neg (show (1 : Fin 2) ∉ (rowsScatter N R C wf).scatterDimsToOperandDims from
    (show (1 : Fin 2) ∉ ([0] : List (Fin 2)) from by decide))]

/-- The window coordinate along the rows is `0`: the row axis is inserted, not a window axis. -/
theorem rowsScatter_window_row {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 0 = 0 := by
  unfold ScatterDims.window
  rw [dif_neg (show (0 : Fin 2) ∉ (rowsScatter N R C wf).sKept from
    (show (0 : Fin 2) ∉ (List.finRange 2).filter (· ∉ ([0] : List (Fin 2))) from by decide))]

/-- The window coordinate along the columns is the update's column. -/
theorem rowsScatter_window_col {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 1 = (j 1).val := by
  unfold ScatterDims.window
  rw [dif_pos (show (1 : Fin 2) ∈ (rowsScatter N R C wf).sKept from
    (show (1 : Fin 2) ∈ (List.finRange 2).filter (· ∉ ([0] : List (Fin 2))) from by decide))]
  rfl

/-- WHERE A SCATTERED ROW LANDS: if update entry `(r, c)` lands at operand index `i`, then `i`'s row is the row number
    `idx[r, 0]` read as a signed integer (not clamped: an update outside the operand lands nowhere) and `i`'s column is
    `c`. -/
theorem scatter_rows_result {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowsScatter N R C wf).resultIdx? j idx = some i) :
    (idx (ix2 (j 0) 0)).toInt = ((i 0).val : Int) ∧ (i 1).val = (j 1).val := by
  unfold ScatterDims.resultIdx? at h
  split at h
  · rename_i hin
    have hi := Option.some.inj h
    have h0 : ((rowsScatter N R C wf).start j idx 0 + ((rowsScatter N R C wf).window j 0 : Int)).toNat = (i 0).val :=
      congrArg (fun f : (⟨2, ![N, C]⟩ : Shape).Idx => (f 0).val) hi
    have h1 : ((rowsScatter N R C wf).start j idx 1 + ((rowsScatter N R C wf).window j 1 : Int)).toNat = (i 1).val :=
      congrArg (fun f : (⟨2, ![N, C]⟩ : Shape).Idx => (f 1).val) hi
    have hb := (hin 0).1
    rw [rowsScatter_start_row, rowsScatter_window_row] at h0 hb
    rw [rowsScatter_start_col, rowsScatter_window_col] at h1
    constructor <;> omega
  · exact absurd h (by simp)

end Cert.LibRows

end
-- ==== Proof.LibWrapGather.lean ====
/-
  An array indexed by a column of signed row numbers the way `x[idx]` is: negative numbers wrapped, then clamped.

  `x[idx]` first makes a row number non-negative — a negative one has the number of rows `N` added — and then gathers
  the row at that number read signed and clamped into `[0, N - 1]`. So entry `r` of the result is `x` at the row
  `pickRow N (idx r)`, a function of the one word `idx r`: two programs that index the same array by the same words
  read the same rows, whatever the words are. A position `j < N` written as a word is not negative and inside the
  array, so it picks row `j` itself (for `N` up to `2^31`): the row a self-loop reads.
  Lengths are free, and a gather is taken by its dimension numbers as hypotheses, so that the statements apply to
  arrays and records of literal extents.
-/
import proofs.«140300_j64630667870273_2_alg».proof.Proof.LibRows
import proofs.«140300_j64630667870273_2_alg».proof.Proof.LibVecJoin
import Idealize.ShloMosaic.Lib.IdealHost

noncomputable section

namespace Cert.LibWrapGather

open Idealize.ShloMosaic Idealize.ShloMosaic.ValueIdx Cert.LibRows Cert.LibVecJoin

variable {α : Type}

/-- A row number made non-negative: a negative number has the number of rows added. -/
def wrapWord (N : ℕ) (v : BitVec 32) : BitVec 32 :=
  Scalar.select (IntOp.cmpi .slt v 0#32) (IntOp.addi v (BitVec.ofNat 32 N)) v

/-- The row of `N` a signed row number selects: made non-negative, read signed, clamped into `[0, N - 1]`. -/
def pickRow (N : ℕ) (hN : 0 < N) (v : BitVec 32) : Fin N :=
  ⟨min (wrapWord N v).toInt.toNat (N - 1), by omega⟩

/-- An integer constant repeated over an array reads, at any index, the constant. -/
theorem splatI_apply {T : Shape} (h : (⟨0, ![]⟩ : Shape).BroadcastsInDim T ![]) (b : BitVec 32) (j : T.Idx) :
    broadcastInDim T ![] h (constantI ⟨0, ![]⟩ 32 b) j = b :=
  broadcastInDim_scalar_apply h _ j

/-- The wrap of an array of row numbers, read at an index: `select (x < 0) (x + N) x` is `wrapWord N` of the entry. -/
theorem wrap_apply {s : Shape} (N : ℕ) (X z n : IVec s 32) (i : s.Idx) (hz : z i = 0#32)
    (hn : n i = BitVec.ofNat 32 N) :
    select (cmpi .slt X z) (addi X n) X i = wrapWord N (X i) := by
  show Scalar.select (IntOp.cmpi .slt (X i) (z i)) (IntOp.addi (X i) (n i)) (X i) = _
  rw [hz, hn]
  rfl

/-- The entry gather read at `r`, for any record with the dimension numbers of a gather of single entries. -/
theorem gather_entries_apply_of {N R w : ℕ} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (r : Fin R) :
    Host.gather d x idx (ix1 r) = x (ix1 ⟨min (idx (ix2 r 0)).toInt.toNat (N - 1), by omega⟩) := by
  obtain ⟨a1, a2, a3, a4, a5, a6, a7, wf⟩ := d
  dsimp only at h1 h2 h3 h4 h5 h6 h7
  subst h1 h2 h3 h4 h5 h6 h7
  exact gather_entries_apply hN wf x idx (ix1 r)

/-- The row gather read at `(r, c)`, for any record with the dimension numbers of a gather of whole rows. -/
theorem gather_rows_apply_of {N R C w : ℕ} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c) = x (ix2 ⟨min (idx (ix2 r 0)).toInt.toNat (N - 1), by omega⟩ c) := by
  obtain ⟨a1, a2, a3, a4, a5, a6, a7, wf⟩ := d
  dsimp only at h1 h2 h3 h4 h5 h6 h7
  subst h1 h2 h3 h4 h5 h6 h7
  exact gather_rows_apply hN wf x idx (ix2 r c)

/-- ENTRIES PICKED BY A COLUMN OF WRAPPED ROW NUMBERS: entry `r` is the array at `pickRow N` of the word `X r`. -/
theorem gather_entries_wrap_apply {N R : ℕ} (hN : 0 < N) (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (X z n : IVec ⟨1, ![R]⟩ 32)
    (hb : (⟨1, ![R]⟩ : Shape).BroadcastsInDim ⟨2, ![R, 1]⟩ ![0]) (r : Fin R)
    (hz : z (ix1 r) = 0#32) (hn : n (ix1 r) = BitVec.ofNat 32 N) :
    Host.gather d x (broadcastInDim ⟨2, ![R, 1]⟩ ![0] hb (select (cmpi .slt X z) (addi X n) X)) (ix1 r)
      = x (ix1 (pickRow N hN (X (ix1 r)))) :=
  (gather_entries_apply_of hN d h1 h2 h3 h4 h5 h6 h7 x _ r).trans
    (congrArg (fun v : BitVec 32 => x (ix1 ⟨min v.toInt.toNat (N - 1), by omega⟩))
      ((column_apply hb _ r).trans (wrap_apply N X z n (ix1 r) hz hn)))

/-- ROWS PICKED BY A COLUMN OF WRAPPED ROW NUMBERS: entry `(r, c)` is the array at row `pickRow N` of the word `X r`,
    column `c`. -/
theorem gather_rows_wrap_apply {N R C : ℕ} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (X z n : IVec ⟨1, ![R]⟩ 32)
    (hb : (⟨1, ![R]⟩ : Shape).BroadcastsInDim ⟨2, ![R, 1]⟩ ![0]) (r : Fin R) (c : Fin C)
    (hz : z (ix1 r) = 0#32) (hn : n (ix1 r) = BitVec.ofNat 32 N) :
    Host.gather d x (broadcastInDim ⟨2, ![R, 1]⟩ ![0] hb (select (cmpi .slt X z) (addi X n) X)) (ix2 r c)
      = x (ix2 (pickRow N hN (X (ix1 r))) c) :=
  (gather_rows_apply_of hN d h1 h2 h3 h4 h5 h6 h7 x _ r c).trans
    (congrArg (fun v : BitVec 32 => x (ix2 ⟨min v.toInt.toNat (N - 1), by omega⟩ c))
      ((column_apply hb _ r).trans (wrap_apply N X z n (ix1 r) hz hn)))

/-- A LOOP PICKS ITS OWN ROW: the position `j < N`, written as a word, is not negative and inside the array. -/
theorem pickRow_position {N : ℕ} (hN : 0 < N) (hN2 : N ≤ 2 ^ 31) (j : Fin N) :
    pickRow N hN (BitVec.ofNat 32 j.val) = j := by
  have hj := j.isLt
  have ht : (BitVec.ofNat 32 j.val).toInt = (j.val : Int) := toInt_ofNat_small j.val (by omega)
  have hs : IntOp.cmpi .slt (BitVec.ofNat 32 j.val) 0#32 = 0#1 := by
    show BitVec.ofBool ((BitVec.ofNat 32 j.val).slt 0#32) = 0#1
    have hf : (BitVec.ofNat 32 j.val).slt 0#32 = false := by
      simp [BitVec.slt, ht]
    rw [hf]
    rfl
  apply Fin.ext
  show min (wrapWord N (BitVec.ofNat 32 j.val)).toInt.toNat (N - 1) = j.val
  unfold wrapWord
  rw [hs, select_zero, ht]
  simp only [Int.toNat_natCast]
  omega

end Cert.LibWrapGather

end
-- ==== Proof.Spec.lean ====
/-
  The message pre-activation of one edge, as a function of the argument arrays.

  For edge `e` with source and destination words `s = ei (0, e)` and `d = ei (1, e)`, each word made a row of the node
  table the way array indexing does (a negative word has the number of rows added, then the number is clamped into the
  table), feature `h` of the message before the rectifier is

      ∑ₖ na(row s, k) · W(k, h)  +  ∑ₖ na(row d, k) · W(16 + k, h)  +  ∑ₖ ea(e, k) · W(32 + k, h)  +  b(h),

  the three sums over `k < 16`: the product of the 48 joined features `[na(row s) | na(row d) | ea(e)]` with the
  `48 × 20` weight, cut where the three pieces meet. Both programs compute this number: one forms the joined row and
  one product, the other projects the node table once, packs eight edges' attributes into one row against a
  block-diagonal weight, and adds the three parts.
-/
import proofs.«140300_j64630667870273_2_alg».proof.Proof.LibWrapGather
import Idealize.ShloMosaic.PureOps.Ideal
import Idealize.ShloMosaic.Lib.ValueIdx

noncomputable section

namespace Cert.Spec

open Idealize.ShloMosaic Idealize.ShloMosaic.ValueIdx Cert.LibWrapGather
open scoped BigOperators

/-- The node-table row a signed word selects (negative words wrapped, then clamped into the 100000 rows). -/
abbrev row (v : BitVec 32) : Fin 100000 := pickRow 100000 (by norm_num) v

/-- The part of the pre-activation that comes from a node row `r` through rows `off .. off + 15` of the weight. -/
def nodePart (na : (⟨2, ![100000, 16]⟩ : Shape).Idx → EReal) (W : (⟨2, ![48, 20]⟩ : Shape).Idx → EReal)
    (off : ℕ) (hoff : off + 16 ≤ 48) (r : Fin 100000) (h : Fin 20) : EReal :=
  ∑ k : Fin 16, na (ix2 r k) * W (ix2 ⟨off + k.val, by have := k.isLt; omega⟩ h)

/-- The part that comes from the edge's own attributes through rows `32 .. 47` of the weight. -/
def edgePart (ea : (⟨2, ![1600000, 16]⟩ : Shape).Idx → EReal) (W : (⟨2, ![48, 20]⟩ : Shape).Idx → EReal)
    (e : Fin 1600000) (h : Fin 20) : EReal :=
  ∑ k : Fin 16, ea (ix2 e k) * W (ix2 ⟨32 + k.val, by have := k.isLt; omega⟩ h)

/-- The message of edge `e`, feature `h`, before the rectifier. -/
def pre (ei : (⟨2, ![2, 1600000]⟩ : Shape).Idx → BitVec 32) (na : (⟨2, ![100000, 16]⟩ : Shape).Idx → EReal)
    (ea : (⟨2, ![1600000, 16]⟩ : Shape).Idx → EReal) (W : (⟨2, ![48, 20]⟩ : Shape).Idx → EReal)
    (b : (⟨1, ![20]⟩ : Shape).Idx → EReal) (e : Fin 1600000) (h : Fin 20) : EReal :=
  ((nodePart na W 0 (by norm_num) (row (ei (ix2 0 e))) h + nodePart na W 16 (by norm_num) (row (ei (ix2 1 e))) h)
    + edgePart ea W e h) + b (ix1 h)

end Cert.Spec

end
-- ==== Proof.LibColsCut.lean ====
/-
  A stretch of columns cut from a matrix, read at coordinates.

  Cutting the columns off, off + 1, …, off + n - 1 out of an array of M rows and N columns (a unit-stride slice that keeps
  every row) gives an array of M rows and n columns whose entry (p, q) is entry (p, off + q) of the operand — for any
  extents and any element type. A dense row of several gates laid side by side is cut into its gates this way.
-/
import Idealize.ShloMosaic.Lib.Pipeline.Value
import Idealize.ShloMosaic.Lib.ValueIdx

noncomputable section

namespace Cert.LibColsCut

open Idealize.ShloMosaic Idealize.ShloMosaic.ValueIdx

/-- Entry (p, q) of the columns `off … off + n - 1` of `x` is entry (p, j) of `x` where `j = off + q`. -/
theorem slice_cols {M N n : ℕ} {α : Type} (off : ℕ) (x : (⟨2, ![M, N]⟩ : Shape).Idx → α)
    (h : (⟨2, ![M, N]⟩ : Shape).Slices ![0, off] ⟨2, ![M, n]⟩) (p : Fin M) (q : Fin n) (j : Fin N)
    (hj : j.val = off + q.val) :
    extractStridedSlice (⟨2, ![M, n]⟩ : Shape) ![0, off] x h (ix2 p q) = x (ix2 p j) :=
  extractStridedSlice_apply ![0, off] x h (ix2 p q) (ix2 p j) fun a => by
    match a with
    | ⟨0, _⟩ => show p.val = 0 + p.val; omega
    | ⟨1, _⟩ => show j.val = off + q.val; exact hj

end Cert.LibColsCut

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.KernelPre.lean ====
/-
  The kernel's message pre-activation read at an index, at the extended reals.

  The kernel never forms the joined row. It projects the node table once through the first two 16-row slabs of the
  weight laid side by side (a 16 x 40 weight), gathers the two 20-column halves of the projection at the edges' source
  and destination words, and adds the edge part: the edge attributes packed eight edges to a row, times the third slab
  written eight times along the diagonal of a 128 x 256 zero matrix, plus the bias written eight times, unpacked again to
  one edge per row. Read at edge e = 8 r + i and feature h: the first gather is the node row's product with weight rows
  0 .. 15, the second its product with rows 16 .. 31; the unpacked entry is entry (r, 20 i + h) of the packed product, a
  sum over 128 = 8 x 16 positions (i', k) of attribute (8 r + i', k) times the block-diagonal entry, which is the
  weight's (32 + k, h) on the diagonal i' = i and zero off it, so that the sum collapses to the edge's own 16 terms; the
  repeated bias reads the bias at h. Together: the specification's pre-activation.
-/
import proofs.«140300_j64630667870273_2_alg».proof.Proof.KernelFoldMsg
import proofs.«140300_j64630667870273_2_alg».proof.Proof.KernelFoldEdge
import proofs.«140300_j64630667870273_2_alg».proof.Proof.Spec
import proofs.«140300_j64630667870273_2_alg».proof.Proof.LibWrapGather
import proofs.«140300_j64630667870273_2_alg».proof.Proof.LibColsCut
import proofs.«140300_j64630667870273_2_alg».proof.Proof.LibColsJoin
import proofs.«140300_j64630667870273_2_alg».proof.Proof.LibRow
import proofs.«140300_j64630667870273_2_alg».proof.Proof.LibBlocks
import proofs.«140300_j64630667870273_2_alg».proof.Proof.BlockWeights

noncomputable section

namespace Cert.KernelPre

open Cert.KernelIdeal Cert.KernelIdeal.Gen Cert.KernelIdeal.Fold Cert.KernelIdeal.FoldMsg Cert.KernelIdeal.FoldEdge
open Idealize.ShloMosaic Idealize.ShloMosaic.ValueIdx
open Cert.LibWrapGather Cert.LibColsCut Cert.LibColsJoin Cert.LibRow Cert.LibBlocks Cert.BlockWeights
open scoped BigOperators

/-! ## The edges' words -/

/-- Row 0 of the edge index as a vector of words: entry e is the source word of edge e. -/
theorem src_word (a0 : (⟨S2x1600000, .i32⟩ : BufTy).Contents (Elt Ideal)) (e : Fin 1600000) :
    wordsOf (F := Ideal) a0 0 slices_S2x1600000_S1x1600000_0_0 (ix1 e) = a0 (ix2 0 e) := by
  refine (shapeCast_apply _ shapeCasts_S1x1600000_S1600000 (ix1 e) (ix2 (0 : Fin 1) e) ?_).trans ?_
  · rw [Shape.rowMajor_val_two, Shape.rowMajor_val_one]
    show 0 * 1600000 + e.val = e.val
    omega
  · refine extractStridedSlice_apply ![0, 0] a0 slices_S2x1600000_S1x1600000_0_0 (ix2 (0 : Fin 1) e) (ix2 0 e) fun a => ?_
    match a with
    | ⟨0, _⟩ => rfl
    | ⟨1, _⟩ => exact (Nat.zero_add _).symm

/-- Row 1 of the edge index as a vector of words: entry e is the destination word of edge e. -/
theorem dst_word (a0 : (⟨S2x1600000, .i32⟩ : BufTy).Contents (Elt Ideal)) (e : Fin 1600000) :
    wordsOf (F := Ideal) a0 1 slices_S2x1600000_S1x1600000_1_0 (ix1 e) = a0 (ix2 1 e) := by
  refine (shapeCast_apply _ shapeCasts_S1x1600000_S1600000 (ix1 e) (ix2 (0 : Fin 1) e) ?_).trans ?_
  · rw [Shape.rowMajor_val_two, Shape.rowMajor_val_one]
    show 0 * 1600000 + e.val = e.val
    omega
  · refine extractStridedSlice_apply ![1, 0] a0 slices_S2x1600000_S1x1600000_1_0 (ix2 (0 : Fin 1) e) (ix2 1 e) fun a => ?_
    match a with
    | ⟨0, _⟩ => rfl
    | ⟨1, _⟩ => exact (Nat.zero_add _).symm

/-! ## A gather of projected rows at wrapped words -/

/-- Rows of a 20-column table gathered at a column of wrapped words: entry (e, h) is the table at the row the word of
    edge e selects. -/
theorem gatherK_apply (A : (⟨S100000x20, .f32⟩ : BufTy).Contents (Elt Ideal))
    (X : (⟨S1600000, .i32⟩ : BufTy).Contents (Elt Ideal)) (e : Fin 1600000) (h : Fin 20) :
    Host.gather gather_S100000x20_S1600000x1_S1600000x20_1_0_n_n_0_1_120 A (wrapCol (F := Ideal) X) (ix2 e h)
      = A (ix2 (Cert.Spec.row (X (ix1 e))) h) :=
  gather_rows_wrap_apply (N := 100000) (R := 1600000) (C := 20) (by norm_num)
    gather_S100000x20_S1600000x1_S1600000x20_1_0_n_n_0_1_120 rfl rfl rfl rfl rfl rfl rfl A X _ _
    bcast_S1600000_S1600000x1_0 e h (splatI_apply _ _ _) (splatI_apply _ _ _)

/-! ## The 16 x 40 weight and the two halves of the projection -/

/-- Column h < 20 of the 16 x 40 weight is column h of the weight's rows 0 .. 15. -/
theorem wcat_left (a4 : (⟨S48x20, .f32⟩ : BufTy).Contents (Elt Ideal)) (k : Fin 16) (h : Fin 20) :
    wcat (F := Ideal) a4 (ix2 k (⟨h.val, by have := h.isLt; omega⟩ : Fin 40))
      = a4 (ix2 (⟨0 + k.val, by have := k.isLt; omega⟩ : Fin 48) h) := by
  refine (cat_cols_left _ _ concatenates_S16x20_S16x20_S16x40_d1 k h _ rfl).trans ?_
  refine extractStridedSlice_apply ![0, 0] a4 slices_S48x20_S16x20_0_0 (ix2 k h) _ fun a => ?_
  match a with
  | ⟨0, _⟩ => rfl
  | ⟨1, _⟩ => exact (Nat.zero_add _).symm

/-- Column 20 + h of the 16 x 40 weight is column h of the weight's rows 16 .. 31. -/
theorem wcat_right (a4 : (⟨S48x20, .f32⟩ : BufTy).Contents (Elt Ideal)) (k : Fin 16) (h : Fin 20) :
    wcat (F := Ideal) a4 (ix2 k (⟨20 + h.val, by have := h.isLt; omega⟩ : Fin 40))
      = a4 (ix2 (⟨16 + k.val, by have := k.isLt; omega⟩ : Fin 48) h) := by
  refine (cat_cols_right _ _ concatenates_S16x20_S16x20_S16x40_d1 k h _ rfl).trans ?_
  refine extractStridedSlice_apply ![16, 0] a4 slices_S48x20_S16x20_16_0 (ix2 k h) _ fun a => ?_
  match a with
  | ⟨0, _⟩ => rfl
  | ⟨1, _⟩ => exact (Nat.zero_add _).symm

/-- The first half of the projection at a row: the node row's product with the weight's rows 0 .. 15. -/
theorem projA_apply (a1 : (⟨S100000x16, .f32⟩ : BufTy).Contents (Elt Ideal))
    (a4 : (⟨S48x20, .f32⟩ : BufTy).Contents (Elt Ideal)) (AB : (⟨S100000x40, .f32⟩ : BufTy).Contents (Elt Ideal))
    (hAB : ∀ (p : Fin 100000) (q : Fin 40),
      AB (ix2 p q) = ∑ k : Fin 16, a1 (ix2 p k) * wcat (F := Ideal) a4 (ix2 k q))
    (r : Fin 100000) (h : Fin 20) :
    extractStridedSlice S100000x20 ![0, 0] AB slices_S100000x40_S100000x20_0_0 (ix2 r h)
      = Cert.Spec.nodePart a1 a4 0 (by norm_num) r h := by
  refine (slice_cols 0 AB slices_S100000x40_S100000x20_0_0 r h (⟨h.val, by have := h.isLt; omega⟩ : Fin 40)
    (Nat.zero_add _).symm).trans ?_
  refine (hAB r _).trans ?_
  unfold Cert.Spec.nodePart
  exact Finset.sum_congr rfl fun k _ => congrArg (a1 (ix2 r k) * ·) (wcat_left a4 k h)

/-- The second half of the projection at a row: the node row's product with the weight's rows 16 .. 31. -/
theorem projB_apply (a1 : (⟨S100000x16, .f32⟩ : BufTy).Contents (Elt Ideal))
    (a4 : (⟨S48x20, .f32⟩ : BufTy).Contents (Elt Ideal)) (AB : (⟨S100000x40, .f32⟩ : BufTy).Contents (Elt Ideal))
    (hAB : ∀ (p : Fin 100000) (q : Fin 40),
      AB (ix2 p q) = ∑ k : Fin 16, a1 (ix2 p k) * wcat (F := Ideal) a4 (ix2 k q))
    (r : Fin 100000) (h : Fin 20) :
    extractStridedSlice S100000x20 ![0, 20] AB slices_S100000x40_S100000x20_0_20 (ix2 r h)
      = Cert.Spec.nodePart a1 a4 16 (by norm_num) r h := by
  refine (slice_cols 20 AB slices_S100000x40_S100000x20_0_20 r h (⟨20 + h.val, by have := h.isLt; omega⟩ : Fin 40)
    rfl).trans ?_
  refine (hAB r _).trans ?_
  unfold Cert.Spec.nodePart
  exact Finset.sum_congr rfl fun k _ => congrArg (a1 (ix2 r k) * ·) (wcat_right a4 k h)

/-! ## The edge part: unpacking, packing, the block-diagonal weight, the repeated bias -/

/-- The first 160 columns of the packed product unpacked to one edge per row: entry (e, h) with e = 8 r + i is entry
    (r, 20 i + h), both at row-major position 20 e + h. -/
theorem unpack_apply (Cb : (⟨S200000x256, .f32⟩ : BufTy).Contents (Elt Ideal)) (e : Fin 1600000) (h : Fin 20) :
    shapeCast S1600000x20 (extractStridedSlice S200000x160 ![0, 0] Cb slices_S200000x256_S200000x160_0_0)
        shapeCasts_S200000x160_S1600000x20 (ix2 e h)
      = Cb (ix2 (⟨e.val / 8, by have := e.isLt; omega⟩ : Fin 200000)
          (⟨20 * (e.val % 8) + h.val, by have := h.isLt; omega⟩ : Fin 256)) := by
  refine (shapeCast_apply _ shapeCasts_S200000x160_S1600000x20 (ix2 e h)
    (ix2 (⟨e.val / 8, by have := e.isLt; omega⟩ : Fin 200000)
      (⟨20 * (e.val % 8) + h.val, by have := h.isLt; omega⟩ : Fin 160)) ?_).trans ?_
  · rw [Shape.rowMajor_val_two, Shape.rowMajor_val_two]
    show e.val / 8 * 160 + (20 * (e.val % 8) + h.val) = e.val * 20 + h.val
    omega
  · exact slice_cols 0 Cb slices_S200000x256_S200000x160_0_0 _ _ _ (Nat.zero_add _).symm

/-- The edge attributes packed eight edges to a row: entry (r, 16 i' + k) is attribute k of edge 8 r + i', both at
    row-major position 128 r + 16 i' + k. -/
theorem packed_apply (a2 : (⟨S1600000x16, .f32⟩ : BufTy).Contents (Elt Ideal)) (r : Fin 200000) (i' : Fin 8)
    (k : Fin 16) :
    packed (F := Ideal) a2 (ix2 r (⟨16 * i'.val + k.val, by have := i'.isLt; have := k.isLt; omega⟩ : Fin 128))
      = a2 (ix2 (⟨8 * r.val + i'.val, by have := r.isLt; have := i'.isLt; omega⟩ : Fin 1600000) k) := by
  refine shapeCast_apply a2 shapeCasts_S1600000x16_S200000x128 _ _ ?_
  rw [Shape.rowMajor_val_two, Shape.rowMajor_val_two]
  show (8 * r.val + i'.val) * 16 + k.val = r.val * 128 + (16 * i'.val + k.val)
  omega

/-- The block-diagonal weight at row 16 i' + k, column 20 i + h: the weight's (32 + k, h) on the diagonal, zero off it. -/
theorem wblk_apply (a4 : (⟨S48x20, .f32⟩ : BufTy).Contents (Elt Ideal)) (i' i : Fin 8) (k : Fin 16) (h : Fin 20) :
    wblk (F := Ideal) a4
        (ix2 (⟨16 * i'.val + k.val, by have := i'.isLt; have := k.isLt; omega⟩ : Fin 128)
          (⟨20 * i.val + h.val, by have := i.isLt; have := h.isLt; omega⟩ : Fin 256))
      = if i' = i then a4 (ix2 (⟨32 + k.val, by have := k.isLt; omega⟩ : Fin 48) h) else 0 := by
  refine (blockDiag_apply scatter_S128x256_S2_S16x20_01_n_01_0 rfl rfl rfl rfl bcast_S_S1 concatenates_S1_S1_S2_d0
    _ _ i' i k h).trans ?_
  by_cases hi : i' = i
  · rw [if_pos hi, if_pos hi]
    refine extractStridedSlice_apply ![32, 0] a4 slices_S48x20_S16x20_32_0 (ix2 k h) _ fun a => ?_
    match a with
    | ⟨0, _⟩ => rfl
    | ⟨1, _⟩ => exact (Nat.zero_add _).symm
  · rw [if_neg hi, if_neg hi]
    exact (broadcastInDim_scalar_apply bcast_S_S128x256 _ _).trans
      ((constant_apply (s := S_) (φ := .f32) _ _).trans Ideal.ofBits_zero_f32)

/-- The bias written eight times and laid out as a row reads, at column 20 i + h, the bias at h. -/
theorem brow_apply (a5 : (⟨S20, .f32⟩ : BufTy).Contents (Elt Ideal)) (i : Fin 8) (h : Fin 20) :
    brow (F := Ideal) a5 (ix2 0 (⟨20 * i.val + h.val, by have := i.isLt; have := h.isLt; omega⟩ : Fin 256))
      = a5 (ix1 h) :=
  (row_apply _ shapeCasts_S256_S1x256 _).trans
    (repBias_apply scatter_S256_S1_S20_0_n_0_0 rfl rfl rfl rfl bcast_S_S1 _ a5 i h)

/-- A sum over 128 = 8 x 16 positions whose terms vanish off stretch i is the sum over stretch i. -/
theorem sum_fin128_stretch {M : Type*} [AddCommMonoid M] (g : Fin 128 → M) (i : Fin 8)
    (hz : ∀ (i' : Fin 8) (k : Fin 16), i' ≠ i →
      g (⟨16 * i'.val + k.val, by have := i'.isLt; have := k.isLt; omega⟩ : Fin 128) = 0) :
    ∑ j, g j = ∑ k : Fin 16, g (⟨16 * i.val + k.val, by have := i.isLt; have := k.isLt; omega⟩ : Fin 128) := by
  have hs := sum_entries (A := 8) (B := 16) g
  refine hs.trans ?_
  have he : ∀ (i' : Fin 8) (k : Fin 16),
      (entry i' k : Fin (8 * 16)) = (⟨16 * i'.val + k.val, by have := i'.isLt; have := k.isLt; omega⟩ : Fin 128) :=
    fun i' k => Fin.ext (by show i'.val * 16 + k.val = 16 * i'.val + k.val; omega)
  refine (Finset.sum_eq_single i (fun i' _ hne => Finset.sum_eq_zero fun k _ => ?_)
    (fun hn => absurd (Finset.mem_univ i) hn)).trans (Finset.sum_congr rfl fun k _ => congrArg g (he i k))
  exact (congrArg g (he i' k)).trans (hz i' k hne)

/-- The packed product's sum at (r, 20 i + h) is the edge part of edge 8 r + i. -/
theorem edge_sum (a2 : (⟨S1600000x16, .f32⟩ : BufTy).Contents (Elt Ideal))
    (a4 : (⟨S48x20, .f32⟩ : BufTy).Contents (Elt Ideal)) (e : Fin 1600000) (h : Fin 20) :
    (∑ j : Fin 128, packed (F := Ideal) a2 (ix2 (⟨e.val / 8, by have := e.isLt; omega⟩ : Fin 200000) j)
        * wblk (F := Ideal) a4 (ix2 j (⟨20 * (e.val % 8) + h.val, by have := h.isLt; omega⟩ : Fin 256)))
      = Cert.Spec.edgePart a2 a4 e h := by
  have he8 : e.val % 8 < 8 := Nat.mod_lt _ (by norm_num)
  refine (sum_fin128_stretch _ (⟨e.val % 8, he8⟩ : Fin 8) fun i' k hne => ?_).trans ?_
  · rw [wblk_apply a4 i' (⟨e.val % 8, he8⟩ : Fin 8) k h, if_neg hne, mul_zero]
  · unfold Cert.Spec.edgePart
    refine Finset.sum_congr rfl fun k _ => ?_
    rw [wblk_apply a4 (⟨e.val % 8, he8⟩ : Fin 8) (⟨e.val % 8, he8⟩ : Fin 8) k h, if_pos rfl,
      packed_apply a2 (⟨e.val / 8, by have := e.isLt; omega⟩ : Fin 200000) (⟨e.val % 8, he8⟩ : Fin 8) k]
    refine congrArg (fun t : Fin 1600000 => a2 (ix2 t k) * a4 (ix2 (⟨32 + k.val, by have := k.isLt; omega⟩ : Fin 48) h))
      (Fin.ext ?_)
    show 8 * (e.val / 8) + e.val % 8 = e.val
    omega

/-! ## The pre-activation -/

/-- THE KERNEL'S PRE-ACTIVATION IS THE SPECIFICATION'S, given what the two products leave: the projection the node
    table times the 16 x 40 weight, the packed product the packed attributes times the block-diagonal weight plus the
    bias row. -/
theorem ker_pre (a0 : (⟨S2x1600000, .i32⟩ : BufTy).Contents (Elt Ideal))
    (a1 : (⟨S100000x16, .f32⟩ : BufTy).Contents (Elt Ideal)) (a2 : (⟨S1600000x16, .f32⟩ : BufTy).Contents (Elt Ideal))
    (a4 : (⟨S48x20, .f32⟩ : BufTy).Contents (Elt Ideal)) (a5 : (⟨S20, .f32⟩ : BufTy).Contents (Elt Ideal))
    (AB : (⟨S100000x40, .f32⟩ : BufTy).Contents (Elt Ideal)) (Cb : (⟨S200000x256, .f32⟩ : BufTy).Contents (Elt Ideal))
    (hAB : ∀ (p : Fin 100000) (q : Fin 40),
      AB (ix2 p q) = ∑ k : Fin 16, a1 (ix2 p k) * wcat (F := Ideal) a4 (ix2 k q))
    (hCb : ∀ (r : Fin 200000) (q : Fin 256),
      Cb (ix2 r q) = (∑ j : Fin 128, packed (F := Ideal) a2 (ix2 r j) * wblk (F := Ideal) a4 (ix2 j q))
        + brow (F := Ideal) a5 (ix2 0 q))
    (e : Fin 1600000) (h : Fin 20) :
    preK (F := Ideal)
        (extractStridedSlice S100000x20 ![0, 0] AB slices_S100000x40_S100000x20_0_0)
        (extractStridedSlice S100000x20 ![0, 20] AB slices_S100000x40_S100000x20_0_20)
        (wordsOf a0 0 slices_S2x1600000_S1x1600000_0_0) (wordsOf a0 1 slices_S2x1600000_S1x1600000_1_0) Cb (ix2 e h)
      = Cert.Spec.pre a0 a1 a2 a4 a5 e h := by
  have he8 : e.val % 8 < 8 := Nat.mod_lt _ (by norm_num)
  unfold preK
  rw [addf_apply, addf_apply, gatherK_apply, gatherK_apply, src_word, dst_word, projA_apply a1 a4 AB hAB,
    projB_apply a1 a4 AB hAB, unpack_apply, hCb, edge_sum,
    brow_apply a5 (⟨e.val % 8, he8⟩ : Fin 8) h]
  unfold Cert.Spec.pre
  exact (add_assoc _ _ _).symm

end Cert.KernelPre

end
-- ==== Proof.LibTripleJoin.lean ====
/-
  Three arrays laid end to end along an axis, read at an index.

  The join of three pieces along axis `a` finds where the axis coordinate falls among the pieces' extents `n₁, n₂, n₃`:
  below `n₁` it reads the first piece at the same coordinates; from `n₁` and below `n₁ + n₂` the second piece, the axis
  coordinate `n₁` less; from `n₁ + n₂` on the third piece, the axis coordinate `n₁ + n₂` less. For any shapes and any
  axis, and in particular for three vectors: an edge list followed by two lists of candidate edges.
-/
import Idealize.ShloMosaic.Lib.Pipeline.Value
import Idealize.ShloMosaic.Lib.ValueIdx

noncomputable section

namespace Cert.LibTripleJoin

open Idealize.ShloMosaic Idealize.ShloMosaic.ValueIdx

variable {α : Type}

/-- Where a position below the first extent falls: the first piece, at that position. -/
theorem locate_triple_fst (n₁ n₂ n₃ c : Nat) (h : c < [n₁, n₂, n₃].sum) (hc : c < n₁) :
    locate [n₁, n₂, n₃] c h = ⟨⟨0, by simp⟩, ⟨c, hc⟩⟩ := by
  rw [locate, dif_pos hc]

/-- Where a position from the first extent on and below the first two falls: the second piece, the first extent less. -/
theorem locate_triple_snd (n₁ n₂ n₃ c : Nat) (h : c < [n₁, n₂, n₃].sum) (hc : n₁ ≤ c) (hc2 : c - n₁ < n₂) :
    locate [n₁, n₂, n₃] c h = ⟨⟨1, by simp⟩, ⟨c - n₁, hc2⟩⟩ := by
  rw [locate, dif_neg (Nat.not_lt.2 hc), locate, dif_pos hc2]
  rfl

/-- Where a position from the first two extents on falls: the third piece, the first two extents less. -/
theorem locate_triple_thd (n₁ n₂ n₃ c : Nat) (h : c < [n₁, n₂, n₃].sum) (hc : n₁ ≤ c) (hc2 : n₂ ≤ c - n₁) :
    locate [n₁, n₂, n₃] c h = ⟨⟨2, by simp⟩, ⟨c - n₁ - n₂, by simp at h ⊢; omega⟩⟩ := by
  have h3 : c - n₁ - n₂ < n₃ := by simp at h; omega
  rw [locate, dif_neg (Nat.not_lt.2 hc), locate, dif_neg (Nat.not_lt.2 hc2), locate, dif_pos h3]
  rfl

/-- The extent of a piece along the joined axis, as the definition of the join spells it. -/
private abbrev ext (t : Shape) (a : Fin t.rank) (s : Shape) : ℕ :=
  if h' : s.rank = t.rank then s.size (a.cast h'.symm) else 0

/-- A three-piece join at an index whose axis coordinate falls in the FIRST piece reads the first piece at the index
    with the same coordinates. -/
theorem concatenate_triple_apply_first {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank) (i : s₁.Idx)
    (hi : ∀ b : Fin s₁.rank, (i b).val = (j (b.cast hr₁)).val) :
    concatenate t a [⟨s₁, x₁⟩, ⟨s₂, x₂⟩, ⟨s₃, x₃⟩] h j = x₁ i := by
  have hlt : (j a).val < s₁.size (a.cast hr₁.symm) := by
    have := hi (a.cast hr₁.symm); have hb := (i (a.cast hr₁.symm)).isLt; simp at this; omega
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have HC : (j a).val < ext t a s₁ := by rw [hD₁]; exact hlt
  have HL := locate_triple_fst _ (ext t a s₂) (ext t a s₃) _ PF HC
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₁ i
  rw [HL]
  show x₁ _ = x₁ i
  congr 1
  funext b
  apply Fin.ext
  rw [hi b]
  split
  · next hb => rw [show Fin.cast hr₁ b = a from hb]; rfl
  · rfl

/-- A three-piece join at an index whose axis coordinate falls in the SECOND piece reads the second piece at the index
    with the same coordinates but on the axis, where it is the first piece's extent less. -/
theorem concatenate_triple_apply_second {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank)
    (hr₂' : s₂.rank = t.rank) (i : s₂.Idx)
    (hi : ∀ b : Fin s₂.rank, b.cast hr₂' ≠ a → (i b).val = (j (b.cast hr₂')).val)
    (ha : (i (a.cast hr₂'.symm)).val + s₁.size (a.cast hr₁.symm) = (j a).val) :
    concatenate t a [⟨s₁, x₁⟩, ⟨s₂, x₂⟩, ⟨s₃, x₃⟩] h j = x₂ i := by
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have hib := (i (a.cast hr₂'.symm)).isLt
  have HC : ext t a s₁ ≤ (j a).val := by rw [hD₁]; omega
  have HC2 : (j a).val - ext t a s₁ < ext t a s₂ := by rw [hD₁, hD₂]; omega
  have HL := locate_triple_snd _ _ (ext t a s₃) _ PF HC HC2
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₂ i
  rw [HL]
  show x₂ _ = x₂ i
  congr 1
  funext b
  apply Fin.ext
  split
  · next hb =>
    have eb : b = a.cast hr₂'.symm := Fin.ext (by have := congrArg Fin.val hb; simpa using this)
    subst eb
    show (j a).val - ext t a s₁ = _
    omega
  · next hb => exact (hi b hb).symm

/-- A three-piece join at an index whose axis coordinate falls in the THIRD piece reads the third piece at the index
    with the same coordinates but on the axis, where it is the first two pieces' extents less. -/
theorem concatenate_triple_apply_third {t s₁ s₂ s₃ : Shape} (a : Fin t.rank) (x₁ : s₁.Idx → α) (x₂ : s₂.Idx → α)
    (x₃ : s₃.Idx → α) (h : Shape.Concatenates [s₁, s₂, s₃] t a) (j : t.Idx) (hr₁ : s₁.rank = t.rank)
    (hr₂' : s₂.rank = t.rank) (hr₃' : s₃.rank = t.rank) (i : s₃.Idx)
    (hi : ∀ b : Fin s₃.rank, b.cast hr₃' ≠ a → (i b).val = (j (b.cast hr₃')).val)
    (ha : (i (a.cast hr₃'.symm)).val + s₁.size (a.cast hr₁.symm) + s₂.size (a.cast hr₂'.symm) = (j a).val) :
    concatenate t a [⟨s₁, x₁⟩, ⟨s₂, x₂⟩, ⟨s₃, x₃⟩] h j = x₃ i := by
  have hr₂ : s₂.rank = t.rank := (h.2.1 s₂ (by simp)).1
  have hr₃ : s₃.rank = t.rank := (h.2.1 s₃ (by simp)).1
  have PF : (j a).val < [ext t a s₁, ext t a s₂, ext t a s₃].sum := by
    have e := h.2.2; simp only [List.map] at e; have := (j a).isLt
    show (j a).val < [if h' : s₁.rank = t.rank then s₁.size (a.cast h'.symm) else 0,
      if h' : s₂.rank = t.rank then s₂.size (a.cast h'.symm) else 0,
      if h' : s₃.rank = t.rank then s₃.size (a.cast h'.symm) else 0].sum
    omega
  have hD₁ : ext t a s₁ = s₁.size (a.cast hr₁.symm) := dif_pos hr₁
  have hD₂ : ext t a s₂ = s₂.size (a.cast hr₂.symm) := dif_pos hr₂
  have hD₃ : ext t a s₃ = s₃.size (a.cast hr₃.symm) := dif_pos hr₃
  let xs : List ((s : Shape) × (s.Idx → α)) := [⟨s₁, x₁⟩, ⟨s₂, x₂⟩, ⟨s₃, x₃⟩]
  have HR : ∀ (kr : (k : Fin 3) × Fin ([ext t a s₁, ext t a s₂, ext t a s₃][k])), (xs[kr.1.val]'(by simp [xs])).1.rank = t.rank := fun kr => by
    match kr with
    | ⟨⟨0, _⟩, _⟩ => exact hr₁
    | ⟨⟨1, _⟩, _⟩ => exact hr₂
    | ⟨⟨2, _⟩, _⟩ => exact hr₃
  have HK : ∀ (kr : (k : Fin 3) × Fin ([ext t a s₁, ext t a s₂, ext t a s₃][k])), ∀ b : Fin (xs[kr.1.val]'(by simp [xs])).1.rank, b.cast (HR kr) = a →
      [ext t a s₁, ext t a s₂, ext t a s₃][kr.1] = (xs[kr.1.val]'(by simp [xs])).1.size b := fun kr b hb => by
    have eb : b = a.cast (HR kr).symm := Fin.ext (by have := congrArg Fin.val hb; simpa using this)
    subst eb
    match kr with
    | ⟨⟨0, _⟩, _⟩ => simp [xs, ext, dif_pos hr₁]
    | ⟨⟨1, _⟩, _⟩ => simp [xs, ext, dif_pos hr₂]
    | ⟨⟨2, _⟩, _⟩ => simp [xs, ext, dif_pos hr₃]
  have HB : ∀ (kr : (k : Fin 3) × Fin ([ext t a s₁, ext t a s₂, ext t a s₃][k])), ∀ b : Fin (xs[kr.1.val]'(by simp [xs])).1.rank, b.cast (HR kr) ≠ a →
      t.size (b.cast (HR kr)) = (xs[kr.1.val]'(by simp [xs])).1.size b := fun kr b hb => by
    have hm : (xs[kr.1.val]'(by simp [xs])).1 ∈ [s₁, s₂, s₃] := by
      match kr with
      | ⟨⟨0, _⟩, _⟩ => simp [xs]
      | ⟨⟨1, _⟩, _⟩ => simp [xs]
      | ⟨⟨2, _⟩, _⟩ => simp [xs]
    have := (h.2.1 _ hm).2 (b.cast (HR kr)) hb
    simpa using this.symm
  have HC : ext t a s₁ ≤ (j a).val := by rw [hD₁]; omega
  have HC2 : ext t a s₂ ≤ (j a).val - ext t a s₁ := by rw [hD₁, hD₂]; omega
  have HL := locate_triple_thd _ _ (ext t a s₃) _ PF HC HC2
  show (fun (kr : (k : Fin 3) × Fin ([ext t a s₁, ext t a s₂, ext t a s₃][k])) =>
      (xs[kr.1.val]'(by simp [xs])).2 (fun b => if hb : b.cast (HR kr) = a then kr.2.cast (HK kr b hb) else (j (b.cast (HR kr))).cast (HB kr b hb)))
      (locate _ (j a).val PF) = x₃ i
  rw [HL]
  show x₃ _ = x₃ i
  congr 1
  funext b
  apply Fin.ext
  split
  · next hb =>
    have eb : b = a.cast hr₃'.symm := Fin.ext (by have := congrArg Fin.val hb; simpa using this)
    subst eb
    show (j a).val - ext t a s₁ - ext t a s₂ = _
    omega
  · next hb => exact (hi b hb).symm

/-! ## Three vectors end to end -/

/-- Three vectors end to end: entry `k'` below the first length is the first vector's. -/
theorem cat3_vec_first {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin a) (k' : Fin n) (hk : k'.val = k.val) :
    concatenate ⟨1, ![n]⟩ 0 [⟨⟨1, ![a]⟩, x⟩, ⟨⟨1, ![b]⟩, y⟩, ⟨⟨1, ![c]⟩, z⟩] h (ix1 k') = x (ix1 k) := by
  refine concatenate_triple_apply_first (0 : Fin 1) x y z h (ix1 k') rfl (ix1 k) fun b' => ?_
  match b' with
  | ⟨0, _⟩ => exact hk.symm

/-- Three vectors end to end: entry `a + k` is the second vector's entry `k`. -/
theorem cat3_vec_second {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin b) (k' : Fin n) (hk : k'.val = a + k.val) :
    concatenate ⟨1, ![n]⟩ 0 [⟨⟨1, ![a]⟩, x⟩, ⟨⟨1, ![b]⟩, y⟩, ⟨⟨1, ![c]⟩, z⟩] h (ix1 k') = y (ix1 k) := by
  refine concatenate_triple_apply_second (0 : Fin 1) x y z h (ix1 k') rfl rfl (ix1 k) (fun b' hb => ?_) ?_
  · match b' with
    | ⟨0, _⟩ => exact absurd rfl hb
  · show k.val + a = k'.val
    omega

/-- Three vectors end to end: entry `a + b + k` is the third vector's entry `k`. -/
theorem cat3_vec_third {a b c n : ℕ} (x : (⟨1, ![a]⟩ : Shape).Idx → α) (y : (⟨1, ![b]⟩ : Shape).Idx → α)
    (z : (⟨1, ![c]⟩ : Shape).Idx → α) (h : Shape.Concatenates [⟨1, ![a]⟩, ⟨1, ![b]⟩, ⟨1, ![c]⟩] ⟨1, ![n]⟩ 0)
    (k : Fin c) (k' : Fin n) (hk : k'.val = a + b + k.val) :
    concatenate ⟨1, ![n]⟩ 0 [⟨⟨1, ![a]⟩, x⟩, ⟨⟨1, ![b]⟩, y⟩, ⟨⟨1, ![c]⟩, z⟩] h (ix1 k') = z (ix1 k) := by
  refine concatenate_triple_apply_third (0 : Fin 1) x y z h (ix1 k') rfl rfl rfl (ix1 k) (fun b' hb => ?_) ?_
  · match b' with
    | ⟨0, _⟩ => exact absurd rfl hb
  · show k.val + a + b = k'.val
    omega

end Cert.LibTripleJoin

end
-- ==== Proof.RefSide.lean ====
/-
  The reference program read at an index, at the extended reals.

  The reference forms, for every edge, the joined row [na(row s) | na(row d) | ea(e)] of 48 features (the two node
  rows picked by the edge's source and destination words, wrapped and clamped the way array indexing does, then the
  edge's own attributes), multiplies it by the 48 x 20 weight, adds the bias and rectifies. Read at edge e and
  feature h, the product is a sum over 48 positions that falls into three sums over 16 positions, one per piece of
  the joined row: the message pre-activation of the specification. The node layer after the scatter is a product
  with a 20 x 10 weight, a bias and a rectifier, read at (p, q) the same way.
-/
import proofs.«140300_j64630667870273_2_alg».proof.Proof.Gen.ReferenceIdeal.Read
import proofs.«140300_j64630667870273_2_alg».proof.Proof.Spec
import proofs.«140300_j64630667870273_2_alg».proof.Proof.LibWrapGather
import proofs.«140300_j64630667870273_2_alg».proof.Proof.LibTripleJoin
import proofs.«140300_j64630667870273_2_alg».proof.Proof.LibBlocks

noncomputable section

namespace Cert.RefSide

open Cert.ReferenceIdeal Cert.ReferenceIdeal.Gen Cert.ReferenceIdeal.Read
open Idealize.ShloMosaic Idealize.ShloMosaic.ValueIdx
open Cert.LibWrapGather Cert.LibTripleJoin Cert.LibBlocks
open scoped BigOperators

/-! ## The two rows of the edge index -/

/-- Row 0 of the edge index, as a vector: entry e is the source word of edge e. -/
theorem src_word (x0 : (⟨S2x1600000, .i32⟩ : BufTy).Contents (Elt Ideal)) (e : Fin 1600000) :
    val_main_v1 (F := Ideal) x0 (ix1 e) = x0 (ix2 0 e) := by
  rw [val_main_v1_apply, val_main_v0_apply]
  refine congrArg x0 (funext fun a => Fin.ext ?_)
  match a with
  | ⟨0, _⟩ => rfl
  | ⟨1, _⟩ => exact Nat.mod_eq_of_lt e.isLt

/-- Row 1 of the edge index, as a vector: entry e is the destination word of edge e. -/
theorem dst_word (x0 : (⟨S2x1600000, .i32⟩ : BufTy).Contents (Elt Ideal)) (e : Fin 1600000) :
    val_main_v3 (F := Ideal) x0 (ix1 e) = x0 (ix2 1 e) := by
  rw [val_main_v3_apply, val_main_v2_apply]
  refine congrArg x0 (funext fun a => Fin.ext ?_)
  match a with
  | ⟨0, _⟩ => rfl
  | ⟨1, _⟩ => exact Nat.mod_eq_of_lt e.isLt

/-! ## The two gathers -/

/-- The node rows picked by the source words: entry (e, c) is the node table at the row the source word selects. -/
theorem v10_apply (x0 : (⟨S2x1600000, .i32⟩ : BufTy).Contents (Elt Ideal))
    (x1 : (⟨S100000x16, .f32⟩ : BufTy).Contents (Elt Ideal)) (e : Fin 1600000) (c : Fin 16) :
    val_main_v10 (F := Ideal) x0 x1 (ix2 e c) = x1 (ix2 (Cert.Spec.row (x0 (ix2 0 e))) c) := by
  unfold val_main_v10 val_main_v9 val_main_v8 val_main_v5 val_main_v7
  refine (gather_rows_wrap_apply (N := 100000) (R := 1600000) (C := 16) (by norm_num)
    gather_S100000x16_S1600000x1_S1600000x16_1_0_n_n_0_1_116 rfl rfl rfl rfl rfl rfl rfl x1
    (val_main_v1 (F := Ideal) x0) (val_main_v4 (F := Ideal)) (val_main_v6 (F := Ideal))
    bcast_S1600000_S1600000x1_0 e c ?_ ?_).trans ?_
  · exact (val_main_v4_apply _).trans (val_main_c_apply _)
  · exact (val_main_v6_apply _).trans (val_main_c_0_apply _)
  · exact congrArg (fun v : BitVec 32 => x1 (ix2 (pickRow 100000 (by norm_num) v) c)) (src_word x0 e)

/-- The node rows picked by the destination words. -/
theorem v17_apply (x0 : (⟨S2x1600000, .i32⟩ : BufTy).Contents (Elt Ideal))
    (x1 : (⟨S100000x16, .f32⟩ : BufTy).Contents (Elt Ideal)) (e : Fin 1600000) (c : Fin 16) :
    val_main_v17 (F := Ideal) x0 x1 (ix2 e c) = x1 (ix2 (Cert.Spec.row (x0 (ix2 1 e))) c) := by
  unfold val_main_v17 val_main_v16 val_main_v15 val_main_v12 val_main_v14
  refine (gather_rows_wrap_apply (N := 100000) (R := 1600000) (C := 16) (by norm_num)
    gather_S100000x16_S1600000x1_S1600000x16_1_0_n_n_0_1_116 rfl rfl rfl rfl rfl rfl rfl x1
    (val_main_v3 (F := Ideal) x0) (val_main_v11 (F := Ideal)) (val_main_v13 (F := Ideal))
    bcast_S1600000_S1600000x1_0 e c ?_ ?_).trans ?_
  · exact (val_main_v11_apply _).trans (val_main_c_1_apply _)
  · exact (val_main_v13_apply _).trans (val_main_c_2_apply _)
  · exact congrArg (fun v : BitVec 32 => x1 (ix2 (pickRow 100000 (by norm_num) v) c)) (dst_word x0 e)

/-! ## The joined row -/

/-- A column of the joined row below 16 is the source node row's column. -/
theorem v18_first (x0 : (⟨S2x1600000, .i32⟩ : BufTy).Contents (Elt Ideal))
    (x1 : (⟨S100000x16, .f32⟩ : BufTy).Contents (Elt Ideal)) (x2 : (⟨S1600000x16, .f32⟩ : BufTy).Contents (Elt Ideal))
    (e : Fin 1600000) (k : Fin 16) (k' : Fin 48) (hk : k'.val = k.val) :
    val_main_v18 (F := Ideal) x0 x1 x2 (ix2 e k') = val_main_v10 (F := Ideal) x0 x1 (ix2 e k) := by
  unfold val_main_v18
  generalize val_main_v10 (F := Ideal) x0 x1 = y1
  generalize val_main_v17 (F := Ideal) x0 x1 = y2
  refine concatenate_triple_apply_first (1 : Fin 2) y1 y2 x2
    concatenates_S1600000x16_S1600000x16_S1600000x16_S1600000x48_d1 (ix2 e k') rfl (ix2 e k) fun b => ?_
  match b with
  | ⟨0, _⟩ => rfl
  | ⟨1, _⟩ => exact hk.symm

/-- A column of the joined row from 16 and below 32 is the destination node row's column, 16 less. -/
theorem v18_second (x0 : (⟨S2x1600000, .i32⟩ : BufTy).Contents (Elt Ideal))
    (x1 : (⟨S100000x16, .f32⟩ : BufTy).Contents (Elt Ideal)) (x2 : (⟨S1600000x16, .f32⟩ : BufTy).Contents (Elt Ideal))
    (e : Fin 1600000) (k : Fin 16) (k' : Fin 48) (hk : k'.val = 16 + k.val) :
    val_main_v18 (F := Ideal) x0 x1 x2 (ix2 e k') = val_main_v17 (F := Ideal) x0 x1 (ix2 e k) := by
  unfold val_main_v18
  generalize val_main_v10 (F := Ideal) x0 x1 = y1
  generalize val_main_v17 (F := Ideal) x0 x1 = y2
  refine concatenate_triple_apply_second (1 : Fin 2) y1 y2 x2
    concatenates_S1600000x16_S1600000x16_S1600000x16_S1600000x48_d1 (ix2 e k') rfl rfl (ix2 e k) (fun b hb => ?_) ?_
  · match b with
    | ⟨0, _⟩ => rfl
    | ⟨1, _⟩ => exact absurd rfl hb
  · show k.val + 16 = k'.val
    omega

/-- A column of the joined row from 32 on is the edge's own attribute, 32 less. -/
theorem v18_third (x0 : (⟨S2x1600000, .i32⟩ : BufTy).Contents (Elt Ideal))
    (x1 : (⟨S100000x16, .f32⟩ : BufTy).Contents (Elt Ideal)) (x2 : (⟨S1600000x16, .f32⟩ : BufTy).Contents (Elt Ideal))
    (e : Fin 1600000) (k : Fin 16) (k' : Fin 48) (hk : k'.val = 32 + k.val) :
    val_main_v18 (F := Ideal) x0 x1 x2 (ix2 e k') = x2 (ix2 e k) := by
  unfold val_main_v18
  generalize val_main_v10 (F := Ideal) x0 x1 = y1
  generalize val_main_v17 (F := Ideal) x0 x1 = y2
  refine concatenate_triple_apply_third (1 : Fin 2) y1 y2 x2
    concatenates_S1600000x16_S1600000x16_S1600000x16_S1600000x48_d1 (ix2 e k') rfl rfl rfl (ix2 e k) (fun b hb => ?_) ?_
  · match b with
    | ⟨0, _⟩ => rfl
    | ⟨1, _⟩ => exact absurd rfl hb
  · show k.val + 16 + 16 = k'.val
    omega

/-! ## The product, the bias, the sum cut in three -/

/-- The product of the joined rows with the weight at (e, h). -/
theorem v19_apply (x0 : (⟨S2x1600000, .i32⟩ : BufTy).Contents (Elt Ideal))
    (x1 : (⟨S100000x16, .f32⟩ : BufTy).Contents (Elt Ideal)) (x2 : (⟨S1600000x16, .f32⟩ : BufTy).Contents (Elt Ideal))
    (x4 : (⟨S48x20, .f32⟩ : BufTy).Contents (Elt Ideal)) (e : Fin 1600000) (h : Fin 20) :
    val_main_v19 (F := Ideal) x0 x1 x2 x4 (ix2 e h)
      = ∑ k : Fin 48, val_main_v18 (F := Ideal) x0 x1 x2 (ix2 e k) * x4 (ix2 k h) := by
  rw [val_main_v19_apply]
  refine Finset.sum_congr rfl fun k _ => ?_
  have el : lidx_main_v19 (ix2 e h) k = ix2 e k := funext fun a => Fin.ext (by
    match a with
    | ⟨0, _⟩ => rfl
    | ⟨1, _⟩ => rfl)
  have er : ridx_main_v19 (ix2 e h) k = ix2 k h := funext fun a => Fin.ext (by
    match a with
    | ⟨0, _⟩ => rfl
    | ⟨1, _⟩ => rfl)
  rw [el, er]

/-- The bias laid out as a row and repeated over the edges reads, at (e, h), the bias at h. -/
theorem v21_apply (x5 : (⟨S20, .f32⟩ : BufTy).Contents (Elt Ideal)) (e : Fin 1600000) (h : Fin 20) :
    val_main_v21 (F := Ideal) x5 (ix2 e h) = x5 (ix1 h) := by
  rw [val_main_v21_apply, val_main_v20_apply]
  refine congrArg x5 (funext fun a => Fin.ext ?_)
  match a with
  | ⟨0, _⟩ => rfl

/-- A sum over 48 positions is the sum of three sums over 16 positions. -/
theorem sum_fin48 {M : Type*} [AddCommMonoid M] (g : Fin 48 → M) :
    ∑ k, g k = ((∑ k : Fin 16, g ⟨0 + k.val, by have := k.isLt; omega⟩)
        + ∑ k : Fin 16, g ⟨16 + k.val, by have := k.isLt; omega⟩)
      + ∑ k : Fin 16, g ⟨32 + k.val, by have := k.isLt; omega⟩ := by
  have h := sum_entries (A := 3) (B := 16) g
  rw [h, Fin.sum_univ_three]
  refine congrArg₂ (· + ·) (congrArg₂ (· + ·) ?_ ?_) ?_
  · exact Finset.sum_congr rfl fun b _ => congrArg g (Fin.ext (by show 0 * 16 + b.val = 0 + b.val; omega))
  · exact Finset.sum_congr rfl fun b _ => congrArg g (Fin.ext (by show 1 * 16 + b.val = 16 + b.val; omega))
  · exact Finset.sum_congr rfl fun b _ => congrArg g (Fin.ext (by show 2 * 16 + b.val = 32 + b.val; omega))

/-! ## The message before the rectifier -/

/-- THE REFERENCE'S PRE-ACTIVATION IS THE SPECIFICATION'S: the product of the joined row with the weight, cut where the
    three pieces meet, plus the bias. -/
theorem ref_pre (x0 : (⟨S2x1600000, .i32⟩ : BufTy).Contents (Elt Ideal))
    (x1 : (⟨S100000x16, .f32⟩ : BufTy).Contents (Elt Ideal)) (x2 : (⟨S1600000x16, .f32⟩ : BufTy).Contents (Elt Ideal))
    (x4 : (⟨S48x20, .f32⟩ : BufTy).Contents (Elt Ideal)) (x5 : (⟨S20, .f32⟩ : BufTy).Contents (Elt Ideal))
    (e : Fin 1600000) (h : Fin 20) :
    val_main_v22 (F := Ideal) x0 x1 x2 x4 x5 (ix2 e h) = Cert.Spec.pre x0 x1 x2 x4 x5 e h := by
  rw [val_main_v22_apply, v19_apply, v21_apply, Ideal.addf_def, sum_fin48]
  unfold Cert.Spec.pre Cert.Spec.nodePart Cert.Spec.edgePart
  refine congrArg₂ (· + ·) (congrArg₂ (· + ·) (congrArg₂ (· + ·) ?_ ?_) ?_) rfl
  · refine Finset.sum_congr rfl fun k _ => ?_
    exact congrArg (· * x4 (ix2 ⟨0 + k.val, by have := k.isLt; omega⟩ h))
      ((v18_first x0 x1 x2 e k _ (Nat.zero_add _)).trans (v10_apply x0 x1 e k))
  · refine Finset.sum_congr rfl fun k _ => ?_
    exact congrArg (· * x4 (ix2 ⟨16 + k.val, by have := k.isLt; omega⟩ h))
      ((v18_second x0 x1 x2 e k _ rfl).trans (v17_apply x0 x1 e k))
  · refine Finset.sum_congr rfl fun k _ => ?_
    exact congrArg (· * x4 (ix2 ⟨32 + k.val, by have := k.isLt; omega⟩ h))
      (v18_third x0 x1 x2 e k _ rfl)

/-! ## The message, and the node layer after the scatter -/

/-- THE REFERENCE'S MESSAGE: the pre-activation rectified against the f32 zero word. -/
theorem ref_msg (x0 : (⟨S2x1600000, .i32⟩ : BufTy).Contents (Elt Ideal))
    (x1 : (⟨S100000x16, .f32⟩ : BufTy).Contents (Elt Ideal)) (x2 : (⟨S1600000x16, .f32⟩ : BufTy).Contents (Elt Ideal))
    (x4 : (⟨S48x20, .f32⟩ : BufTy).Contents (Elt Ideal)) (x5 : (⟨S20, .f32⟩ : BufTy).Contents (Elt Ideal))
    (e : Fin 1600000) (h : Fin 20) :
    val_main_v23 (F := Ideal) x0 x1 x2 x4 x5 (ix2 e h)
      = max (Cert.Spec.pre x0 x1 x2 x4 x5 e h) (Ideal.ofBits .f32 0x00000000#32) := by
  rw [val_main_v23_apply, val_main_call0_v0_apply, val_main_call0_cst_apply, ref_pre, Ideal.maximumf_def,
    Ideal.ofBits_def]

/-- The same with the zero word read as the number zero. -/
theorem ref_msg_zero (x0 : (⟨S2x1600000, .i32⟩ : BufTy).Contents (Elt Ideal))
    (x1 : (⟨S100000x16, .f32⟩ : BufTy).Contents (Elt Ideal)) (x2 : (⟨S1600000x16, .f32⟩ : BufTy).Contents (Elt Ideal))
    (x4 : (⟨S48x20, .f32⟩ : BufTy).Contents (Elt Ideal)) (x5 : (⟨S20, .f32⟩ : BufTy).Contents (Elt Ideal))
    (e : Fin 1600000) (h : Fin 20) :
    val_main_v23 (F := Ideal) x0 x1 x2 x4 x5 (ix2 e h) = max (Cert.Spec.pre x0 x1 x2 x4 x5 e h) 0 := by
  rw [ref_msg, Ideal.ofBits_zero_f32]

/-- The product of the summed messages with the node weight at (p, q). -/
theorem v27_apply (x0 : (⟨S2x1600000, .i32⟩ : BufTy).Contents (Elt Ideal))
    (x1 : (⟨S100000x16, .f32⟩ : BufTy).Contents (Elt Ideal)) (x2 : (⟨S1600000x16, .f32⟩ : BufTy).Contents (Elt Ideal))
    (x4 : (⟨S48x20, .f32⟩ : BufTy).Contents (Elt Ideal)) (x5 : (⟨S20, .f32⟩ : BufTy).Contents (Elt Ideal))
    (x6 : (⟨S20x10, .f32⟩ : BufTy).Contents (Elt Ideal)) (p : Fin 100000) (q : Fin 10) :
    val_main_v27 (F := Ideal) x0 x1 x2 x4 x5 x6 (ix2 p q)
      = ∑ k : Fin 20, val_main_v26 (F := Ideal) x0 x1 x2 x4 x5 (ix2 p k) * x6 (ix2 k q) := by
  rw [val_main_v27_apply]
  generalize val_main_v26 (F := Ideal) x0 x1 x2 x4 x5 = y
  refine Finset.sum_congr rfl fun k _ => ?_
  have el : lidx_main_v27 (ix2 p q) k = ix2 p k := funext fun a => Fin.ext (by
    match a with
    | ⟨0, _⟩ => rfl
    | ⟨1, _⟩ => rfl)
  have er : ridx_main_v27 (ix2 p q) k = ix2 k q := funext fun a => Fin.ext (by
    match a with
    | ⟨0, _⟩ => rfl
    | ⟨1, _⟩ => rfl)
  rw [el, er]

/-- The node bias laid out as a row and repeated over the nodes reads, at (p, q), the bias at q. -/
theorem v29_apply (x7 : (⟨S10, .f32⟩ : BufTy).Contents (Elt Ideal)) (p : Fin 100000) (q : Fin 10) :
    val_main_v29 (F := Ideal) x7 (ix2 p q) = x7 (ix1 q) := by
  rw [val_main_v29_apply, val_main_v28_apply]
  refine congrArg x7 (funext fun a => Fin.ext ?_)
  match a with
  | ⟨0, _⟩ => rfl

/-- THE REFERENCE'S NODE LAYER: the summed messages times the node weight, plus the bias, rectified. -/
theorem ref_node (x0 : (⟨S2x1600000, .i32⟩ : BufTy).Contents (Elt Ideal))
    (x1 : (⟨S100000x16, .f32⟩ : BufTy).Contents (Elt Ideal)) (x2 : (⟨S1600000x16, .f32⟩ : BufTy).Contents (Elt Ideal))
    (x4 : (⟨S48x20, .f32⟩ : BufTy).Contents (Elt Ideal)) (x5 : (⟨S20, .f32⟩ : BufTy).Contents (Elt Ideal))
    (x6 : (⟨S20x10, .f32⟩ : BufTy).Contents (Elt Ideal)) (x7 : (⟨S10, .f32⟩ : BufTy).Contents (Elt Ideal))
    (p : Fin 100000) (q : Fin 10) :
    val_main_v31 (F := Ideal) x0 x1 x2 x4 x5 x6 x7 (ix2 p q)
      = max ((∑ k : Fin 20, val_main_v26 (F := Ideal) x0 x1 x2 x4 x5 (ix2 p k) * x6 (ix2 k q)) + x7 (ix1 q))
          (Ideal.ofBits .f32 0x00000000#32) := by
  rw [val_main_v31_apply, val_main_v30_apply, v27_apply, v29_apply, val_main_call1_v0_apply,
    val_main_call1_cst_apply, Ideal.maximumf_def, Ideal.addf_def, Ideal.ofBits_def]

end Cert.RefSide

end
-- ==== Proof.RefTail.lean ====
/-
  Two stretches of the reference computation are the functions the other program's host operations apply.

  The reference adds each edge's message row into the row of its destination node, starting from zeros, the
  destinations being row 1 of the edge index read as a vector of words; and it ends with the sum of the node features
  over graphs followed by a dense layer with a rectifier and a dense layer to one output. Operation by operation these
  are the same array operations, with the same dimension numbers, as the sum into the nodes and the readout named on the
  other side: the two spellings differ only in which copy of a shape, of a side condition or of a record of dimension
  numbers they cite, and the copies are equal (the shapes are the same literals, the records have the same fields, and
  side conditions are propositions). So each stretch equals the named function of the arrays it reads, and nothing
  about what the operations compute is needed.
-/
import proofs.«140300_j64630667870273_2_alg».proof.Proof.Gen.ReferenceIdeal.Read
import proofs.«140300_j64630667870273_2_alg».proof.Proof.KernelFoldMsg
import proofs.«140300_j64630667870273_2_alg».proof.Proof.KernelFoldTail
import proofs.«140300_j64630667870273_2_alg».proof.Proof.KernelFold

set_option maxRecDepth 16384

noncomputable section

namespace Cert.RefTail

open Idealize.ShloMosaic Idealize.ShloMosaic.StableHlo

/-! ## The records of dimension numbers cited on the two sides are equal -/

theorem scatter_nodes_eq :
    Cert.ReferenceIdeal.scatter_S100000x20_S1600000x1_S1600000x20_1_0_0_1 = Cert.KernelIdeal.scatter_S100000x20_S1600000x1_S1600000x20_1_0_0_1 := rfl

theorem scatter_graphs_eq :
    Cert.ReferenceIdeal.scatter_S5000x10_S100000x1_S100000x10_1_0_0_1 = Cert.KernelIdeal.scatter_S5000x10_S100000x1_S100000x10_1_0_0_1 := rfl

theorem dot_w2_eq :
    Cert.ReferenceIdeal.dot_S5000x10_S10x10_S5000x10_1_0_0_1_n_n = Cert.KernelIdeal.dot_S5000x10_S10x10_S5000x10_1_0_0_1_n_n := rfl

theorem dot_w3_eq :
    Cert.ReferenceIdeal.dot_S5000x10_S10x1_S5000x1_1_0_0_1_n_n = Cert.KernelIdeal.dot_S5000x10_S10x1_S5000x1_1_0_0_1_n_n := rfl

/-! ## The sum into the nodes -/

/-- The reference's zeros of the node array are the other side's. -/
theorem zeros_nodes_eq :
    (Cert.ReferenceIdeal.Read.val_main_v24 (F := Ideal) : (⟨Cert.ReferenceIdeal.S100000x20, .f32⟩ : BufTy).Contents (Elt Ideal))
      = (broadcastInDim Cert.KernelIdeal.S100000x20 ![] Cert.KernelIdeal.Facts₀.bcast_S_S100000x20 (constant (F := Ideal) Cert.KernelIdeal.S_ .f32 0x00000000#32) :
          (⟨Cert.KernelIdeal.S100000x20, .f32⟩ : BufTy).Contents (Elt Ideal)) := rfl

/-- The reference's column of destination words is the column of row 1 of the edge index. -/
theorem dest_column_eq (x0 : (⟨Cert.ReferenceIdeal.S2x1600000, .i32⟩ : BufTy).Contents (Elt Ideal)) :
    Cert.ReferenceIdeal.Read.val_main_v25 (F := Ideal) x0
      = broadcastInDim Cert.KernelIdeal.S1600000x1 ![0] Cert.KernelIdeal.Facts₀.bcast_S1600000_S1600000x1_0
          (Cert.KernelIdeal.Fold.wordsOf (F := Ideal) x0 1 Cert.KernelIdeal.Facts₀.slices_S2x1600000_S1x1600000_1_0) := rfl

/-- (1) THE REFERENCE'S NODE SUMS are the sum into the nodes of its messages at the destination words. -/
theorem ref_nodes
    (x0 : (⟨Cert.ReferenceIdeal.S2x1600000, .i32⟩ : BufTy).Contents (Elt Ideal))
    (x1 : (⟨Cert.ReferenceIdeal.S100000x16, .f32⟩ : BufTy).Contents (Elt Ideal))
    (x2 : (⟨Cert.ReferenceIdeal.S1600000x16, .f32⟩ : BufTy).Contents (Elt Ideal))
    (x4 : (⟨Cert.ReferenceIdeal.S48x20, .f32⟩ : BufTy).Contents (Elt Ideal))
    (x5 : (⟨Cert.ReferenceIdeal.S20, .f32⟩ : BufTy).Contents (Elt Ideal)) :
    Cert.ReferenceIdeal.Read.val_main_v26 (F := Ideal) x0 x1 x2 x4 x5
      = Cert.KernelIdeal.FoldMsg.sumToNodes (F := Ideal)
          (Cert.KernelIdeal.Fold.wordsOf (F := Ideal) x0 1 Cert.KernelIdeal.Facts₀.slices_S2x1600000_S1x1600000_1_0)
          (Cert.ReferenceIdeal.Read.val_main_v23 (F := Ideal) x0 x1 x2 x4 x5) := by
  unfold Cert.ReferenceIdeal.Read.val_main_v26 Cert.KernelIdeal.FoldMsg.sumToNodes
  generalize Cert.ReferenceIdeal.Read.val_main_v23 (F := Ideal) x0 x1 x2 x4 x5 = M
  rw [zeros_nodes_eq, dest_column_eq, scatter_nodes_eq]

/-! ## The readout -/

/-- The reference's zeros of the graph array are the other side's. -/
theorem zeros_graphs_eq :
    (Cert.ReferenceIdeal.Read.val_main_v32 (F := Ideal) : (⟨Cert.ReferenceIdeal.S5000x10, .f32⟩ : BufTy).Contents (Elt Ideal))
      = (broadcastInDim Cert.KernelIdeal.S5000x10 ![] Cert.KernelIdeal.Facts₀.bcast_S_S5000x10 (constant (F := Ideal) Cert.KernelIdeal.S_ .f32 0x00000000#32) :
          (⟨Cert.KernelIdeal.S5000x10, .f32⟩ : BufTy).Contents (Elt Ideal)) := rfl

/-- The reference's column of graph numbers is the other side's. -/
theorem batch_column_eq (x3 : (⟨Cert.ReferenceIdeal.S100000, .i32⟩ : BufTy).Contents (Elt Ideal)) :
    Cert.ReferenceIdeal.Read.val_main_v33 (F := Ideal) x3
      = broadcastInDim Cert.KernelIdeal.S100000x1 ![0] Cert.KernelIdeal.Facts₀.bcast_S100000_S100000x1_0 x3 := rfl

/-- The first dense layer's bias, repeated over the graphs. -/
theorem bias2_eq (x9 : (⟨Cert.ReferenceIdeal.S10, .f32⟩ : BufTy).Contents (Elt Ideal)) :
    Cert.ReferenceIdeal.Read.val_main_v37 (F := Ideal) x9
      = broadcastInDim Cert.KernelIdeal.S5000x10 ![0, 1] Cert.KernelIdeal.Facts₀.bcast_S1x10_S5000x10_0_1
          (broadcastInDim Cert.KernelIdeal.S1x10 ![1] Cert.KernelIdeal.Facts₀.bcast_S10_S1x10_1 x9) := rfl

/-- The rectifier's zeros over the graph array. -/
theorem zeros_relu_eq :
    (Cert.ReferenceIdeal.Read.val_main_call2_v0 (F := Ideal) : (⟨Cert.ReferenceIdeal.S5000x10, .f32⟩ : BufTy).Contents (Elt Ideal))
      = (broadcastInDim Cert.KernelIdeal.S5000x10 ![] Cert.KernelIdeal.Facts₀.bcast_S_S5000x10 (constant (F := Ideal) Cert.KernelIdeal.S_ .f32 0x00000000#32) :
          (⟨Cert.KernelIdeal.S5000x10, .f32⟩ : BufTy).Contents (Elt Ideal)) := rfl

/-- The second dense layer's bias, repeated over the graphs. -/
theorem bias3_eq (x11 : (⟨Cert.ReferenceIdeal.S1, .f32⟩ : BufTy).Contents (Elt Ideal)) :
    Cert.ReferenceIdeal.Read.val_main_v42 (F := Ideal) x11
      = broadcastInDim Cert.KernelIdeal.S5000x1 ![0, 1] Cert.KernelIdeal.Facts₀.bcast_S1x1_S5000x1_0_1
          (broadcastInDim Cert.KernelIdeal.S1x1 ![1] Cert.KernelIdeal.Facts₀.bcast_S1_S1x1_1 x11) := rfl

/-- (2) THE REFERENCE'S RESULT is the readout of its node features. -/
theorem ref_readout
    (x0 : (⟨Cert.ReferenceIdeal.S2x1600000, .i32⟩ : BufTy).Contents (Elt Ideal))
    (x1 : (⟨Cert.ReferenceIdeal.S100000x16, .f32⟩ : BufTy).Contents (Elt Ideal))
    (x2 : (⟨Cert.ReferenceIdeal.S1600000x16, .f32⟩ : BufTy).Contents (Elt Ideal))
    (x3 : (⟨Cert.ReferenceIdeal.S100000, .i32⟩ : BufTy).Contents (Elt Ideal))
    (x4 : (⟨Cert.ReferenceIdeal.S48x20, .f32⟩ : BufTy).Contents (Elt Ideal))
    (x5 : (⟨Cert.ReferenceIdeal.S20, .f32⟩ : BufTy).Contents (Elt Ideal))
    (x6 : (⟨Cert.ReferenceIdeal.S20x10, .f32⟩ : BufTy).Contents (Elt Ideal))
    (x7 : (⟨Cert.ReferenceIdeal.S10, .f32⟩ : BufTy).Contents (Elt Ideal))
    (x8 : (⟨Cert.ReferenceIdeal.S10x10, .f32⟩ : BufTy).Contents (Elt Ideal))
    (x9 : (⟨Cert.ReferenceIdeal.S10, .f32⟩ : BufTy).Contents (Elt Ideal))
    (x10 : (⟨Cert.ReferenceIdeal.S10x1, .f32⟩ : BufTy).Contents (Elt Ideal))
    (x11 : (⟨Cert.ReferenceIdeal.S1, .f32⟩ : BufTy).Contents (Elt Ideal)) :
    Cert.ReferenceIdeal.Read.val_main_v43 (F := Ideal) x0 x1 x2 x3 x4 x5 x6 x7 x8 x9 x10 x11
      = Cert.KernelIdeal.FoldTail.readout (F := Ideal) (Cert.ReferenceIdeal.Read.val_main_v31 (F := Ideal) x0 x1 x2 x4 x5 x6 x7) x3 x8 x9 x10 x11 := by
  unfold Cert.ReferenceIdeal.Read.val_main_v43 Cert.ReferenceIdeal.Read.val_main_v40 Cert.ReferenceIdeal.Read.val_main_v39 Cert.ReferenceIdeal.Read.val_main_v38 Cert.ReferenceIdeal.Read.val_main_v35
    Cert.ReferenceIdeal.Read.val_main_v34 Cert.KernelIdeal.FoldTail.readout
  generalize Cert.ReferenceIdeal.Read.val_main_v31 (F := Ideal) x0 x1 x2 x4 x5 x6 x7 = H
  rw [bias3_eq, zeros_relu_eq, bias2_eq, zeros_graphs_eq, batch_column_eq, dot_w3_eq, dot_w2_eq, scatter_graphs_eq]

end Cert.RefTail

end
-- ==== Proof.Bridge.lean ====
/-
  The two programs compute one function.

  Both end with the same readout of the node features; both get the node features by the same dense layer and
  rectifier from the messages summed into their destination nodes; and both sum the same rectified pre-activations,
  the number `Spec.pre` at each edge and feature — the reference as one 48-wide product of the joined row, the kernel as
  two gathers from the once-projected node table plus the unpacked block-diagonal edge product. So the kernel's result
  buffer at the return holds the reference's result term of the same arguments.
-/
import proofs.«140300_j64630667870273_2_alg».proof.Proof.BridgeRegions
import proofs.«140300_j64630667870273_2_alg».proof.Proof.KernelFoldTail
import proofs.«140300_j64630667870273_2_alg».proof.Proof.KernelPre
import proofs.«140300_j64630667870273_2_alg».proof.Proof.RefSide
import proofs.«140300_j64630667870273_2_alg».proof.Proof.RefTail
import proofs.«140300_j64630667870273_2_alg».proof.Proof.Gen.ReferenceIdeal.Read

set_option maxRecDepth 16384

noncomputable section

namespace Cert.Bridge

open Cert.KernelIdeal Cert.KernelIdeal.Gen Cert.KernelIdeal.Fold Cert.KernelIdeal.FoldEdge Cert.KernelIdeal.FoldMsg
open Idealize.ShloMosaic Idealize.ShloMosaic.ValueIdx Idealize.ShloMosaic.TcCoe Idealize.SL.Sem Idealize.ShloMosaic.StableHlo
open scoped BigOperators

variable (m : (ℓ : Loc nD τ sig) → Buf (Elt Ideal) ℓ) (ρ : Dev nD → PrngReg) (c : Dev nD)

open Cert.KernelIdeal.FoldTail Cert.ReferenceIdeal.Read

/-- The rectifier over an edge array at an index. -/
theorem reluE_apply (X : S1600000x20.Idx → EReal) (i : S1600000x20.Idx) :
    reluE (F := Ideal) X i = max (X i) (Ideal.ofBits .f32 0x00000000#32) := by
  unfold reluE
  rw [maximumf_apply, broadcastInDim_scalar_apply, constant_apply]

/-- The kernel's messages are the reference's. -/
theorem msg_eq (a0 : S2x1600000.Idx → BitVec 32) (a1 : S100000x16.Idx → EReal) (a2 : S1600000x16.Idx → EReal)
    (a3 : S100000.Idx → BitVec 32) (a4 : S48x20.Idx → EReal) (a5 : S20.Idx → EReal) (a6 : S20x10.Idx → EReal)
    (a7 : S10.Idx → EReal) (a8 : S10x10.Idx → EReal) (a9 : S10.Idx → EReal) (a10 : S10x1.Idx → EReal) (a11 : S1.Idx → EReal)
    (h0 : m ((c : Thread nD τ).loc main_arg0) = a0) (h1 : m ((c : Thread nD τ).loc main_arg1) = a1)
    (h2 : m ((c : Thread nD τ).loc main_arg2) = a2) (h4 : m ((c : Thread nD τ).loc main_arg4) = a4)
    (h5 : m ((c : Thread nD τ).loc main_arg5) = a5) :
    W6 m ρ c (Proc.devRef .tc main_v82) = val_main_v23 (F := Ideal) a0 a1 a2 a4 a5 := by
  rw [W6_v82, W5_v81, W4_v9, W4_v10, W4_v1, W4_v3, h0]
  funext i
  obtain ⟨e, h, rfl⟩ : ∃ (e : Fin 1600000) (h : Fin 20), i = ix2 e h := ⟨i 0, i 1, eq_ix2 i⟩
  rw [Cert.RefSide.ref_msg, reluE_apply]
  exact congrArg (fun z : EReal => max z (Ideal.ofBits .f32 0x00000000#32))
    (Cert.KernelPre.ker_pre a0 a1 a2 a4 a5 _ _
      (Cert.BridgeRegions.proj_at m ρ c a1 a4 h1 h4 _ rfl) (Cert.BridgeRegions.edge_at m ρ c a2 a4 a5 h2 h4 h5 _ rfl) e h)

/-- The kernel's summed messages are the reference's. -/
theorem nodes_eq (a0 : S2x1600000.Idx → BitVec 32) (a1 : S100000x16.Idx → EReal) (a2 : S1600000x16.Idx → EReal)
    (a3 : S100000.Idx → BitVec 32) (a4 : S48x20.Idx → EReal) (a5 : S20.Idx → EReal) (a6 : S20x10.Idx → EReal)
    (a7 : S10.Idx → EReal) (a8 : S10x10.Idx → EReal) (a9 : S10.Idx → EReal) (a10 : S10x1.Idx → EReal) (a11 : S1.Idx → EReal)
    (h0 : m ((c : Thread nD τ).loc main_arg0) = a0) (h1 : m ((c : Thread nD τ).loc main_arg1) = a1)
    (h2 : m ((c : Thread nD τ).loc main_arg2) = a2) (h4 : m ((c : Thread nD τ).loc main_arg4) = a4)
    (h5 : m ((c : Thread nD τ).loc main_arg5) = a5) :
    W7 m ρ c (Proc.devRef .tc main_v85) = val_main_v26 (F := Ideal) a0 a1 a2 a4 a5 := by
  rw [W7_v85, W6_v3, W4_v3, h0, msg_eq m ρ c a0 a1 a2 a3 a4 a5 a6 a7 a8 a9 a10 a11 h0 h1 h2 h4 h5, Cert.RefTail.ref_nodes]

/-- The kernel's node features are the reference's. -/
theorem feats_eq (a0 : S2x1600000.Idx → BitVec 32) (a1 : S100000x16.Idx → EReal) (a2 : S1600000x16.Idx → EReal)
    (a3 : S100000.Idx → BitVec 32) (a4 : S48x20.Idx → EReal) (a5 : S20.Idx → EReal) (a6 : S20x10.Idx → EReal)
    (a7 : S10.Idx → EReal) (a8 : S10x10.Idx → EReal) (a9 : S10.Idx → EReal) (a10 : S10x1.Idx → EReal) (a11 : S1.Idx → EReal)
    (h0 : m ((c : Thread nD τ).loc main_arg0) = a0) (h1 : m ((c : Thread nD τ).loc main_arg1) = a1)
    (h2 : m ((c : Thread nD τ).loc main_arg2) = a2) (h4 : m ((c : Thread nD τ).loc main_arg4) = a4)
    (h5 : m ((c : Thread nD τ).loc main_arg5) = a5) (h6 : m ((c : Thread nD τ).loc main_arg6) = a6)
    (h7 : m ((c : Thread nD τ).loc main_arg7) = a7) :
    W8 m ρ c (Proc.devRef .tc main_v87) = val_main_v31 (F := Ideal) a0 a1 a2 a4 a5 a6 a7 := by
  funext i
  obtain ⟨p, q, rfl⟩ : ∃ (p : Fin 100000) (q : Fin 10), i = ix2 p q := ⟨i 0, i 1, eq_ix2 i⟩
  rw [Cert.RefSide.ref_node]
  exact Cert.BridgeRegions.node_at m ρ c a6 a7 h6 h7 _
    (nodes_eq m ρ c a0 a1 a2 a3 a4 a5 a6 a7 a8 a9 a10 a11 h0 h1 h2 h4 h5) _ rfl p q

/-- THE RESULT: the kernel's result buffer at the return is the reference's result term of the same arguments. -/
theorem result_eq (a0 : S2x1600000.Idx → BitVec 32) (a1 : S100000x16.Idx → EReal) (a2 : S1600000x16.Idx → EReal)
    (a3 : S100000.Idx → BitVec 32) (a4 : S48x20.Idx → EReal) (a5 : S20.Idx → EReal) (a6 : S20x10.Idx → EReal)
    (a7 : S10.Idx → EReal) (a8 : S10x10.Idx → EReal) (a9 : S10.Idx → EReal) (a10 : S10x1.Idx → EReal) (a11 : S1.Idx → EReal)
    (h0 : m ((c : Thread nD τ).loc main_arg0) = a0) (h1 : m ((c : Thread nD τ).loc main_arg1) = a1)
    (h2 : m ((c : Thread nD τ).loc main_arg2) = a2) (h3 : m ((c : Thread nD τ).loc main_arg3) = a3)
    (h4 : m ((c : Thread nD τ).loc main_arg4) = a4) (h5 : m ((c : Thread nD τ).loc main_arg5) = a5)
    (h6 : m ((c : Thread nD τ).loc main_arg6) = a6) (h7 : m ((c : Thread nD τ).loc main_arg7) = a7)
    (h8 : m ((c : Thread nD τ).loc main_arg8) = a8) (h9 : m ((c : Thread nD τ).loc main_arg9) = a9)
    (h10 : m ((c : Thread nD τ).loc main_arg10) = a10) (h11 : m ((c : Thread nD τ).loc main_arg11) = a11) :
    W11 m ρ c (Proc.devRef .tc main_v99) = val_main_v43 (F := Ideal) a0 a1 a2 a3 a4 a5 a6 a7 a8 a9 a10 a11 := by
  rw [W11_v99, W8_arg3, W8_arg8, W8_arg9, W8_arg10, W8_arg11, h3, h8, h9, h10, h11,
    feats_eq m ρ c a0 a1 a2 a3 a4 a5 a6 a7 a8 a9 a10 a11 h0 h1 h2 h4 h5 h6 h7, Cert.RefTail.ref_readout]

end Cert.Bridge

end
-- ==== Proof.lean ====
/-
  A message-passing layer with graph pooling: the pipelined kernel program against the plain reference, at the extended reals.

  For each of 1600000 edges the reference joins the source node's 16 features, the destination node's 16 features and the
  edge's 16 attributes into one row of 48, multiplies by a 48 × 20 weight, adds a bias and rectifies; the messages are
  summed into their destination nodes, each node's 20 sums go through a dense layer with a rectifier, the 10 features are
  summed per graph, and two more dense layers give one number per graph. The kernel program computes the same by
  linearity of the first product in its three 16-row slabs: it projects the node table once by the first two slabs side
  by side (a pipelined region) and gathers from the projection; it packs eight edges' attributes into one 128-wide row
  and multiplies by the third slab repeated eight times along a diagonal (a second region), the zero blocks contributing
  exact zeros; it adds the three parts; and it runs the node layer as a third region. Addition on the extended reals
  is associative and commutative and a product with zero is zero, so no input needs to be finite for the two results to
  agree; the precondition is not opened.

  The three frames: the two kernel programs' are the generated frame certificates; the reference has no kernel and its
  frame is its run with the result dropped. The idealization rewrote nothing, so it is preserved trivially. For the value
  claim the kernel's run ends with its result buffer at the last boundary's contents (KernelRun), which is the
  reference's result term of the same arguments (Bridge).
-/
import proofs.«140300_j64630667870273_2_alg».proof.Defs
import proofs.«140300_j64630667870273_2_alg».proof.Proof.Gen.Kernel
import proofs.«140300_j64630667870273_2_alg».proof.Proof.Gen.Kernel.Skeleton
import proofs.«140300_j64630667870273_2_alg».proof.Proof.Gen.Kernel.Launch
import proofs.«140300_j64630667870273_2_alg».proof.Proof.Gen.Kernel.Points
import proofs.«140300_j64630667870273_2_alg».proof.Proof.Gen.Kernel.Frame
import proofs.«140300_j64630667870273_2_alg».proof.Proof.Gen.KernelIdeal
import proofs.«140300_j64630667870273_2_alg».proof.Proof.Gen.KernelIdeal.Skeleton
import proofs.«140300_j64630667870273_2_alg».proof.Proof.Gen.KernelIdeal.Launch
import proofs.«140300_j64630667870273_2_alg».proof.Proof.Gen.KernelIdeal.Points
import proofs.«140300_j64630667870273_2_alg».proof.Proof.Gen.KernelIdeal.Frame
import proofs.«140300_j64630667870273_2_alg».proof.Proof.Gen.ReferenceIdeal
import proofs.«140300_j64630667870273_2_alg».proof.Proof.Gen.ReferenceIdeal.Run
import proofs.«140300_j64630667870273_2_alg».proof.Proof.Gen.ReferenceIdeal.Read
import proofs.«140300_j64630667870273_2_alg».proof.Proof.Gen.Pre_finite_inputs
import proofs.«140300_j64630667870273_2_alg».proof.Proof.KernelRun
import proofs.«140300_j64630667870273_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the twelve arguments both programs end, the kernel's result buffer at the last
    boundary's contents and the reference's at its result term — one function of the arguments. -/
theorem algebraic : Cert.algebraic_KernelIdeal_ReferenceIdeal := by
  intro m ρ m' ρ' _ hagree
  refine ⟨fun c => Cert.KernelIdeal.Gen.W11 m ρ c (Proc.devRef .tc Cert.KernelIdeal.main_v99),
    Cert.KernelIdeal.RunResult.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v43_eq, e0, e1, e2, e3, e4, e5, e6, e7, e8, e9, e10, e11]
  exact (Cert.Bridge.result_eq m ρ c _ _ _ _ _ _ _ _ _ _ _ _ rfl rfl rfl rfl rfl rfl rfl rfl rfl rfl rfl rfl).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
